-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S512x128 : Shape := ⟨2, ![512, 128]⟩
abbrev S128 : Shape := ⟨1, ![128]⟩
abbrev S512x1 : Shape := ⟨2, ![512, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S512x128 .f32) (main_arg3 : FVec F S128 .f32) (main_arg4 : FVec F S512x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S512x128 : Shape := ⟨2, ![512, 128]⟩
abbrev S128 : Shape := ⟨1, ![128]⟩
abbrev S512x1 : Shape := ⟨2, ![512, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S4x128 : Shape := ⟨2, ![4, 128]⟩
abbrev S128x4 : Shape := ⟨2, ![128, 4]⟩
abbrev S100000x4 : Shape := ⟨2, ![100000, 4]⟩
abbrev S4000x128 : Shape := ⟨2, ![4000, 128]⟩
abbrev S4000x4 : Shape := ⟨2, ![4000, 4]⟩
abbrev S128x128 : Shape := ⟨2, ![128, 128]⟩
abbrev S100000x1 : Shape := ⟨2, ![100000, 1]⟩
abbrev S1x1 : Shape := ⟨2, ![1, 1]⟩

abbrev nBuf : Space → Nat
  | .hbm => 162
  | .vmem => 13
  | .smem => 0
  | _ => 0

abbrev hbmTy0_0 (i : Nat) : BufTy := match i % 128 with
  | 0 => ⟨S100000x128, .f32⟩
  | 1 => ⟨S2x1600000, .i32⟩
  | 2 => ⟨S512x128, .f32⟩
  | 3 => ⟨S128, .f32⟩
  | 4 => ⟨S512x1, .f32⟩
  | 5 => ⟨S1, .f32⟩
  | 6 => ⟨S1x1600000, .i32⟩
  | 7 => ⟨S1600000, .i32⟩
  | 8 => ⟨S1x1600000, .i32⟩
  | 9 => ⟨S1600000, .i32⟩
  | 10 => ⟨S1x1600000, .i32⟩
  | 11 => ⟨S1x1600000, .i32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S1600000x128, .f32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S1600000x1, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S1600000x128, .f32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S512x128, .bf16⟩
  | 102 => ⟨S1x128, .f32⟩
  | 103 => ⟨S4x128, .f32⟩
  | 104 => ⟨S128x4, .f32⟩
  | 105 => ⟨S128x4, .bf16⟩
  | 106 => ⟨S100000x4, .f32⟩
  | 107 => ⟨S100000x1, .f32⟩
  | 108 => ⟨S100000x1, .f32⟩
  | 109 => ⟨S1600000x1, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x1, .f32⟩
  | 119 => ⟨S1600000x1, .f32⟩
  | 120 => ⟨S_, .f32⟩
  | 121 => ⟨S100000x1, .f32⟩
  | 122 => ⟨S1600000x1, .i32⟩
  | 123 => ⟨S100000x1, .f32⟩
  | 124 => ⟨S100000x1, .f32⟩
  | 125 => ⟨S100000x1, .f32⟩
  | 126 => ⟨S1600000x1, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x1, .f32⟩
  | 8 => ⟨S1600000x1, .f32⟩
  | 9 => ⟨S_, .f32⟩
  | 10 => ⟨S100000x1, .f32⟩
  | 11 => ⟨S1600000x1, .i32⟩
  | 12 => ⟨S100000x1, .f32⟩
  | 13 => ⟨S100000x1, .f32⟩
  | 14 => ⟨S100000x1, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x1, .f32⟩
  | 25 => ⟨S1600000x1, .f32⟩
  | 26 => ⟨S_, .f32⟩
  | 27 => ⟨S100000x1, .f32⟩
  | 28 => ⟨S1600000x1, .i32⟩
  | 29 => ⟨S100000x1, .f32⟩
  | 30 => ⟨S100000x1, .f32⟩
  | 31 => ⟨S1x1, .f32⟩
  | 32 => ⟨S100000x1, .f32⟩
  | 33 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S512x128, .bf16⟩
  | .local _ .vmem, ⟨9, _⟩ => ⟨S1x128, .f32⟩
  | .local _ .vmem, ⟨10, _⟩ => ⟨S128x4, .bf16⟩
  | .local _ .vmem, ⟨11, _⟩ => ⟨S4000x4, .f32⟩
  | .local _ .vmem, ⟨12, _⟩ => ⟨S4000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_16 : Ref sig .tc := ⟨.hbm, 110, rfl⟩
abbrev main_v84 : Ref sig .tc := ⟨.hbm, 111, rfl⟩
abbrev main_v85 : Ref sig .tc := ⟨.hbm, 112, rfl⟩
abbrev main_c_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_19 : Ref sig .tc := ⟨.hbm, 127, rfl⟩
abbrev main_v98 : Ref sig .tc := ⟨.hbm, 128, rfl⟩
abbrev main_v99 : Ref sig .tc := ⟨.hbm, 129, rfl⟩
abbrev main_c_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_c_22 : Ref sig .tc := ⟨.hbm, 144, rfl⟩
abbrev main_v112 : Ref sig .tc := ⟨.hbm, 145, rfl⟩
abbrev main_v113 : Ref sig .tc := ⟨.hbm, 146, rfl⟩
abbrev main_c_23 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_24 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1x1600000_1 : S1600000.BroadcastsInDim S1x1600000 (![1] : Fin 1 → Fin S1x1600000.rank)
  concatenates_S1x1600000_S1x1600000_S2x1600000_d0 : Shape.Concatenates [S1x1600000, S1x1600000] S2x1600000 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  shapeCasts_S512x1_S4x128 : S512x1.ShapeCasts S4x128
  transposes_S4x128_S128x4_1_0 : S4x128.Transposes [1, 0] S128x4
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S128x128 : S512x128.Slices ![0, 0] S128x128
  slices_S512x128_o128_0_S128x128 : S512x128.Slices ![128, 0] S128x128
  slices_S512x128_o256_0_S128x128 : S512x128.Slices ![256, 0] S128x128
  slices_S512x128_o384_0_S128x128 : S512x128.Slices ![384, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4000x4_S4000x4_0_0 : ∀ a, (![0, 0] : Fin 2 → Nat) a + S4000x4.size a ≤ S4000x4.size a
  h_S4000x4 : 0 < S4000x4.numel
  slices_S100000x4_S100000x1_0_3 : S100000x4.Slices ![0, 3] S100000x1
  slices_S100000x4_S100000x1_0_2 : S100000x4.Slices ![0, 2] S100000x1
  bcast_S_S100000x1 : S_.BroadcastsInDim S100000x1 (![] : Fin 0 → Fin S100000x1.rank)
  slices_S100000x4_S100000x1_0_1 : S100000x4.Slices ![0, 1] S100000x1
  slices_S100000x4_S100000x1_0_0 : S100000x4.Slices ![0, 0] S100000x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x4_S4000x4_1_0_0_1_n_n_wf : DotDims.WF S4000x128 S128x4 S4000x4 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4.size a ≤ S128x4.size a
  hwx0_6 : ∀ i : grid0.Coords, EltTy.bits .bf16 = 32 ∨ (Rect.block (s := S128x4) S128x4.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x4.size a ≤ S100000x4.size a
  hwx0_7 : ∀ i : grid0.Coords, EltTy.bits .f32 = 32 ∨ (Rect.block (s := S100000x4) S4000x4.size (cc0_transform_7 i) (hinb0_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v75) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v76) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v79) S128x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v80) S4000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S512x128 : Shape := ⟨2, ![512, 128]⟩
abbrev S128 : Shape := ⟨1, ![128]⟩
abbrev S512x1 : Shape := ⟨2, ![512, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x512 : Shape := ⟨2, ![100000, 512]⟩
abbrev S1x128 : Shape := ⟨2, ![1, 128]⟩
abbrev S100000x1 : Shape := ⟨2, ![100000, 1]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S2x1600000, .i32⟩
  | 2 => ⟨S512x128, .f32⟩
  | 3 => ⟨S128, .f32⟩
  | 4 => ⟨S512x1, .f32⟩
  | 5 => ⟨S1, .f32⟩
  | 6 => ⟨S1x1600000, .i32⟩
  | 7 => ⟨S1600000, .i32⟩
  | 8 => ⟨S1x1600000, .i32⟩
  | 9 => ⟨S1600000, .i32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S1600000x1, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S1600000x128, .f32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S100000x512, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x128, .f32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S1600000x1, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S1600000x128, .f32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S1600000x1, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1600000x128, .f32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x512, .f32⟩
  | 27 => ⟨S100000x1, .f32⟩
  | 28 => ⟨S1x1, .f32⟩
  | 29 => ⟨S100000x1, .f32⟩
  | 30 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_19 : Ref sig .tc := ⟨.hbm, 123, rfl⟩
abbrev main_v92 : Ref sig .tc := ⟨.hbm, 124, rfl⟩
abbrev main_v93 : Ref sig .tc := ⟨.hbm, 125, rfl⟩
abbrev main_c_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_21 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_22 : Ref sig .tc := ⟨.hbm, 139, rfl⟩
abbrev main_v105 : Ref sig .tc := ⟨.hbm, 140, rfl⟩
abbrev main_v106 : Ref sig .tc := ⟨.hbm, 141, rfl⟩
abbrev main_c_23 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_24 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x128_S100000x128_S100000x512_d1 : Shape.Concatenates [S100000x128, S100000x128, S100000x128, S100000x128] S100000x512 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x512_S512x128_S100000x128_1_0_0_1_n_n_wf : DotDims.WF S100000x512 S512x128 S100000x128 [1] [0] [0] [1] [] []
  dot_S100000x512_S512x1_S100000x1_1_0_0_1_n_n_wf : DotDims.WF S100000x512 S512x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf

class Facts : Prop extends Facts₀ where

variable [Facts]
-- ==== Proof.Shapes.lean ====
/-
  The array shapes of the graph convolution and the dimension numbers of its row gathers and row scatters.

  N = 100000 nodes, E = 1600000 edges, 128 features. A hop gathers rows of a [N, W] array at [E, 1] start indices
  (W = 128 for feature rows, W = 1 for a scalar per node) and adds [E, W] update rows into a [N, W] array; the degree
  count and the edge weights use the rank-1 forms ([N] gathered at [E, 1] indices; [E] updates added into [N]).
-/
import Idealize.ShloMosaic.PureOps.Ideal

namespace Cert.Tag

open Idealize.ShloMosaic

abbrev S0 : Shape := ⟨0, ![]⟩
abbrev SN : Shape := ⟨1, ![100000]⟩
abbrev SE : Shape := ⟨1, ![1600000]⟩
abbrev SN128 : Shape := ⟨2, ![100000, 128]⟩
abbrev SN1 : Shape := ⟨2, ![100000, 1]⟩
abbrev SN4 : Shape := ⟨2, ![100000, 4]⟩
abbrev SN512 : Shape := ⟨2, ![100000, 512]⟩
abbrev SE128 : Shape := ⟨2, ![1600000, 128]⟩
abbrev SE1 : Shape := ⟨2, ![1600000, 1]⟩
abbrev S2E : Shape := ⟨2, ![2, 1600000]⟩
abbrev S1E : Shape := ⟨2, ![1, 1600000]⟩
abbrev S512x128 : Shape := ⟨2, ![512, 128]⟩
abbrev S512x1 : Shape := ⟨2, ![512, 1]⟩
abbrev S4x128 : Shape := ⟨2, ![4, 128]⟩
abbrev S128x4 : Shape := ⟨2, ![128, 4]⟩
abbrev S128 : Shape := ⟨1, ![128]⟩
abbrev S1x128 : Shape := ⟨2, ![1, 128]⟩
abbrev S1 : Shape := ⟨1, ![1]⟩
abbrev S1x1 : Shape := ⟨2, ![1, 1]⟩

/-- `x[rows]`: rows of a [N, 128] array taken at [E, 1] start indices. -/
def gatherRows128 : GatherDims SN128 SE1 SE128 where
  offsetDims := [1]
  collapsedSliceDims := [0]
  operandBatchingDims := []
  startIndicesBatchingDims := []
  startIndexMap := [0]
  indexVectorDim := 1
  sliceSizes := ![1, 128]

/-- The same at one column. -/
def gatherRows1 : GatherDims SN1 SE1 SE1 where
  offsetDims := [1]
  collapsedSliceDims := [0]
  operandBatchingDims := []
  startIndicesBatchingDims := []
  startIndexMap := [0]
  indexVectorDim := 1
  sliceSizes := ![1, 1]

/-- `x[idx]` of a flat [N] array at [E, 1] start indices. -/
def gatherFlat : GatherDims SN SE1 SE where
  offsetDims := []
  collapsedSliceDims := [0]
  operandBatchingDims := []
  startIndicesBatchingDims := []
  startIndexMap := [0]
  indexVectorDim := 1
  sliceSizes := ![1]

/-- `.at[rows].add(updates)`: [E, 128] update rows added into a [N, 128] array. -/
def scatterRows128 : ScatterDims SN128 SE1 SE128 where
  updateWindowDims := [1]
  insertedWindowDims := [0]
  scatterDimsToOperandDims := [0]
  indexVectorDim := 1

/-- The same at one column. -/
def scatterRows1 : ScatterDims SN1 SE1 SE1 where
  updateWindowDims := [1]
  insertedWindowDims := [0]
  scatterDimsToOperandDims := [0]
  indexVectorDim := 1

/-- `.at[idx].add(updates)` of [E] scalars into a flat [N] array. -/
def scatterFlat : ScatterDims SN SE1 SE where
  updateWindowDims := []
  insertedWindowDims := [0]
  scatterDimsToOperandDims := [0]
  indexVectorDim := 1

end Cert.Tag
-- ==== Proof.Spec.lean ====
/-
  The two programs' host stages, written once.

  Both programs read the edge list `ei : [2, E]` as a source row and a destination row, count each node's in-degree
  by a scatter of ones, take `dinv = where(deg > 0, rsqrt(max(deg, 1)), 0)`, weight edge `e` by
  `dinv[src e] * dinv[dst e]`, and propagate: gather the rows `h[src e]` (negative indices wrapped by `+N`, then
  clamped by the gather), scale by the edge weight, and add into row `dst e`. The reference concatenates four hops and
  contracts with a [512, ·] weight; the kernel's program contracts inside its kernel and propagates scalar columns.
  Every definition here is the composition of host operations the programs apply, at the ideal instance.
-/
import proofs.«143162_j84885733638248_2_alg».proof.Proof.Shapes
import Idealize.ShloMosaic.PureOps
import Idealize.ShloMosaic.Lib.ValueIdx

noncomputable section

namespace Cert.Tag

open Idealize.ShloMosaic Idealize.ShloMosaic.ValueIdx

/-! ## Shape relations the operations ask for -/

theorem slice_row0 : S2E.Slices ![0, 0] S1E := by decide
theorem slice_row1 : S2E.Slices ![1, 0] S1E := by decide
theorem cast_1E_E : S1E.ShapeCasts SE := by decide
theorem bc_0_E : S0.BroadcastsInDim SE (![] : Fin 0 → Fin SE.rank) := by decide
theorem bc_0_N : S0.BroadcastsInDim SN (![] : Fin 0 → Fin SN.rank) := by decide
theorem bc_0_N128 : S0.BroadcastsInDim SN128 (![] : Fin 0 → Fin SN128.rank) := by decide
theorem bc_0_N1 : S0.BroadcastsInDim SN1 (![] : Fin 0 → Fin SN1.rank) := by decide
theorem bc_E_E1 : SE.BroadcastsInDim SE1 (![0] : Fin 1 → Fin SE1.rank) := by decide
theorem bc_E1_E128 : SE1.BroadcastsInDim SE128 (![0, 1] : Fin 2 → Fin SE128.rank) := by decide
theorem bc_E_1E : SE.BroadcastsInDim S1E (![1] : Fin 1 → Fin S1E.rank) := by decide
theorem cat_rows : Shape.Concatenates [S1E, S1E] S2E 0 := by decide
theorem cat_hops : Shape.Concatenates [SN128, SN128, SN128, SN128] SN512 1 := by decide
theorem bc_128_1x128 : S128.BroadcastsInDim S1x128 (![1] : Fin 1 → Fin S1x128.rank) := by decide
theorem bc_1x128_N128 : S1x128.BroadcastsInDim SN128 (![0, 1] : Fin 2 → Fin SN128.rank) := by decide
theorem bc_1_1x1 : S1.BroadcastsInDim S1x1 (![1] : Fin 1 → Fin S1x1.rank) := by decide
theorem bc_1x1_N1 : S1x1.BroadcastsInDim SN1 (![0, 1] : Fin 2 → Fin SN1.rank) := by decide
theorem cast_128_1x128 : S128.ShapeCasts S1x128 := by decide
theorem cast_512x1_4x128 : S512x1.ShapeCasts S4x128 := by decide
theorem tr_4x128_128x4 : S4x128.Transposes [1, 0] S128x4 := by decide
theorem bits_bf16_f32 : FTy.bits .bf16 < FTy.bits .f32 := by decide
theorem slice_col0 : SN4.Slices ![0, 0] SN1 := by decide
theorem slice_col1 : SN4.Slices ![0, 1] SN1 := by decide
theorem slice_col2 : SN4.Slices ![0, 2] SN1 := by decide
theorem slice_col3 : SN4.Slices ![0, 3] SN1 := by decide

/-- The contraction of a [N, 512] array with a [512, 128] matrix. -/
def dotW1 : DotDims SN512 S512x128 SN128 where
  lhsContracting := [1]
  rhsContracting := [0]
  lhsNonContracting := [0]
  rhsNonContracting := [1]
  lhsBatch := []
  rhsBatch := []

/-- The contraction of a [N, 512] array with a [512, 1] column. -/
def dotW2 : DotDims SN512 S512x1 SN1 where
  lhsContracting := [1]
  rhsContracting := [0]
  lhsNonContracting := [0]
  rhsNonContracting := [1]
  lhsBatch := []
  rhsBatch := []

/-! ## The edge list -/

/-- Row 0 of the edge list: the edges' source nodes. -/
def srcOf (ei : IVec S2E 32) : IVec SE 32 := shapeCast _ (extractStridedSlice S1E ![0, 0] ei slice_row0) cast_1E_E
/-- Row 1 of the edge list: the edges' destination nodes. -/
def dstOf (ei : IVec S2E 32) : IVec SE 32 := shapeCast _ (extractStridedSlice S1E ![1, 0] ei slice_row1) cast_1E_E

/-- The two rows stacked again into a [2, E] array (what the kernel's program hands its weight computation). -/
def restack (ei : IVec S2E 32) : IVec S2E 32 :=
  concatenate S2E 0 [⟨S1E, broadcastInDim S1E ![1] bc_E_1E (srcOf ei)⟩, ⟨S1E, broadcastInDim S1E ![1] bc_E_1E (dstOf ei)⟩] cat_rows

/-- An index list as [E, 1] start indices, a negative index first wrapped by `+ N`. -/
def wrapIdx (s : IVec SE 32) : IVec SE1 32 :=
  broadcastInDim SE1 ![0] bc_E_E1
    (select (cmpi .slt s (broadcastInDim SE ![] bc_0_E (constantI S0 32 0#32)))
      (addi s (broadcastInDim SE ![] bc_0_E (constantI S0 32 100000#32))) s)

/-- An index list as [E, 1] scatter indices. -/
def colIdx (s : IVec SE 32) : IVec SE1 32 := broadcastInDim SE1 ![0] bc_E_E1 s

/-! ## Degrees and edge weights -/

/-- The in-degree of every node: ones added at the destination indices. -/
def degOf (dst : IVec SE 32) : FVec Ideal SN .f32 :=
  Host.scatterAdd (F := Ideal) scatterFlat (broadcastInDim SN ![] bc_0_N (constant (F := Ideal) S0 .f32 0x00000000#32)) (colIdx dst)
    (broadcastInDim SE ![] bc_0_E (constant (F := Ideal) S0 .f32 0x3F800000#32))

/-- `where(deg > 0, rsqrt(max(deg, 1)), 0)`. -/
def dinvOf (dst : IVec SE 32) : FVec Ideal SN .f32 :=
  select (cmpf (F := Ideal) .ogt (degOf dst) (broadcastInDim SN ![] bc_0_N (constant (F := Ideal) S0 .f32 0x00000000#32)))
    (Host.rsqrt (F := Ideal) (maximumf (F := Ideal) (degOf dst) (broadcastInDim SN ![] bc_0_N (constant (F := Ideal) S0 .f32 0x3F800000#32))))
    (broadcastInDim SN ![] bc_0_N (id (constant (F := Ideal) S0 .f32 0x00000000#32)))

/-- The weight of every edge: `dinv[src] * dinv[dst]`. -/
def normOf (src dst : IVec SE 32) : FVec Ideal SE .f32 :=
  mulf (F := Ideal) (Host.gather gatherFlat (dinvOf dst) (wrapIdx src)) (Host.gather gatherFlat (dinvOf dst) (wrapIdx dst))

/-! ## One hop -/

/-- One hop on feature rows: `segment_sum(nrm[:, None] * h[src], dst)`. -/
def hopRows (src dst : IVec SE 32) (nrm : FVec Ideal SE .f32) (h : FVec Ideal SN128 .f32) : FVec Ideal SN128 .f32 :=
  Host.scatterAdd (F := Ideal) scatterRows128 (broadcastInDim SN128 ![] bc_0_N128 (constant (F := Ideal) S0 .f32 0x00000000#32)) (colIdx dst)
    (mulf (F := Ideal) (broadcastInDim SE128 ![0, 1] bc_E1_E128 (broadcastInDim SE1 ![0] bc_E_E1 nrm))
      (Host.gather gatherRows128 h (wrapIdx src)))

/-- One hop on a scalar column. -/
def hopCol (src dst : IVec SE 32) (nrm : FVec Ideal SE .f32) (v : FVec Ideal SN1 .f32) : FVec Ideal SN1 .f32 :=
  Host.scatterAdd (F := Ideal) scatterRows1 (broadcastInDim SN1 ![] bc_0_N1 (constant (F := Ideal) S0 .f32 0x00000000#32)) (colIdx dst)
    (mulf (F := Ideal) (broadcastInDim SE1 ![0] bc_E_E1 nrm) (Host.gather gatherRows1 v (wrapIdx src)))

/-! ## The reference: two layers of concatenated hops -/

/-- `concat([h, Ph, P²h, P³h], axis = 1)`. -/
def hopsCat (src dst : IVec SE 32) (nrm : FVec Ideal SE .f32) (h : FVec Ideal SN128 .f32) : FVec Ideal SN512 .f32 :=
  concatenate SN512 1 [⟨SN128, h⟩, ⟨SN128, hopRows src dst nrm h⟩, ⟨SN128, hopRows src dst nrm (hopRows src dst nrm h)⟩,
    ⟨SN128, hopRows src dst nrm (hopRows src dst nrm (hopRows src dst nrm h))⟩] cat_hops

/-- Layer 1 of the reference: `relu(concat(hops x) @ W1 + b1)`. -/
def layer1Ref (src dst : IVec SE 32) (nrm : FVec Ideal SE .f32) (x : FVec Ideal SN128 .f32) (W1 : FVec Ideal S512x128 .f32)
    (b1 : FVec Ideal S128 .f32) : FVec Ideal SN128 .f32 :=
  maximumf (F := Ideal)
    (addf (F := Ideal) (Host.dotGeneral (F := Ideal) dotW1 none (hopsCat src dst nrm x) W1)
      (broadcastInDim SN128 ![0, 1] bc_1x128_N128 (broadcastInDim S1x128 ![1] bc_128_1x128 b1)))
    (broadcastInDim SN128 ![] bc_0_N128 (constant (F := Ideal) S0 .f32 0x00000000#32))

/-- Layer 2 of the reference on an activation `g`: `concat(hops g) @ W2 + b2`. -/
def layer2Ref (src dst : IVec SE 32) (nrm : FVec Ideal SE .f32) (g : FVec Ideal SN128 .f32) (W2 : FVec Ideal S512x1 .f32)
    (b2 : FVec Ideal S1 .f32) : FVec Ideal SN1 .f32 :=
  addf (F := Ideal) (Host.dotGeneral (F := Ideal) dotW2 none (hopsCat src dst nrm g) W2)
    (broadcastInDim SN1 ![0, 1] bc_1x1_N1 (broadcastInDim S1x1 ![1] bc_1_1x1 b2))

/-- The reference's result as a function of its six arguments. -/
def refOut (x : FVec Ideal SN128 .f32) (ei : IVec S2E 32) (W1 : FVec Ideal S512x128 .f32) (b1 : FVec Ideal S128 .f32)
    (W2 : FVec Ideal S512x1 .f32) (b2 : FVec Ideal S1 .f32) : FVec Ideal SN1 .f32 :=
  layer2Ref (srcOf ei) (dstOf ei) (normOf (srcOf ei) (dstOf ei))
    (layer1Ref (srcOf ei) (dstOf ei) (normOf (srcOf ei) (dstOf ei)) x W1 b1) W2 b2

/-! ## The kernel's program around its kernel -/

/-- The layer-2 weight as four columns: `W2.reshape(4, 128).T`, rounded to bf16 (the identity here). -/
def w2Cols (W2 : FVec Ideal S512x1 .f32) : FVec Ideal S128x4 .bf16 :=
  truncf (F := Ideal) .bf16 (transpose S128x4 [1, 0] (shapeCast S4x128 W2 cast_512x1_4x128) tr_4x128_128x4) bits_bf16_f32

/-- The layer-1 weight rounded to bf16 (the identity here). -/
def w1Bf (W1 : FVec Ideal S512x128 .f32) : FVec Ideal S512x128 .bf16 := truncf (F := Ideal) .bf16 W1 bits_bf16_f32

/-- The bias as a [1, 128] row. -/
def b1Row (b1 : FVec Ideal S128 .f32) : FVec Ideal S1x128 .f32 := shapeCast S1x128 b1 cast_128_1x128

/-- Column `k` of the kernel's [N, 4] result. -/
def col0 (u : FVec Ideal SN4 .f32) : FVec Ideal SN1 .f32 := extractStridedSlice SN1 ![0, 0] u slice_col0
def col1 (u : FVec Ideal SN4 .f32) : FVec Ideal SN1 .f32 := extractStridedSlice SN1 ![0, 1] u slice_col1
def col2 (u : FVec Ideal SN4 .f32) : FVec Ideal SN1 .f32 := extractStridedSlice SN1 ![0, 2] u slice_col2
def col3 (u : FVec Ideal SN4 .f32) : FVec Ideal SN1 .f32 := extractStridedSlice SN1 ![0, 3] u slice_col3

/-- The host operations after the kernel: Horner's evaluation over the four columns, then the bias. -/
def tailOut (src dst : IVec SE 32) (nrm : FVec Ideal SE .f32) (u : FVec Ideal SN4 .f32) (b2 : FVec Ideal S1 .f32) :
    FVec Ideal SN1 .f32 :=
  addf (F := Ideal)
    (addf (F := Ideal) (col0 u) (hopCol src dst nrm
      (addf (F := Ideal) (col1 u) (hopCol src dst nrm
        (addf (F := Ideal) (col2 u) (hopCol src dst nrm (col3 u)))))))
    (broadcastInDim SN1 ![0, 1] bc_1x1_N1 (broadcastInDim S1x1 ![1] bc_1_1x1 b2))

/-- Row `n` of `h` against the 128 rows of `W` that start at row `off`, at output feature `j`. -/
def dotRow (h : FVec Ideal SN128 .f32) (W : FVec Ideal S512x128 .bf16) (off : Nat) (hoff : off + 128 ≤ 512) (n : Fin 100000)
    (j : Fin 128) : EReal :=
  ∑ f : Fin 128, h (ix2 n f) * W (ix2 (⟨off + f.val, by omega⟩ : Fin 512) j)

/-- The layer-1 activation the kernel forms in registers, at node `n` and feature `j`:
    `relu(h0 @ W1[0:128] + h1 @ W1[128:256] + h2 @ W1[256:384] + h3 @ W1[384:512] + b1)`. -/
def kernelAct (h0 h1 h2 h3 : FVec Ideal SN128 .f32) (W1 : FVec Ideal S512x128 .bf16) (b1r : FVec Ideal S1x128 .f32)
    (n : Fin 100000) (j : Fin 128) : EReal :=
  max ((((dotRow h0 W1 0 (by omega) n j + dotRow h1 W1 128 (by omega) n j) + dotRow h2 W1 256 (by omega) n j)
    + dotRow h3 W1 384 (by omega) n j) + b1r (ix2 (0 : Fin 1) j)) 0

/-- The kernel's result at node `n`, column `k`: the activation contracted with column `k` of the [128, 4] weight. -/
def kernelUAt (h0 h1 h2 h3 : FVec Ideal SN128 .f32) (W1 : FVec Ideal S512x128 .bf16) (b1r : FVec Ideal S1x128 .f32)
    (w2c : FVec Ideal S128x4 .bf16) (n : Fin 100000) (k : Fin 4) : EReal :=
  ∑ j : Fin 128, kernelAct h0 h1 h2 h3 W1 b1r n j * w2c (ix2 j k)

/-- The kernel's [N, 4] result as one array. -/
def kernelU (h0 h1 h2 h3 : FVec Ideal SN128 .f32) (W1 : FVec Ideal S512x128 .bf16) (b1r : FVec Ideal S1x128 .f32)
    (w2c : FVec Ideal S128x4 .bf16) : FVec Ideal SN4 .f32 :=
  fun i => kernelUAt h0 h1 h2 h3 W1 b1r w2c ⟨(i 0).val, idx2_lt0 i⟩ ⟨(i 1).val, idx2_lt1 i⟩

/-- The kernel's program's result as a function of its six arguments. -/
def kernelOut (x : FVec Ideal SN128 .f32) (ei : IVec S2E 32) (W1 : FVec Ideal S512x128 .f32) (b1 : FVec Ideal S128 .f32)
    (W2 : FVec Ideal S512x1 .f32) (b2 : FVec Ideal S1 .f32) : FVec Ideal SN1 .f32 :=
  let src := srcOf ei
  let dst := dstOf ei
  let nrm := normOf (srcOf (restack ei)) (dstOf (restack ei))
  tailOut src dst nrm
    (kernelU x (hopRows src dst nrm x) (hopRows src dst nrm (hopRows src dst nrm x))
      (hopRows src dst nrm (hopRows src dst nrm (hopRows src dst nrm x))) (w1Bf W1) (b1Row b1) (w2Cols W2)) b2

end Cert.Tag
-- ==== Proof.Finite.lean ====
/-
  Extended reals that are real numbers.

  The graph convolution's two arrangements agree because multiplication distributes over addition, and on the
  extended reals that law holds only away from the infinities. Every value the two programs compute from finite
  inputs is a real number; this file names that property and shows the operations that preserve it.
-/
import Idealize.ShloMosaic.PureOps.Ideal

namespace Cert.Tag

/-- An extended real that is (the image of) a real number: neither infinity. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) :
    IsReal (if p then x else y) := by
  split
  · exact hx
  · exact hy

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real-valued extended reals is the coercion of a real family. -/
theorem exists_real_family {ι : Type*} (f : ι → EReal) (h : ∀ i, IsReal (f i)) :
    ∃ g : ι → ℝ, ∀ i, f i = (g i : EReal) :=
  ⟨fun i => (h i).choose, fun i => (h i).choose_spec⟩

end Cert.Tag
-- ==== Proof.HornerLaw.lean ====
/-
  The Horner law for a linear hop.

  A hop sends an array `h` indexed by node (and feature) to the array whose entry at node `n` is the sum, over
  the edges `e` whose destination `σ e` is `n`, of the edge weight `ν e` times the entry of `h` at the edge's
  source `ρ e`. An edge whose destination is `none` contributes nothing. The hop acts on the node axis only and
  is linear, so

    * contracting the feature axis with a weight vector commutes with a hop:
        `∑ j, (P h) n j * w j = P (fun n' => ∑ j, h n' j * w j) n`;
    * a hop is additive: `P (a + b) = P a + P b`;
    * hence `g·W₀ + P (g·W₁ + P (g·W₂ + P (g·W₃))) = g·W₀ + ((P g)·W₁ + ((P² g)·W₂ + (P³ g)·W₃))`.

  On the extended reals multiplication distributes over addition only away from the infinities, so every law
  is stated for real-valued data (`IsReal`). Each proof replaces the data by coercions of real families, pulls
  the coercion outside, and proves the identity in `ℝ`.
-/
import proofs.«143162_j84885733638248_2_alg».proof.Proof.Finite

open scoped BigOperators

namespace Cert.Tag

/-- A conditional of two coerced reals is the coercion of the conditional. -/
theorem ite_coe {p : Prop} [Decidable p] (a b : ℝ) :
    (if p then (a : EReal) else (b : EReal)) = ((if p then a else b : ℝ) : EReal) := by
  split <;> rfl

/-- A two-argument family of real-valued extended reals is the coercion of a real family. -/
theorem exists_real_family₂ {α β : Type*} (f : α → β → EReal) (h : ∀ a b, IsReal (f a b)) :
    ∃ g : α → β → ℝ, f = fun a b => (g a b : EReal) :=
  ⟨fun a b => (h a b).choose, funext fun a => funext fun b => (h a b).choose_spec⟩

/-- A family of real-valued extended reals equals the coercion of a real family, as functions. -/
theorem exists_real_family₁ {α : Type*} (f : α → EReal) (h : ∀ a, IsReal (f a)) :
    ∃ g : α → ℝ, f = fun a => (g a : EReal) :=
  ⟨fun a => (h a).choose, funext fun a => (h a).choose_spec⟩

/-- Multiplication distributes over addition on real-valued extended reals. -/
theorem IsReal.mul_add {x y z : EReal} (hx : IsReal x) (hy : IsReal y) (hz : IsReal z) :
    x * (y + z) = x * y + x * z := by
  obtain ⟨a, rfl⟩ := hx
  obtain ⟨b, rfl⟩ := hy
  obtain ⟨c, rfl⟩ := hz
  rw [← EReal.coe_add, ← EReal.coe_mul, ← EReal.coe_mul, ← EReal.coe_mul, ← EReal.coe_add, _root_.mul_add]

section
variable {E N J : Type} [Fintype E] [Fintype J] [DecidableEq N]

/-- One hop on an array indexed by node and feature. -/
noncomputable def hop (σ : E → Option N) (ρ : E → N) (ν : E → EReal) (h : N → J → EReal) : N → J → EReal :=
  fun n f => ∑ e : E, if σ e = some n then ν e * h (ρ e) f else 0

/-- One hop on a scalar per node. -/
noncomputable def hop1 (σ : E → Option N) (ρ : E → N) (ν : E → EReal) (v : N → EReal) : N → EReal :=
  fun n => ∑ e : E, if σ e = some n then ν e * v (ρ e) else 0

theorem hop_isReal (σ : E → Option N) (ρ : E → N) (ν : E → EReal) (h : N → J → EReal)
    (hν : ∀ e, IsReal (ν e)) (hh : ∀ n f, IsReal (h n f)) : ∀ n f, IsReal (hop σ ρ ν h n f) := by
  intro n f
  unfold hop
  exact IsReal.sum _ _ (fun e _ => IsReal.ite ((hν e).mul (hh _ _)) IsReal.zero)

theorem hop1_isReal (σ : E → Option N) (ρ : E → N) (ν : E → EReal) (v : N → EReal)
    (hν : ∀ e, IsReal (ν e)) (hv : ∀ n, IsReal (v n)) : ∀ n, IsReal (hop1 σ ρ ν v n) := by
  intro n
  unfold hop1
  exact IsReal.sum _ _ (fun e _ => IsReal.ite ((hν e).mul (hv _)) IsReal.zero)

/-- A hop of coerced real data is the coercion of the hop computed in `ℝ`. -/
theorem hop_coe (σ : E → Option N) (ρ : E → N) (ν : E → ℝ) (h : N → J → ℝ) (n : N) (f : J) :
    hop σ ρ (fun e => (ν e : EReal)) (fun n' j => (h n' j : EReal)) n f
      = ((∑ e : E, if σ e = some n then ν e * h (ρ e) f else 0 : ℝ) : EReal) := by
  unfold hop
  rw [coe_sum]
  refine Finset.sum_congr rfl (fun e _ => ?_)
  rw [← EReal.coe_mul, ← EReal.coe_zero, ite_coe]

/-- A scalar hop of coerced real data is the coercion of the hop computed in `ℝ`. -/
theorem hop1_coe (σ : E → Option N) (ρ : E → N) (ν : E → ℝ) (v : N → ℝ) (n : N) :
    hop1 σ ρ (fun e => (ν e : EReal)) (fun n' => (v n' : EReal)) n
      = ((∑ e : E, if σ e = some n then ν e * v (ρ e) else 0 : ℝ) : EReal) := by
  unfold hop1
  rw [coe_sum]
  refine Finset.sum_congr rfl (fun e _ => ?_)
  rw [← EReal.coe_mul, ← EReal.coe_zero, ite_coe]

/-- contraction of the feature axis commutes with a hop -/
theorem hop_contract (σ : E → Option N) (ρ : E → N) (ν : E → EReal) (h : N → J → EReal) (w : J → EReal)
    (hν : ∀ e, IsReal (ν e)) (hh : ∀ n f, IsReal (h n f)) (hw : ∀ j, IsReal (w j)) (n : N) :
    ∑ j : J, hop σ ρ ν h n j * w j = hop1 σ ρ ν (fun n' => ∑ j : J, h n' j * w j) n := by
  obtain ⟨ν', rfl⟩ := exists_real_family₁ ν hν
  obtain ⟨h', rfl⟩ := exists_real_family₂ h hh
  obtain ⟨w', rfl⟩ := exists_real_family₁ w hw
  have hv : (fun n' => ∑ j : J, (h' n' j : EReal) * (w' j : EReal))
      = fun n' => ((∑ j : J, h' n' j * w' j : ℝ) : EReal) := by
    funext n'
    rw [coe_sum]
    exact Finset.sum_congr rfl (fun j _ => (EReal.coe_mul _ _).symm)
  rw [hv, hop1_coe]
  have hl : ∀ j : J, hop σ ρ (fun e => (ν' e : EReal)) (fun n' j => (h' n' j : EReal)) n j * (w' j : EReal)
      = (((∑ e : E, if σ e = some n then ν' e * h' (ρ e) j else 0) * w' j : ℝ) : EReal) := by
    intro j
    rw [hop_coe, ← EReal.coe_mul]
  rw [Finset.sum_congr rfl (fun j _ => hl j), ← coe_sum]
  congr 1
  -- the identity in ℝ
  simp_rw [Finset.sum_mul]
  rw [Finset.sum_comm]
  refine Finset.sum_congr rfl (fun e _ => ?_)
  by_cases hc : σ e = some n
  · simp only [hc, if_true]
    rw [Finset.mul_sum]
    exact Finset.sum_congr rfl (fun j _ => mul_assoc _ _ _)
  · simp only [hc, if_false, zero_mul, Finset.sum_const_zero]

/-- a hop is additive on real-valued scalars -/
theorem hop1_add (σ : E → Option N) (ρ : E → N) (ν : E → EReal) (a b : N → EReal)
    (hν : ∀ e, IsReal (ν e)) (ha : ∀ n, IsReal (a n)) (hb : ∀ n, IsReal (b n)) (n : N) :
    hop1 σ ρ ν (fun n' => a n' + b n') n = hop1 σ ρ ν a n + hop1 σ ρ ν b n := by
  unfold hop1
  rw [← Finset.sum_add_distrib]
  refine Finset.sum_congr rfl (fun e _ => ?_)
  by_cases hc : σ e = some n
  · simp only [hc, if_true]
    exact (hν e).mul_add (ha _) (hb _)
  · simp only [hc, if_false, add_zero]

/-- The Horner arrangement of three hops on contracted scalars equals the contraction of the hopped arrays. -/
theorem horner_law (σ : E → Option N) (ρ : E → N) (ν : E → EReal) (g : N → J → EReal) (W : Fin 4 → J → EReal)
    (hν : ∀ e, IsReal (ν e)) (hg : ∀ n j, IsReal (g n j)) (hW : ∀ c j, IsReal (W c j)) (n : N) :
    (∑ j, g n j * W 0 j)
      + hop1 σ ρ ν (fun n1 => (∑ j, g n1 j * W 1 j)
          + hop1 σ ρ ν (fun n2 => (∑ j, g n2 j * W 2 j)
              + hop1 σ ρ ν (fun n3 => ∑ j, g n3 j * W 3 j) n2) n1) n
    = (∑ j, g n j * W 0 j) + ((∑ j, hop σ ρ ν g n j * W 1 j) + ((∑ j, hop σ ρ ν (hop σ ρ ν g) n j * W 2 j)
        + (∑ j, hop σ ρ ν (hop σ ρ ν (hop σ ρ ν g)) n j * W 3 j))) := by
  -- the contracted scalars are real, and so is every hop of them
  have hA : ∀ c n', IsReal (∑ j, g n' j * W c j) :=
    fun c n' => IsReal.sum _ _ (fun j _ => (hg n' j).mul (hW c j))
  have h1 := hop_isReal σ ρ ν g hν hg
  have h2 := hop_isReal σ ρ ν _ hν h1
  -- push each contraction through the hops
  have c1 : ∀ c n', ∑ j, hop σ ρ ν g n' j * W c j = hop1 σ ρ ν (fun m => ∑ j, g m j * W c j) n' :=
    fun c n' => hop_contract σ ρ ν g (W c) hν hg (hW c) n'
  have c2 : ∀ c n', ∑ j, hop σ ρ ν (hop σ ρ ν g) n' j * W c j
      = hop1 σ ρ ν (fun m => hop1 σ ρ ν (fun m' => ∑ j, g m' j * W c j) m) n' := by
    intro c n'
    rw [hop_contract σ ρ ν (hop σ ρ ν g) (W c) hν h1 (hW c) n']
    exact congrArg (fun v => hop1 σ ρ ν v n') (funext fun m => c1 c m)
  have c3 : ∀ c n', ∑ j, hop σ ρ ν (hop σ ρ ν (hop σ ρ ν g)) n' j * W c j
      = hop1 σ ρ ν (fun m => hop1 σ ρ ν (fun m' => hop1 σ ρ ν (fun m'' => ∑ j, g m'' j * W c j) m') m) n' := by
    intro c n'
    rw [hop_contract σ ρ ν (hop σ ρ ν (hop σ ρ ν g)) (W c) hν h2 (hW c) n']
    exact congrArg (fun v => hop1 σ ρ ν v n') (funext fun m => c2 c m)
  rw [c1 1 n, c2 2 n, c3 3 n]
  -- split the nested hop of sums, inside out
  have r3 := hop1_isReal σ ρ ν _ hν (hA 3)
  have r2 := hop1_isReal σ ρ ν _ hν (hA 2)
  have r33 := hop1_isReal σ ρ ν _ hν r3
  have e2 : (fun n2 => (∑ j, g n2 j * W 2 j) + hop1 σ ρ ν (fun n3 => ∑ j, g n3 j * W 3 j) n2)
      = fun n2 => (fun m => ∑ j, g m j * W 2 j) n2 + (fun m => hop1 σ ρ ν (fun n3 => ∑ j, g n3 j * W 3 j) m) n2 := rfl
  have s2 : ∀ n1, hop1 σ ρ ν (fun n2 => (∑ j, g n2 j * W 2 j)
        + hop1 σ ρ ν (fun n3 => ∑ j, g n3 j * W 3 j) n2) n1
      = hop1 σ ρ ν (fun m => ∑ j, g m j * W 2 j) n1
        + hop1 σ ρ ν (fun m => hop1 σ ρ ν (fun n3 => ∑ j, g n3 j * W 3 j) m) n1 :=
    fun n1 => hop1_add σ ρ ν _ _ hν (hA 2) r3 n1
  have s1 : hop1 σ ρ ν (fun n1 => (∑ j, g n1 j * W 1 j)
        + hop1 σ ρ ν (fun n2 => (∑ j, g n2 j * W 2 j)
            + hop1 σ ρ ν (fun n3 => ∑ j, g n3 j * W 3 j) n2) n1) n
      = hop1 σ ρ ν (fun m => ∑ j, g m j * W 1 j) n
        + hop1 σ ρ ν (fun n1 => hop1 σ ρ ν (fun n2 => (∑ j, g n2 j * W 2 j)
            + hop1 σ ρ ν (fun n3 => ∑ j, g n3 j * W 3 j) n2) n1) n :=
    hop1_add σ ρ ν _ _ hν (hA 1) (fun n1 => by rw [s2 n1]; exact (r2 n1).add (r33 n1)) n
  rw [s1]
  have s1' : hop1 σ ρ ν (fun n1 => hop1 σ ρ ν (fun n2 => (∑ j, g n2 j * W 2 j)
            + hop1 σ ρ ν (fun n3 => ∑ j, g n3 j * W 3 j) n2) n1) n
      = hop1 σ ρ ν (fun n1 => hop1 σ ρ ν (fun m => ∑ j, g m j * W 2 j) n1
        + hop1 σ ρ ν (fun m => hop1 σ ρ ν (fun n3 => ∑ j, g n3 j * W 3 j) m) n1) n :=
    congrArg (fun v => hop1 σ ρ ν v n) (funext s2)
  rw [s1', hop1_add σ ρ ν _ _ hν r2 r33 n]
end

end Cert.Tag
-- ==== Proof.RowIndexing.lean ====
/-
  Reading a row gather and an accumulating row scatter at an index.

  One hop of the graph convolution gathers rows of a node array [100000, W] at the edges' source indices,
  and adds rows of an edge array [1600000, W] into a node array at the edges' destination indices. For the
  widths W = 128 and W = 1 this file reads each result at one index: the gather is the operand's row at the
  start index read signed and clamped into the node range; the accumulating scatter is the operand plus the
  sum of the update rows whose index, read signed, is that node (an index outside the node range contributes
  nothing). Both operations keep real values real.
-/
import proofs.«143162_j84885733638248_2_alg».proof.Proof.Finite
import proofs.«143162_j84885733638248_2_alg».proof.Proof.Shapes
import Idealize.ShloMosaic.Lib.ValueIdx
import Idealize.ShloMosaic.PureOps.Ideal.Laws

open scoped BigOperators

namespace Cert.Tag

open Idealize.ShloMosaic Idealize.ShloMosaic.ValueIdx

/-- the row an edge gathers from: its start index read signed and clamped into [0, 99999] -/
def gRow (idx : IVec SE1 32) (e : Fin 1600000) : Fin 100000 :=
  ⟨min (idx (ix2 e 0)).toInt.toNat 99999, by omega⟩

/-- the row an edge adds into: its index read signed, if it is inside [0, 100000) -/
def sRow (idx : IVec SE1 32) (e : Fin 1600000) : Option (Fin 100000) :=
  if h : 0 ≤ (idx (ix2 e 0)).toInt ∧ (idx (ix2 e 0)).toInt < 100000 then
    some ⟨(idx (ix2 e 0)).toInt.toNat, by omega⟩
  else none

/-- the gathered operand index of edge e, column f, on the row axis: the clamped start index -/
theorem gatherRows128_row (idx : IVec SE1 32) (e : Fin 1600000) (f : Fin 128) :
    (gatherRows128.operandIdx (ix2 e f) idx (0 : Fin 2)).val = (gRow idx e).val := by
  show gatherRows128.start (ix2 e f) idx (0 : Fin 2) + gatherRows128.batchCoord (ix2 e f) (0 : Fin 2)
    + gatherRows128.offCoord (ix2 e f) (0 : Fin 2) = _
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ gatherRows128.startIndexMap from List.mem_singleton.mpr rfl)]
  have hsi : gatherRows128.siIdx (ix2 e f) ⟨List.idxOf (0 : Fin 2) gatherRows128.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- the gathered operand index of edge e, column f, on the column axis: f -/
theorem gatherRows128_col (idx : IVec SE1 32) (e : Fin 1600000) (f : Fin 128) :
    (gatherRows128.operandIdx (ix2 e f) idx (1 : Fin 2)).val = f.val := by
  show gatherRows128.start (ix2 e f) idx (1 : Fin 2) + gatherRows128.batchCoord (ix2 e f) (1 : Fin 2)
    + gatherRows128.offCoord (ix2 e f) (1 : Fin 2) = _
  rw [GatherDims.batchCoord_eq_zero _ _ _ List.not_mem_nil, Nat.add_zero]
  have hs : gatherRows128.start (ix2 e f) idx (1 : Fin 2) = 0 := by
    unfold GatherDims.start
    rw [dif_neg (show (1 : Fin 2) ∉ gatherRows128.startIndexMap from by decide)]
  have ho : gatherRows128.offCoord (ix2 e f) (1 : Fin 2) = f.val := by
    unfold GatherDims.offCoord
    rw [dif_pos (show (1 : Fin 2) ∈ gatherRows128.sKept from by decide)]
    rfl
  rw [hs, ho, Nat.zero_add]

/-- the gather of rows read at edge e, column f: the operand's row at the clamped start index -/
theorem gather128_apply {α : Type} (x : SN128.Idx → α) (idx : IVec SE1 32) (e : Fin 1600000) (f : Fin 128) :
    Host.gather gatherRows128 x idx (ix2 e f) = x (ix2 (gRow idx e) f) := by
  unfold Host.gather
  congr 1
  funext a
  refine Fin.ext ?_
  match a with
  | ⟨0, _⟩ => exact gatherRows128_row idx e f
  | ⟨1, _⟩ => exact gatherRows128_col idx e f

/-- the gathered operand index of edge e, column f, on the row axis: the clamped start index -/
theorem gatherRows1_row (idx : IVec SE1 32) (e : Fin 1600000) (f : Fin 1) :
    (gatherRows1.operandIdx (ix2 e f) idx (0 : Fin 2)).val = (gRow idx e).val := by
  show gatherRows1.start (ix2 e f) idx (0 : Fin 2) + gatherRows1.batchCoord (ix2 e f) (0 : Fin 2)
    + gatherRows1.offCoord (ix2 e f) (0 : Fin 2) = _
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ gatherRows1.startIndexMap from List.mem_singleton.mpr rfl)]
  have hsi : gatherRows1.siIdx (ix2 e f) ⟨List.idxOf (0 : Fin 2) gatherRows1.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- the gathered operand index of edge e, column f, on the column axis: f -/
theorem gatherRows1_col (idx : IVec SE1 32) (e : Fin 1600000) (f : Fin 1) :
    (gatherRows1.operandIdx (ix2 e f) idx (1 : Fin 2)).val = f.val := by
  show gatherRows1.start (ix2 e f) idx (1 : Fin 2) + gatherRows1.batchCoord (ix2 e f) (1 : Fin 2)
    + gatherRows1.offCoord (ix2 e f) (1 : Fin 2) = _
  rw [GatherDims.batchCoord_eq_zero _ _ _ List.not_mem_nil, Nat.add_zero]
  have hs : gatherRows1.start (ix2 e f) idx (1 : Fin 2) = 0 := by
    unfold GatherDims.start
    rw [dif_neg (show (1 : Fin 2) ∉ gatherRows1.startIndexMap from by decide)]
  have ho : gatherRows1.offCoord (ix2 e f) (1 : Fin 2) = f.val := by
    unfold GatherDims.offCoord
    rw [dif_pos (show (1 : Fin 2) ∈ gatherRows1.sKept from by decide)]
    rfl
  rw [hs, ho, Nat.zero_add]

/-- the gather of rows read at edge e, column f: the operand's row at the clamped start index -/
theorem gather1_apply {α : Type} (x : SN1.Idx → α) (idx : IVec SE1 32) (e : Fin 1600000) (f : Fin 1) :
    Host.gather gatherRows1 x idx (ix2 e f) = x (ix2 (gRow idx e) f) := by
  unfold Host.gather
  congr 1
  funext a
  refine Fin.ext ?_
  match a with
  | ⟨0, _⟩ => exact gatherRows1_row idx e f
  | ⟨1, _⟩ => exact gatherRows1_col idx e f

/-- where the update element of edge e, column f lands: row `sRow idx e` (if any), column f -/
theorem scatterRows128_resultIdx (idx : IVec SE1 32) (e : Fin 1600000) (f : Fin 128) :
    scatterRows128.resultIdx? (ix2 e f) idx = (sRow idx e).map (fun n => ix2 n f) := by
  have hst0 : scatterRows128.start (ix2 e f) idx (0 : Fin 2) = (idx (ix2 e 0)).toInt := by
    unfold ScatterDims.start
    rw [dif_pos (show (0 : Fin 2) ∈ scatterRows128.scatterDimsToOperandDims from List.mem_singleton.mpr rfl)]
    have hsi : scatterRows128.siIdx (ix2 e f) ⟨List.idxOf (0 : Fin 2) scatterRows128.scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hst1 : scatterRows128.start (ix2 e f) idx (1 : Fin 2) = 0 := by
    unfold ScatterDims.start
    rw [dif_neg (show (1 : Fin 2) ∉ scatterRows128.scatterDimsToOperandDims from by decide)]
  have hw0 : scatterRows128.window (ix2 e f) (0 : Fin 2) = 0 := by
    unfold ScatterDims.window
    rw [dif_neg (show (0 : Fin 2) ∉ scatterRows128.sKept from by decide)]
  have hw1 : scatterRows128.window (ix2 e f) (1 : Fin 2) = f.val := by
    unfold ScatterDims.window
    rw [dif_pos (show (1 : Fin 2) ∈ scatterRows128.sKept from by decide)]
    rfl
  have hf : f.val < 128 := f.isLt
  unfold ScatterDims.resultIdx? sRow
  by_cases h : 0 ≤ (idx (ix2 e 0)).toInt ∧ (idx (ix2 e 0)).toInt < 100000
  · have hall : ∀ a, 0 ≤ scatterRows128.start (ix2 e f) idx a + scatterRows128.window (ix2 e f) a ∧
        scatterRows128.start (ix2 e f) idx a + scatterRows128.window (ix2 e f) a < SN128.size a := by
      rw [Fin.forall_fin_two]
      refine ⟨?_, ?_⟩
      · rw [hst0, hw0]
        show 0 ≤ (idx (ix2 e 0)).toInt + ((0 : Nat) : Int) ∧ (idx (ix2 e 0)).toInt + ((0 : Nat) : Int) < ((100000 : Nat) : Int)
        omega
      · rw [hst1, hw1]
        show 0 ≤ (0 : Int) + (f.val : Int) ∧ (0 : Int) + (f.val : Int) < ((128 : Nat) : Int)
        omega
    rw [dif_pos hall, dif_pos h, Option.map_some]
    congr 1
    funext a
    refine Fin.ext ?_
    match a with
    | ⟨0, _⟩ =>
      show (scatterRows128.start (ix2 e f) idx (0 : Fin 2) + (scatterRows128.window (ix2 e f) (0 : Fin 2) : Int)).toNat
        = (idx (ix2 e 0)).toInt.toNat
      rw [hst0, hw0]; omega
    | ⟨1, _⟩ =>
      show (scatterRows128.start (ix2 e f) idx (1 : Fin 2) + (scatterRows128.window (ix2 e f) (1 : Fin 2) : Int)).toNat
        = f.val
      rw [hst1, hw1]; omega
  · have hall : ¬ ∀ a, 0 ≤ scatterRows128.start (ix2 e f) idx a + scatterRows128.window (ix2 e f) a ∧
        scatterRows128.start (ix2 e f) idx a + scatterRows128.window (ix2 e f) a < SN128.size a := by
      intro hh
      have h0 := hh (0 : Fin 2)
      rw [hst0, hw0] at h0
      have h0' : 0 ≤ (idx (ix2 e 0)).toInt + ((0 : Nat) : Int) ∧ (idx (ix2 e 0)).toInt + ((0 : Nat) : Int) < ((100000 : Nat) : Int) := h0
      exact h (by omega)
    rw [dif_neg hall, dif_neg h, Option.map_none]

/-- the update element of edge e, column f' lands on (n, f) exactly when the edge's row is n and f' = f -/
theorem scatterRows128_resultIdx_eq_iff (idx : IVec SE1 32) (e : Fin 1600000) (f' : Fin 128) (n : Fin 100000) (f : Fin 128) :
    scatterRows128.resultIdx? (ix2 e f') idx = some (ix2 n f) ↔ sRow idx e = some n ∧ f' = f := by
  rw [scatterRows128_resultIdx]
  constructor
  · intro h
    cases hs : sRow idx e with
    | none => rw [hs] at h; exact absurd h (by simp)
    | some m =>
      rw [hs, Option.map_some, Option.some.injEq] at h
      have h0 : m = n := congrFun h (0 : Fin 2)
      have h1 : f' = f := congrFun h (1 : Fin 2)
      exact ⟨by rw [h0], h1⟩
  · rintro ⟨hs, rfl⟩
    rw [hs, Option.map_some]

/-- the accumulating scatter of rows read at node n, column f: the operand plus the update rows of the edges whose row is n -/
theorem scatterAdd128_apply (z : FVec Ideal SN128 .f32) (idx : IVec SE1 32) (upd : FVec Ideal SE128 .f32)
    (n : Fin 100000) (f : Fin 128) :
    Host.scatterAdd (F := Ideal) scatterRows128 z idx upd (ix2 n f)
      = z (ix2 n f) + ∑ e : Fin 1600000, if sRow idx e = some n then upd (ix2 e f) else 0 := by
  show Ideal.hostScatterAdd scatterRows128 z idx upd (ix2 n f) = _
  unfold Ideal.hostScatterAdd
  refine congrArg (fun t => z (ix2 n f) + t) ?_
  rw [Finset.sum_filter, sum_idx2]
  refine Finset.sum_congr rfl fun e _ => ?_
  simp only [scatterRows128_resultIdx_eq_iff]
  by_cases hs : sRow idx e = some n
  · simp only [hs, true_and, if_true]
    rw [Finset.sum_ite_eq' Finset.univ f (fun f' => upd (ix2 e f')), if_pos (Finset.mem_univ f)]
  · simp only [hs, false_and, if_false]
    exact Finset.sum_const_zero

/-- where the update element of edge e, column f lands: row `sRow idx e` (if any), column f -/
theorem scatterRows1_resultIdx (idx : IVec SE1 32) (e : Fin 1600000) (f : Fin 1) :
    scatterRows1.resultIdx? (ix2 e f) idx = (sRow idx e).map (fun n => ix2 n f) := by
  have hst0 : scatterRows1.start (ix2 e f) idx (0 : Fin 2) = (idx (ix2 e 0)).toInt := by
    unfold ScatterDims.start
    rw [dif_pos (show (0 : Fin 2) ∈ scatterRows1.scatterDimsToOperandDims from List.mem_singleton.mpr rfl)]
    have hsi : scatterRows1.siIdx (ix2 e f) ⟨List.idxOf (0 : Fin 2) scatterRows1.scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hst1 : scatterRows1.start (ix2 e f) idx (1 : Fin 2) = 0 := by
    unfold ScatterDims.start
    rw [dif_neg (show (1 : Fin 2) ∉ scatterRows1.scatterDimsToOperandDims from by decide)]
  have hw0 : scatterRows1.window (ix2 e f) (0 : Fin 2) = 0 := by
    unfold ScatterDims.window
    rw [dif_neg (show (0 : Fin 2) ∉ scatterRows1.sKept from by decide)]
  have hw1 : scatterRows1.window (ix2 e f) (1 : Fin 2) = f.val := by
    unfold ScatterDims.window
    rw [dif_pos (show (1 : Fin 2) ∈ scatterRows1.sKept from by decide)]
    rfl
  have hf : f.val < 1 := f.isLt
  unfold ScatterDims.resultIdx? sRow
  by_cases h : 0 ≤ (idx (ix2 e 0)).toInt ∧ (idx (ix2 e 0)).toInt < 100000
  · have hall : ∀ a, 0 ≤ scatterRows1.start (ix2 e f) idx a + scatterRows1.window (ix2 e f) a ∧
        scatterRows1.start (ix2 e f) idx a + scatterRows1.window (ix2 e f) a < SN1.size a := by
      rw [Fin.forall_fin_two]
      refine ⟨?_, ?_⟩
      · rw [hst0, hw0]
        show 0 ≤ (idx (ix2 e 0)).toInt + ((0 : Nat) : Int) ∧ (idx (ix2 e 0)).toInt + ((0 : Nat) : Int) < ((100000 : Nat) : Int)
        omega
      · rw [hst1, hw1]
        show 0 ≤ (0 : Int) + (f.val : Int) ∧ (0 : Int) + (f.val : Int) < ((1 : Nat) : Int)
        omega
    rw [dif_pos hall, dif_pos h, Option.map_some]
    congr 1
    funext a
    refine Fin.ext ?_
    match a with
    | ⟨0, _⟩ =>
      show (scatterRows1.start (ix2 e f) idx (0 : Fin 2) + (scatterRows1.window (ix2 e f) (0 : Fin 2) : Int)).toNat
        = (idx (ix2 e 0)).toInt.toNat
      rw [hst0, hw0]; omega
    | ⟨1, _⟩ =>
      show (scatterRows1.start (ix2 e f) idx (1 : Fin 2) + (scatterRows1.window (ix2 e f) (1 : Fin 2) : Int)).toNat
        = f.val
      rw [hst1, hw1]; omega
  · have hall : ¬ ∀ a, 0 ≤ scatterRows1.start (ix2 e f) idx a + scatterRows1.window (ix2 e f) a ∧
        scatterRows1.start (ix2 e f) idx a + scatterRows1.window (ix2 e f) a < SN1.size a := by
      intro hh
      have h0 := hh (0 : Fin 2)
      rw [hst0, hw0] at h0
      have h0' : 0 ≤ (idx (ix2 e 0)).toInt + ((0 : Nat) : Int) ∧ (idx (ix2 e 0)).toInt + ((0 : Nat) : Int) < ((100000 : Nat) : Int) := h0
      exact h (by omega)
    rw [dif_neg hall, dif_neg h, Option.map_none]

/-- the update element of edge e, column f' lands on (n, f) exactly when the edge's row is n and f' = f -/
theorem scatterRows1_resultIdx_eq_iff (idx : IVec SE1 32) (e : Fin 1600000) (f' : Fin 1) (n : Fin 100000) (f : Fin 1) :
    scatterRows1.resultIdx? (ix2 e f') idx = some (ix2 n f) ↔ sRow idx e = some n ∧ f' = f := by
  rw [scatterRows1_resultIdx]
  constructor
  · intro h
    cases hs : sRow idx e with
    | none => rw [hs] at h; exact absurd h (by simp)
    | some m =>
      rw [hs, Option.map_some, Option.some.injEq] at h
      have h0 : m = n := congrFun h (0 : Fin 2)
      have h1 : f' = f := congrFun h (1 : Fin 2)
      exact ⟨by rw [h0], h1⟩
  · rintro ⟨hs, rfl⟩
    rw [hs, Option.map_some]

/-- the accumulating scatter of rows read at node n, column f: the operand plus the update rows of the edges whose row is n -/
theorem scatterAdd1_apply (z : FVec Ideal SN1 .f32) (idx : IVec SE1 32) (upd : FVec Ideal SE1 .f32)
    (n : Fin 100000) (f : Fin 1) :
    Host.scatterAdd (F := Ideal) scatterRows1 z idx upd (ix2 n f)
      = z (ix2 n f) + ∑ e : Fin 1600000, if sRow idx e = some n then upd (ix2 e f) else 0 := by
  show Ideal.hostScatterAdd scatterRows1 z idx upd (ix2 n f) = _
  unfold Ideal.hostScatterAdd
  refine congrArg (fun t => z (ix2 n f) + t) ?_
  rw [Finset.sum_filter, sum_idx2]
  refine Finset.sum_congr rfl fun e _ => ?_
  simp only [scatterRows1_resultIdx_eq_iff]
  by_cases hs : sRow idx e = some n
  · simp only [hs, true_and, if_true]
    rw [Finset.sum_ite_eq' Finset.univ f (fun f' => upd (ix2 e f')), if_pos (Finset.mem_univ f)]
  · simp only [hs, false_and, if_false]
    exact Finset.sum_const_zero

/-- whatever the dimension numbers: a gather of a real-valued array is real-valued -/
theorem gather_isReal {s si t : Shape} (d : GatherDims s si t) {w : Nat} (x : s.Idx → EReal) (idx : IVec si w)
    (hx : ∀ i, IsReal (x i)) : ∀ j, IsReal (Host.gather d x idx j) := by
  intro j
  unfold Host.gather
  exact hx _

/-- whatever the dimension numbers: an accumulating scatter of real-valued operands is real-valued -/
theorem scatterAdd_isReal {s si u : Shape} (d : ScatterDims s si u) {w : Nat} (z : FVec Ideal s .f32)
    (idx : IVec si w) (upd : FVec Ideal u .f32) (hz : ∀ i, IsReal (z i)) (hu : ∀ j, IsReal (upd j)) :
    ∀ i, IsReal (Host.scatterAdd (F := Ideal) d z idx upd i) := by
  intro i
  show IsReal (Ideal.hostScatterAdd d z idx upd i)
  unfold Ideal.hostScatterAdd
  exact (hz i).add (IsReal.sum _ _ fun j _ => hu j)

end Cert.Tag
-- ==== Proof.Layers.lean ====
/-
  The dense operations of the two programs read at an index.

  Both programs apply, around the graph hops, dense operations whose element at an index is a fixed expression in
  elements of the operands: the contraction of a [N, 512] array with a [512, ·] weight is a sum of 512 products; the
  concatenation of four [N, 128] arrays along the feature axis reads piece `c` at column `128·c + f`; a reshape,
  a transpose, a slice and a broadcast each read one element of the operand; a format change is the identity on
  extended reals; the splat of the word of `0` (`1`) is `0` (`1`). A sum over 512 columns regroups, in any additive
  commutative monoid, into four sums over 128 columns, so layer 1 of the reference at node `n` and feature `j` is
  the activation the kernel forms from the four hop arrays, and layer 2 of the reference at a node is four sums of
  128 products, one per hop, plus the bias.
-/
import proofs.«143162_j84885733638248_2_alg».proof.Proof.Spec
import proofs.«143162_j84885733638248_2_alg».proof.Proof.Finite
import Idealize.ShloMosaic.Lib.Pipeline.Value
import Idealize.ShloMosaic.Lib.ValueIdx
import Idealize.ShloMosaic.Lib.IdealHost
import Idealize.ShloMosaic.PureOps.Ideal.Laws

open scoped BigOperators

namespace Cert.Tag

open Idealize.ShloMosaic Idealize.ShloMosaic.ValueIdx

/-! ## The two contractions -/

theorem dotW1_lhs0 (i : SN128.Idx) (q : dotW1.contr.Idx) : (dotW1.lhsIdx i q 0).val = (i 0).val := by
  unfold DotDims.lhsIdx
  rw [dif_neg (show ¬(0 : Fin SN512.rank) ∈ dotW1.lhsBatch by decide),
    dif_pos (show (0 : Fin SN512.rank) ∈ dotW1.lhsNonContracting by decide)]
  rfl
theorem dotW1_lhs1 (i : SN128.Idx) (q : dotW1.contr.Idx) : (dotW1.lhsIdx i q 1).val = (q ⟨0, by decide⟩).val :=
  dotW1.lhsIdx_val_of_single rfl i q
theorem dotW1_rhs0 (i : SN128.Idx) (q : dotW1.contr.Idx) : (dotW1.rhsIdx i q 0).val = (q ⟨0, by decide⟩).val :=
  dotW1.rhsIdx_val_of_single rfl i q
theorem dotW1_rhs1 (i : SN128.Idx) (q : dotW1.contr.Idx) : (dotW1.rhsIdx i q 1).val = (i 1).val := by
  unfold DotDims.rhsIdx
  rw [dif_neg (show ¬(1 : Fin S512x128.rank) ∈ dotW1.rhsBatch by decide),
    dif_pos (show (1 : Fin S512x128.rank) ∈ dotW1.rhsNonContracting by decide)]
  rfl

theorem dotW1_apply (l : FVec Ideal SN512 .f32) (r : FVec Ideal S512x128 .f32) (n : Fin 100000) (j : Fin 128) :
    Host.dotGeneral (F := Ideal) dotW1 none l r (ix2 n j) = ∑ k : Fin 512, l (ix2 n k) * r (ix2 k j) := by
  simp only [Host.dotGeneral]
  rw [Ideal.dotGeneral_apply, ← Equiv.sum_comp (contrEquiv1 dotW1 512 rfl rfl).symm]
  refine Finset.sum_congr rfl fun k _ => ?_
  have hk := contrEquiv1_symm_val dotW1 512 rfl rfl k
  have el : dotW1.lhsIdx (ix2 n j) ((contrEquiv1 dotW1 512 rfl rfl).symm k) = ix2 n k := funext fun a => Fin.ext (by
    match a with
    | ⟨0, _⟩ => exact dotW1_lhs0 _ _
    | ⟨1, _⟩ => exact (dotW1_lhs1 _ _).trans hk)
  have er : dotW1.rhsIdx (ix2 n j) ((contrEquiv1 dotW1 512 rfl rfl).symm k) = ix2 k j := funext fun a => Fin.ext (by
    match a with
    | ⟨0, _⟩ => exact (dotW1_rhs0 _ _).trans hk
    | ⟨1, _⟩ => exact dotW1_rhs1 _ _)
  rw [el, er]

theorem dotW2_lhs0 (i : SN1.Idx) (q : dotW2.contr.Idx) : (dotW2.lhsIdx i q 0).val = (i 0).val := by
  unfold DotDims.lhsIdx
  rw [dif_neg (show ¬(0 : Fin SN512.rank) ∈ dotW2.lhsBatch by decide),
    dif_pos (show (0 : Fin SN512.rank) ∈ dotW2.lhsNonContracting by decide)]
  rfl
theorem dotW2_lhs1 (i : SN1.Idx) (q : dotW2.contr.Idx) : (dotW2.lhsIdx i q 1).val = (q ⟨0, by decide⟩).val :=
  dotW2.lhsIdx_val_of_single rfl i q
theorem dotW2_rhs0 (i : SN1.Idx) (q : dotW2.contr.Idx) : (dotW2.rhsIdx i q 0).val = (q ⟨0, by decide⟩).val :=
  dotW2.rhsIdx_val_of_single rfl i q
theorem dotW2_rhs1 (i : SN1.Idx) (q : dotW2.contr.Idx) : (dotW2.rhsIdx i q 1).val = (i 1).val := by
  unfold DotDims.rhsIdx
  rw [dif_neg (show ¬(1 : Fin S512x1.rank) ∈ dotW2.rhsBatch by decide),
    dif_pos (show (1 : Fin S512x1.rank) ∈ dotW2.rhsNonContracting by decide)]
  rfl

theorem dotW2_apply (l : FVec Ideal SN512 .f32) (r : FVec Ideal S512x1 .f32) (n : Fin 100000) (z : Fin 1) :
    Host.dotGeneral (F := Ideal) dotW2 none l r (ix2 n z) = ∑ k : Fin 512, l (ix2 n k) * r (ix2 k z) := by
  simp only [Host.dotGeneral]
  rw [Ideal.dotGeneral_apply, ← Equiv.sum_comp (contrEquiv1 dotW2 512 rfl rfl).symm]
  refine Finset.sum_congr rfl fun k _ => ?_
  have hk := contrEquiv1_symm_val dotW2 512 rfl rfl k
  have el : dotW2.lhsIdx (ix2 n z) ((contrEquiv1 dotW2 512 rfl rfl).symm k) = ix2 n k := funext fun a => Fin.ext (by
    match a with
    | ⟨0, _⟩ => exact dotW2_lhs0 _ _
    | ⟨1, _⟩ => exact (dotW2_lhs1 _ _).trans hk)
  have er : dotW2.rhsIdx (ix2 n z) ((contrEquiv1 dotW2 512 rfl rfl).symm k) = ix2 k z := funext fun a => Fin.ext (by
    match a with
    | ⟨0, _⟩ => exact (dotW2_rhs0 _ _).trans hk
    | ⟨1, _⟩ => exact dotW2_rhs1 _ _)
  rw [el, er]

/-! ## Regrouping a sum over 512 columns -/

/-- A sum over `m + n` positions is the sum over the first `m` plus the sum over the last `n`. -/
theorem sum_fin_split2 {M : Type*} [AddCommMonoid M] (m n : Nat) (F : Fin (m + n) → M) :
    ∑ k, F k = (∑ f : Fin m, F ⟨f.val, by omega⟩) + ∑ f : Fin n, F ⟨m + f.val, by omega⟩ := by
  rw [Fin.sum_univ_add]
  rfl

/-- a sum over 512 is four sums over 128 (pure regrouping in an additive commutative monoid — no finiteness) -/
theorem sum_512_split {M : Type*} [AddCommMonoid M] (F : Fin 512 → M) :
    ∑ k : Fin 512, F k = (((∑ f : Fin 128, F ⟨0 + f.val, by omega⟩) + (∑ f : Fin 128, F ⟨128 + f.val, by omega⟩))
      + (∑ f : Fin 128, F ⟨256 + f.val, by omega⟩)) + (∑ f : Fin 128, F ⟨384 + f.val, by omega⟩) := by
  have h1 := sum_fin_split2 384 128 F
  have h2 := sum_fin_split2 256 128 (fun f : Fin 384 => F ⟨f.val, by omega⟩)
  have h3 := sum_fin_split2 128 128 (fun f : Fin 256 => F ⟨f.val, by omega⟩)
  have h0 : (∑ f : Fin 128, F ⟨f.val, by omega⟩) = ∑ f : Fin 128, F ⟨0 + f.val, by omega⟩ :=
    Finset.sum_congr rfl (fun f _ => congrArg F (Fin.ext (Nat.zero_add _).symm))
  refine h1.trans ?_
  refine congrArg (fun t => t + _) ?_
  refine h2.trans ?_
  refine congrArg (fun t => t + _) ?_
  refine h3.trans ?_
  exact congrArg (fun t => t + _) h0

/-! ## Layout operations -/

theorem w1Bf_eq (W1 : FVec Ideal S512x128 .f32) : w1Bf W1 = W1 := rfl

theorem b1Row_apply (b1 : FVec Ideal S128 .f32) (j : Fin 128) : b1Row b1 (ix2 (0 : Fin 1) j) = b1 (ix1 j) := by
  unfold b1Row
  exact shapeCast_apply b1 cast_128_1x128 (ix2 (0 : Fin 1) j) (ix1 j)
    (by rewrite [Shape.rowMajor_val_two, Shape.rowMajor_val_one]; show j.val = 0 * 128 + j.val; omega)

theorem bias1_apply (b1 : FVec Ideal S128 .f32) (n : Fin 100000) (j : Fin 128) :
    broadcastInDim SN128 ![0, 1] bc_1x128_N128 (broadcastInDim S1x128 ![1] bc_128_1x128 b1) (ix2 n j) = b1 (ix1 j) := by
  refine (broadcastInDim_apply _ bc_1x128_N128 (broadcastInDim S1x128 ![1] bc_128_1x128 b1) (ix2 n j)
    (ix2 (0 : Fin 1) j) (fun a => match a with
      | ⟨0, _⟩ => by show 0 = if (1 : Nat) = 1 then 0 else n.val; rw [if_pos rfl]
      | ⟨1, _⟩ => by show j.val = if (128 : Nat) = 1 then 0 else j.val; rw [if_neg (by decide)])).trans ?_
  exact broadcastInDim_apply _ bc_128_1x128 b1 (ix2 (0 : Fin 1) j) (ix1 j) (fun a => match a with
      | ⟨0, _⟩ => by show j.val = if (128 : Nat) = 1 then 0 else j.val; rw [if_neg (by decide)])

theorem bias2_apply (b2 : FVec Ideal S1 .f32) (n : Fin 100000) (z : Fin 1) :
    broadcastInDim SN1 ![0, 1] bc_1x1_N1 (broadcastInDim S1x1 ![1] bc_1_1x1 b2) (ix2 n z) = b2 (ix1 (0 : Fin 1)) := by
  refine (broadcastInDim_apply _ bc_1x1_N1 (broadcastInDim S1x1 ![1] bc_1_1x1 b2) (ix2 n z)
    (ix2 (0 : Fin 1) (0 : Fin 1)) (fun a => match a with
      | ⟨0, _⟩ => by show 0 = if (1 : Nat) = 1 then 0 else n.val; rw [if_pos rfl]
      | ⟨1, _⟩ => by show 0 = if (1 : Nat) = 1 then 0 else z.val; rw [if_pos rfl])).trans ?_
  exact broadcastInDim_apply _ bc_1_1x1 b2 (ix2 (0 : Fin 1) (0 : Fin 1)) (ix1 (0 : Fin 1)) (fun a => match a with
      | ⟨0, _⟩ => by show 0 = if (1 : Nat) = 1 then 0 else 0; rw [if_pos rfl])

theorem col_apply (u : FVec Ideal SN4 .f32) (n : Fin 100000) (z : Fin 1) :
    col0 u (ix2 n z) = u (ix2 n (0 : Fin 4)) ∧ col1 u (ix2 n z) = u (ix2 n (1 : Fin 4))
      ∧ col2 u (ix2 n z) = u (ix2 n (2 : Fin 4)) ∧ col3 u (ix2 n z) = u (ix2 n (3 : Fin 4)) := by
  have hz : z.val = 0 := by omega
  refine ⟨?_, ?_, ?_, ?_⟩
  · unfold col0
    exact extractStridedSlice_apply ![0, 0] u slice_col0 (ix2 n z) (ix2 n (0 : Fin 4)) (fun a => match a with
      | ⟨0, _⟩ => by show n.val = 0 + n.val; omega
      | ⟨1, _⟩ => by show 0 = 0 + z.val; omega)
  · unfold col1
    exact extractStridedSlice_apply ![0, 1] u slice_col1 (ix2 n z) (ix2 n (1 : Fin 4)) (fun a => match a with
      | ⟨0, _⟩ => by show n.val = 0 + n.val; omega
      | ⟨1, _⟩ => by show 1 = 1 + z.val; omega)
  · unfold col2
    exact extractStridedSlice_apply ![0, 2] u slice_col2 (ix2 n z) (ix2 n (2 : Fin 4)) (fun a => match a with
      | ⟨0, _⟩ => by show n.val = 0 + n.val; omega
      | ⟨1, _⟩ => by show 2 = 2 + z.val; omega)
  · unfold col3
    exact extractStridedSlice_apply ![0, 3] u slice_col3 (ix2 n z) (ix2 n (3 : Fin 4)) (fun a => match a with
      | ⟨0, _⟩ => by show n.val = 0 + n.val; omega
      | ⟨1, _⟩ => by show 3 = 3 + z.val; omega)

theorem w2Cols_apply (W2 : FVec Ideal S512x1 .f32) (j : Fin 128) (c : Fin 4) :
    w2Cols W2 (ix2 j c) = W2 (ix2 (⟨128 * c.val + j.val, by omega⟩ : Fin 512) (0 : Fin 1)) := by
  unfold w2Cols
  rw [truncf_apply]
  refine (transpose_apply [1, 0] (shapeCast S4x128 W2 cast_512x1_4x128) tr_4x128_128x4 (ix2 j c) (ix2 c j)
    (fun b => match b with
      | ⟨0, _⟩ => rfl
      | ⟨1, _⟩ => rfl)).trans ?_
  exact shapeCast_apply W2 cast_512x1_4x128 (ix2 c j) (ix2 (⟨128 * c.val + j.val, by omega⟩ : Fin 512) (0 : Fin 1))
    (by rewrite [Shape.rowMajor_val_two, Shape.rowMajor_val_two]
        show (128 * c.val + j.val) * 1 + 0 = c.val * 128 + j.val; omega)

/-! ## Splat constants -/

theorem zeros_apply_N128 (i : SN128.Idx) :
    broadcastInDim SN128 ![] bc_0_N128 (constant (F := Ideal) S0 .f32 0x00000000#32) i = 0 := by
  rw [broadcastInDim_scalar_apply, constant_apply, Ideal.ofBits_zero_f32]

theorem zeros_apply_N1 (i : SN1.Idx) :
    broadcastInDim SN1 ![] bc_0_N1 (constant (F := Ideal) S0 .f32 0x00000000#32) i = 0 := by
  rw [broadcastInDim_scalar_apply, constant_apply, Ideal.ofBits_zero_f32]

theorem zeros_apply_N (i : SN.Idx) :
    broadcastInDim SN ![] bc_0_N (constant (F := Ideal) S0 .f32 0x00000000#32) i = 0 := by
  rw [broadcastInDim_scalar_apply, constant_apply, Ideal.ofBits_zero_f32]

theorem ones_apply_E (i : SE.Idx) :
    broadcastInDim SE ![] bc_0_E (constant (F := Ideal) S0 .f32 0x3F800000#32) i = 1 := by
  rw [broadcastInDim_scalar_apply, constant_apply, Ideal.ofBits_one_f32]

/-! ## The concatenation of four [N, 128] pieces -/

/-- Piece `c` of a four-piece concatenation along the feature axis is read at column `128·c + f`. -/
theorem cat4_apply (p0 p1 p2 p3 : FVec Ideal SN128 .f32) (n : Fin 100000) (f : Fin 128) :
    concatenate SN512 1 [⟨SN128, p0⟩, ⟨SN128, p1⟩, ⟨SN128, p2⟩, ⟨SN128, p3⟩] cat_hops
        (ix2 n (⟨0 + f.val, by omega⟩ : Fin 512)) = p0 (ix2 n f)
    ∧ concatenate SN512 1 [⟨SN128, p0⟩, ⟨SN128, p1⟩, ⟨SN128, p2⟩, ⟨SN128, p3⟩] cat_hops
        (ix2 n (⟨128 + f.val, by omega⟩ : Fin 512)) = p1 (ix2 n f)
    ∧ concatenate SN512 1 [⟨SN128, p0⟩, ⟨SN128, p1⟩, ⟨SN128, p2⟩, ⟨SN128, p3⟩] cat_hops
        (ix2 n (⟨256 + f.val, by omega⟩ : Fin 512)) = p2 (ix2 n f)
    ∧ concatenate SN512 1 [⟨SN128, p0⟩, ⟨SN128, p1⟩, ⟨SN128, p2⟩, ⟨SN128, p3⟩] cat_hops
        (ix2 n (⟨384 + f.val, by omega⟩ : Fin 512)) = p3 (ix2 n f) := by
  have hi : ∀ (m : Fin 512) (b : Fin SN128.rank), b.cast (rfl : SN128.rank = SN512.rank) ≠ (1 : Fin SN512.rank) →
      (ix2 n f b).val = (ix2 n m (b.cast (rfl : SN128.rank = SN512.rank))).val := fun m b hb =>
    match b, hb with
    | ⟨0, _⟩, _ => rfl
    | ⟨1, _⟩, hb => absurd rfl hb
  refine ⟨?_, ?_, ?_, ?_⟩
  · exact concatenate_apply_piece (1 : Fin SN512.rank) [⟨SN128, p0⟩, ⟨SN128, p1⟩, ⟨SN128, p2⟩, ⟨SN128, p3⟩] cat_hops
      (ix2 n (⟨0 + f.val, by omega⟩ : Fin 512)) 0 (by show (0 : Nat) < 4; omega) SN128 p0 rfl rfl 0 rfl (ix2 n f) (hi _) rfl
  · exact concatenate_apply_piece (1 : Fin SN512.rank) [⟨SN128, p0⟩, ⟨SN128, p1⟩, ⟨SN128, p2⟩, ⟨SN128, p3⟩] cat_hops
      (ix2 n (⟨128 + f.val, by omega⟩ : Fin 512)) 1 (by show (1 : Nat) < 4; omega) SN128 p1 rfl rfl 128 rfl (ix2 n f) (hi _) rfl
  · exact concatenate_apply_piece (1 : Fin SN512.rank) [⟨SN128, p0⟩, ⟨SN128, p1⟩, ⟨SN128, p2⟩, ⟨SN128, p3⟩] cat_hops
      (ix2 n (⟨256 + f.val, by omega⟩ : Fin 512)) 2 (by show (2 : Nat) < 4; omega) SN128 p2 rfl rfl 256 rfl (ix2 n f) (hi _) rfl
  · exact concatenate_apply_piece (1 : Fin SN512.rank) [⟨SN128, p0⟩, ⟨SN128, p1⟩, ⟨SN128, p2⟩, ⟨SN128, p3⟩] cat_hops
      (ix2 n (⟨384 + f.val, by omega⟩ : Fin 512)) 3 (by show (3 : Nat) < 4; omega) SN128 p3 rfl rfl 384 rfl (ix2 n f) (hi _) rfl

/-- the concatenation of four [N,128] pieces along axis 1, read at column 128·c + f -/
theorem hopsCat_apply (src dst : IVec SE 32) (nrm : FVec Ideal SE .f32) (h : FVec Ideal SN128 .f32) (n : Fin 100000)
    (f : Fin 128) :
    hopsCat src dst nrm h (ix2 n (⟨0 + f.val, by omega⟩ : Fin 512)) = h (ix2 n f)
    ∧ hopsCat src dst nrm h (ix2 n (⟨128 + f.val, by omega⟩ : Fin 512)) = hopRows src dst nrm h (ix2 n f)
    ∧ hopsCat src dst nrm h (ix2 n (⟨256 + f.val, by omega⟩ : Fin 512))
        = hopRows src dst nrm (hopRows src dst nrm h) (ix2 n f)
    ∧ hopsCat src dst nrm h (ix2 n (⟨384 + f.val, by omega⟩ : Fin 512))
        = hopRows src dst nrm (hopRows src dst nrm (hopRows src dst nrm h)) (ix2 n f) := by
  unfold hopsCat
  exact cat4_apply _ _ _ _ n f

/-! ## The two layers of the reference -/

/-- THE LAYER-1 ACTIVATION OF THE REFERENCE IS THE KERNEL'S: with the four hops named -/
theorem layer1Ref_apply (src dst : IVec SE 32) (nrm : FVec Ideal SE .f32) (x : FVec Ideal SN128 .f32)
    (W1 : FVec Ideal S512x128 .f32) (b1 : FVec Ideal S128 .f32) (n : Fin 100000) (j : Fin 128) :
    layer1Ref src dst nrm x W1 b1 (ix2 n j)
      = kernelAct x (hopRows src dst nrm x) (hopRows src dst nrm (hopRows src dst nrm x))
          (hopRows src dst nrm (hopRows src dst nrm (hopRows src dst nrm x))) (w1Bf W1) (b1Row b1) n j := by
  have hd := dotW1_apply (hopsCat src dst nrm x) W1 n j
  have hs := sum_512_split (fun k : Fin 512 => hopsCat src dst nrm x (ix2 n k) * W1 (ix2 k j))
  have c0 : ∀ f : Fin 128, hopsCat src dst nrm x (ix2 n (⟨0 + f.val, by omega⟩ : Fin 512)) = x (ix2 n f) :=
    fun f => (hopsCat_apply src dst nrm x n f).1
  have c1 : ∀ f : Fin 128, hopsCat src dst nrm x (ix2 n (⟨128 + f.val, by omega⟩ : Fin 512))
      = hopRows src dst nrm x (ix2 n f) := fun f => (hopsCat_apply src dst nrm x n f).2.1
  have c2 : ∀ f : Fin 128, hopsCat src dst nrm x (ix2 n (⟨256 + f.val, by omega⟩ : Fin 512))
      = hopRows src dst nrm (hopRows src dst nrm x) (ix2 n f) := fun f => (hopsCat_apply src dst nrm x n f).2.2.1
  have c3 : ∀ f : Fin 128, hopsCat src dst nrm x (ix2 n (⟨384 + f.val, by omega⟩ : Fin 512))
      = hopRows src dst nrm (hopRows src dst nrm (hopRows src dst nrm x)) (ix2 n f) :=
    fun f => (hopsCat_apply src dst nrm x n f).2.2.2
  simp only [c0, c1, c2, c3] at hs
  show max (Host.dotGeneral (F := Ideal) dotW1 none (hopsCat src dst nrm x) W1 (ix2 n j)
      + broadcastInDim SN128 ![0, 1] bc_1x128_N128 (broadcastInDim S1x128 ![1] bc_128_1x128 b1) (ix2 n j))
      (broadcastInDim SN128 ![] bc_0_N128 (constant (F := Ideal) S0 .f32 0x00000000#32) (ix2 n j)) = _
  rw [hd, hs, bias1_apply, zeros_apply_N128]
  unfold kernelAct dotRow
  rw [b1Row_apply, w1Bf_eq]

/-- LAYER 2 OF THE REFERENCE at a node, the sum split by hop -/
theorem layer2Ref_apply (src dst : IVec SE 32) (nrm : FVec Ideal SE .f32) (g : FVec Ideal SN128 .f32)
    (W2 : FVec Ideal S512x1 .f32) (b2 : FVec Ideal S1 .f32) (n : Fin 100000) :
    layer2Ref src dst nrm g W2 b2 (ix2 n (0 : Fin 1)) =
      ((((∑ f : Fin 128, g (ix2 n f) * W2 (ix2 (⟨0 + f.val, by omega⟩ : Fin 512) 0))
          + (∑ f : Fin 128, hopRows src dst nrm g (ix2 n f) * W2 (ix2 (⟨128 + f.val, by omega⟩ : Fin 512) 0)))
        + (∑ f : Fin 128, hopRows src dst nrm (hopRows src dst nrm g) (ix2 n f)
            * W2 (ix2 (⟨256 + f.val, by omega⟩ : Fin 512) 0)))
        + (∑ f : Fin 128, hopRows src dst nrm (hopRows src dst nrm (hopRows src dst nrm g)) (ix2 n f)
            * W2 (ix2 (⟨384 + f.val, by omega⟩ : Fin 512) 0)))
      + b2 (ix1 (0 : Fin 1)) := by
  have hd := dotW2_apply (hopsCat src dst nrm g) W2 n (0 : Fin 1)
  have hs := sum_512_split (fun k : Fin 512 => hopsCat src dst nrm g (ix2 n k) * W2 (ix2 k (0 : Fin 1)))
  have c0 : ∀ f : Fin 128, hopsCat src dst nrm g (ix2 n (⟨0 + f.val, by omega⟩ : Fin 512)) = g (ix2 n f) :=
    fun f => (hopsCat_apply src dst nrm g n f).1
  have c1 : ∀ f : Fin 128, hopsCat src dst nrm g (ix2 n (⟨128 + f.val, by omega⟩ : Fin 512))
      = hopRows src dst nrm g (ix2 n f) := fun f => (hopsCat_apply src dst nrm g n f).2.1
  have c2 : ∀ f : Fin 128, hopsCat src dst nrm g (ix2 n (⟨256 + f.val, by omega⟩ : Fin 512))
      = hopRows src dst nrm (hopRows src dst nrm g) (ix2 n f) := fun f => (hopsCat_apply src dst nrm g n f).2.2.1
  have c3 : ∀ f : Fin 128, hopsCat src dst nrm g (ix2 n (⟨384 + f.val, by omega⟩ : Fin 512))
      = hopRows src dst nrm (hopRows src dst nrm (hopRows src dst nrm g)) (ix2 n f) :=
    fun f => (hopsCat_apply src dst nrm g n f).2.2.2
  simp only [c0, c1, c2, c3] at hs
  show Host.dotGeneral (F := Ideal) dotW2 none (hopsCat src dst nrm g) W2 (ix2 n (0 : Fin 1))
      + broadcastInDim SN1 ![0, 1] bc_1x1_N1 (broadcastInDim S1x1 ![1] bc_1_1x1 b2) (ix2 n (0 : Fin 1)) = _
  rw [hd, hs, bias2_apply]

/-! ## Real-valuedness of the dense layer -/

/-- The activation the kernel forms is a real number when the hop arrays, the weight and the bias are real-valued. -/
theorem kernelAct_isReal (h0 h1 h2 h3 : FVec Ideal SN128 .f32) (W1 : FVec Ideal S512x128 .bf16)
    (b1r : FVec Ideal S1x128 .f32) (hh0 : ∀ i, IsReal (h0 i)) (hh1 : ∀ i, IsReal (h1 i)) (hh2 : ∀ i, IsReal (h2 i))
    (hh3 : ∀ i, IsReal (h3 i)) (hW : ∀ i, IsReal (W1 i)) (hb : ∀ i, IsReal (b1r i)) (n : Fin 100000) (j : Fin 128) :
    IsReal (kernelAct h0 h1 h2 h3 W1 b1r n j) := by
  unfold kernelAct dotRow
  refine IsReal.max (IsReal.add (IsReal.add (IsReal.add (IsReal.add ?_ ?_) ?_) ?_) (hb _)) IsReal.zero
  · exact IsReal.sum _ _ (fun f _ => (hh0 _).mul (hW _))
  · exact IsReal.sum _ _ (fun f _ => (hh1 _).mul (hW _))
  · exact IsReal.sum _ _ (fun f _ => (hh2 _).mul (hW _))
  · exact IsReal.sum _ _ (fun f _ => (hh3 _).mul (hW _))

end Cert.Tag
-- ==== Proof.Hops.lean ====
/-
  The graph operations of the two programs read as the abstract hop.

  A hop on feature rows (gather the source rows, scale each by its edge weight, add into the destination rows)
  read at node n and feature f is the sum over the edges whose destination is n of the edge weight times the
  source row's entry at f: the abstract hop on the edge data (destination, source, weight) read off the index
  lists. The same holds for a hop on a scalar column. Hops keep real values real, the edge weights are real
  whatever the index lists hold, and stacking the two rows of the edge list and slicing them again gives the
  rows back.
-/
import proofs.«143162_j84885733638248_2_alg».proof.Proof.Spec
import proofs.«143162_j84885733638248_2_alg».proof.Proof.RowIndexing
import proofs.«143162_j84885733638248_2_alg».proof.Proof.HornerLaw
import proofs.«143162_j84885733638248_2_alg».proof.Proof.Finite
import Idealize.ShloMosaic.Lib.ValueIdx
import Idealize.ShloMosaic.Lib.Pipeline.Value
import Idealize.ShloMosaic.PureOps.Ideal.Laws
import Idealize.ShloMosaic.Lib.IdealHost

open scoped BigOperators

noncomputable section

namespace Cert.Tag

open Idealize.ShloMosaic Idealize.ShloMosaic.ValueIdx

/-- the edge data of the abstract hop, read off the index lists: the destination row (if in range) -/
def edgeDst (dst : IVec SE 32) : Fin 1600000 → Option (Fin 100000) := sRow (colIdx dst)
/-- the source row (wrapped, then clamped) -/
def edgeSrc (src : IVec SE 32) : Fin 1600000 → Fin 100000 := gRow (wrapIdx src)
/-- the edge weight -/
def edgeW (nrm : FVec Ideal SE .f32) : Fin 1600000 → EReal := fun e => nrm (ix1 e)

/-- the f32 zero splat over any shape reads 0 -/
theorem zeroSplat_apply {t : Shape} (hb : S0.BroadcastsInDim t (![] : Fin 0 → Fin t.rank)) (j : t.Idx) :
    broadcastInDim t ![] hb (constant (F := Ideal) S0 .f32 0x00000000#32) j = (0 : EReal) := by
  refine (broadcastInDim_apply _ hb _ j ix0 (fun a => a.elim0)).trans ?_
  rw [constant_apply]
  exact Ideal.ofBits_zero_f32

/-- the edge weights broadcast to a [E, 1] column read the edge's weight -/
theorem nrmCol_apply (nrm : FVec Ideal SE .f32) (e : Fin 1600000) (c : Fin 1) :
    broadcastInDim SE1 ![0] bc_E_E1 nrm (ix2 e c) = nrm (ix1 e) :=
  broadcastInDim_apply _ bc_E_E1 _ (ix2 e c) (ix1 e) (fun a => match a with | ⟨0, _⟩ => rfl)

/-- the edge weights broadcast to [E, 128] rows read the edge's weight -/
theorem nrmRows_apply (nrm : FVec Ideal SE .f32) (e : Fin 1600000) (f : Fin 128) :
    broadcastInDim SE128 ![0, 1] bc_E1_E128 (broadcastInDim SE1 ![0] bc_E_E1 nrm) (ix2 e f) = nrm (ix1 e) := by
  refine (broadcastInDim_apply _ bc_E1_E128 _ (ix2 e f) (ix2 e (0 : Fin 1)) ?_).trans (nrmCol_apply nrm e 0)
  intro a
  match a with
  | ⟨0, _⟩ => rfl
  | ⟨1, _⟩ => rfl

/-- a hop on feature rows read at node n, feature f is the abstract hop on the edge data -/
theorem hopRows_apply (src dst : IVec SE 32) (nrm : FVec Ideal SE .f32) (h : FVec Ideal SN128 .f32)
    (n : Fin 100000) (f : Fin 128) :
    hopRows src dst nrm h (ix2 n f)
      = hop (edgeDst dst) (edgeSrc src) (edgeW nrm) (fun n' f' => h (ix2 n' f')) n f := by
  unfold hopRows hop
  refine (scatterAdd128_apply _ _ _ n f).trans ?_
  rw [zeroSplat_apply, zero_add]
  refine Finset.sum_congr rfl fun e _ => ?_
  rw [mulf_apply, gather128_apply, nrmRows_apply]
  rfl

/-- a hop on a scalar column read at node n is the abstract scalar hop on the edge data -/
theorem hopCol_apply (src dst : IVec SE 32) (nrm : FVec Ideal SE .f32) (v : FVec Ideal SN1 .f32) (n : Fin 100000) :
    hopCol src dst nrm v (ix2 n (0 : Fin 1))
      = hop1 (edgeDst dst) (edgeSrc src) (edgeW nrm) (fun n' => v (ix2 n' (0 : Fin 1))) n := by
  unfold hopCol hop1
  refine (scatterAdd1_apply _ _ _ n 0).trans ?_
  rw [zeroSplat_apply, zero_add]
  refine Finset.sum_congr rfl fun e _ => ?_
  rw [mulf_apply, gather1_apply, nrmCol_apply]
  rfl

/-! ## Real values stay real -/

/-- a broadcast of a real-valued array is real-valued -/
theorem broadcastInDim_isReal {s t : Shape} (dims : Fin s.rank → Fin t.rank) (hb : s.BroadcastsInDim t dims)
    (x : s.Idx → EReal) (hx : ∀ i, IsReal (x i)) : ∀ j, IsReal (broadcastInDim t dims hb x j) := by
  intro j
  unfold broadcastInDim
  exact hx _

/-- the f32 one splat over any shape reads 1 -/
theorem oneSplat_apply {t : Shape} (hb : S0.BroadcastsInDim t (![] : Fin 0 → Fin t.rank)) (j : t.Idx) :
    broadcastInDim t ![] hb (constant (F := Ideal) S0 .f32 0x3F800000#32) j = (1 : EReal) := by
  refine (broadcastInDim_apply _ hb _ j ix0 (fun a => a.elim0)).trans ?_
  rw [constant_apply]
  exact Ideal.ofBits_one_f32

theorem zeroSplat_isReal {t : Shape} (hb : S0.BroadcastsInDim t (![] : Fin 0 → Fin t.rank)) :
    ∀ j, IsReal (broadcastInDim t ![] hb (constant (F := Ideal) S0 .f32 0x00000000#32) j) := by
  intro j
  rw [zeroSplat_apply]
  exact IsReal.zero

/-- a hop on feature rows with real weights keeps a real-valued array real-valued -/
theorem hopRows_isReal (src dst : IVec SE 32) (nrm : FVec Ideal SE .f32) (h : FVec Ideal SN128 .f32)
    (hν : ∀ e, IsReal (nrm e)) (hh : ∀ i, IsReal (h i)) : ∀ i, IsReal (hopRows src dst nrm h i) := by
  unfold hopRows
  refine scatterAdd_isReal _ _ _ _ (zeroSplat_isReal _) ?_
  intro j
  rw [mulf_apply]
  exact (broadcastInDim_isReal _ _ _ (broadcastInDim_isReal _ _ _ hν) j).mul (gather_isReal _ _ _ hh j)

/-- a hop on a scalar column with real weights keeps a real-valued column real-valued -/
theorem hopCol_isReal (src dst : IVec SE 32) (nrm : FVec Ideal SE .f32) (v : FVec Ideal SN1 .f32)
    (hν : ∀ e, IsReal (nrm e)) (hv : ∀ i, IsReal (v i)) : ∀ i, IsReal (hopCol src dst nrm v i) := by
  unfold hopCol
  refine scatterAdd_isReal _ _ _ _ (zeroSplat_isReal _) ?_
  intro j
  rw [mulf_apply]
  exact (broadcastInDim_isReal _ _ _ hν j).mul (gather_isReal _ _ _ hv j)

/-- the reciprocal square root of a positive real number is a real number -/
theorem rsqrt_isReal_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact IsReal.coe _

/-- the in-degrees are real numbers -/
theorem degOf_isReal (dst : IVec SE 32) : ∀ i, IsReal (degOf dst i) := by
  unfold degOf
  refine scatterAdd_isReal _ _ _ _ (zeroSplat_isReal _) ?_
  intro j
  rw [oneSplat_apply]
  exact IsReal.one

/-- `where(c, rsqrt(max(deg, 1)), 0)` of a real-valued array is real-valued: the clamped argument is at least 1 -/
theorem selectRsqrt_isReal {s : Shape} (c : IVec s 1) (deg one zero : FVec Ideal s .f32) (hdeg : ∀ i, IsReal (deg i))
    (hone : ∀ i, one i = (1 : EReal)) (hzero : ∀ i, zero i = (0 : EReal)) :
    ∀ i, IsReal (select c (Host.rsqrt (F := Ideal) (maximumf (F := Ideal) deg one)) zero i) := by
  intro i
  rw [select_apply]
  unfold Scalar.select
  by_cases hc : c i = 1
  · rw [if_pos hc]
    have hr : Host.rsqrt (F := Ideal) (maximumf (F := Ideal) deg one) i = Ideal.rsqrt (max (deg i) (one i)) := rfl
    rw [hr, hone]
    exact rsqrt_isReal_of_pos ((hdeg i).max IsReal.one) (lt_of_lt_of_le zero_lt_one (le_max_right _ _))
  · rw [if_neg hc, hzero]
    exact IsReal.zero

/-- the inverse square roots of the clamped degrees are real numbers -/
theorem dinvOf_isReal (dst : IVec SE 32) : ∀ i, IsReal (dinvOf dst i) := by
  unfold dinvOf
  exact selectRsqrt_isReal _ _ _ _ (degOf_isReal dst) (fun i => oneSplat_apply _ i) (fun i => zeroSplat_apply _ i)

/-- the edge weights are real numbers whatever the index lists hold -/
theorem normOf_isReal (src dst : IVec SE 32) : ∀ e, IsReal (normOf src dst e) := by
  intro e
  unfold normOf
  rw [mulf_apply]
  exact (gather_isReal _ _ _ (dinvOf_isReal dst) e).mul (gather_isReal _ _ _ (dinvOf_isReal dst) e)

/-! ## Restacking the edge list -/

/-- the source row read at edge e is row 0 of the edge list -/
theorem srcOf_apply (ei : IVec S2E 32) (e : Fin 1600000) : srcOf ei (ix1 e) = ei (ix2 (0 : Fin 2) e) := by
  unfold srcOf
  refine (shapeCast_apply _ cast_1E_E (ix1 e) (ix2 (0 : Fin 1) e) ?_).trans ?_
  · rw [Shape.rowMajor_val_two, Shape.rowMajor_val_one]
    show 0 * 1600000 + e.val = e.val
    omega
  · exact extractStridedSlice_apply ![0, 0] ei slice_row0 (ix2 (0 : Fin 1) e) (ix2 (0 : Fin 2) e) (fun a =>
      match a with
      | ⟨0, _⟩ => by show (0 : Nat) = 0 + 0; omega
      | ⟨1, _⟩ => by show e.val = 0 + e.val; omega)

/-- the destination row read at edge e is row 1 of the edge list -/
theorem dstOf_apply (ei : IVec S2E 32) (e : Fin 1600000) : dstOf ei (ix1 e) = ei (ix2 (1 : Fin 2) e) := by
  unfold dstOf
  refine (shapeCast_apply _ cast_1E_E (ix1 e) (ix2 (0 : Fin 1) e) ?_).trans ?_
  · rw [Shape.rowMajor_val_two, Shape.rowMajor_val_one]
    show 0 * 1600000 + e.val = e.val
    omega
  · exact extractStridedSlice_apply ![1, 0] ei slice_row1 (ix2 (0 : Fin 1) e) (ix2 (1 : Fin 2) e) (fun a =>
      match a with
      | ⟨0, _⟩ => by show (1 : Nat) = 1 + 0; omega
      | ⟨1, _⟩ => by show e.val = 0 + e.val; omega)

/-- row 0 of the restacked edge list is the source row -/
theorem restack_row0 (ei : IVec S2E 32) (e : Fin 1600000) : restack ei (ix2 (0 : Fin 2) e) = srcOf ei (ix1 e) := by
  unfold restack
  refine (concatenate_pair_apply_left (t := S2E) (s₁ := S1E) (s₂ := S1E) (0 : Fin 2) _ _ cat_rows (ix2 (0 : Fin 2) e) rfl (ix2 (0 : Fin 1) e) ?_).trans ?_
  · intro b
    match b with
    | ⟨0, _⟩ => rfl
    | ⟨1, _⟩ => rfl
  · exact broadcastInDim_apply _ bc_E_1E _ (ix2 (0 : Fin 1) e) (ix1 e) (fun a => match a with | ⟨0, _⟩ => rfl)

/-- row 1 of the restacked edge list is the destination row -/
theorem restack_row1 (ei : IVec S2E 32) (e : Fin 1600000) : restack ei (ix2 (1 : Fin 2) e) = dstOf ei (ix1 e) := by
  unfold restack
  refine (concatenate_pair_apply_right (t := S2E) (s₁ := S1E) (s₂ := S1E) (0 : Fin 2) _ _ cat_rows (ix2 (1 : Fin 2) e) rfl rfl (ix2 (0 : Fin 1) e) ?_ rfl).trans ?_
  · intro b hb
    match b with
    | ⟨0, _⟩ => exact absurd rfl hb
    | ⟨1, _⟩ => rfl
  · exact broadcastInDim_apply _ bc_E_1E _ (ix2 (0 : Fin 1) e) (ix1 e) (fun a => match a with | ⟨0, _⟩ => rfl)

/-- stacking the two rows and slicing them again gives the source row back -/
theorem srcOf_restack (ei : IVec S2E 32) : srcOf (restack ei) = srcOf ei := by
  funext i
  obtain ⟨e, rfl⟩ : ∃ e : Fin 1600000, i = ix1 e := ⟨i 0, eq_ix1 i⟩
  rw [srcOf_apply, restack_row0]

/-- stacking the two rows and slicing them again gives the destination row back -/
theorem dstOf_restack (ei : IVec S2E 32) : dstOf (restack ei) = dstOf ei := by
  funext i
  obtain ⟨e, rfl⟩ : ∃ e : Fin 1600000, i = ix1 e := ⟨i 0, eq_ix1 i⟩
  rw [dstOf_apply, restack_row1]

end Cert.Tag
-- ==== Proof.Bridge.lean ====
/-
  The bridge: the kernel's program and the reference compute the same array on real-valued inputs.

  Both programs weight the edges alike (stacking the two rows of the edge list and slicing them again gives the
  rows back). Write P for one hop with those weights, g for the layer-1 activation, and W_c (c = 0, 1, 2, 3) for
  the four 128-slices of the layer-2 weight. The kernel forms the same activation g from the four hop arrays of x
  and contracts it with the four slices, u_c = g · W_c; the host operations after it evaluate
  u_0 + P (u_1 + P (u_2 + P u_3)) + b2. The reference evaluates
  g · W_0 + (P g) · W_1 + (P² g) · W_2 + (P³ g) · W_3 + b2. A hop is linear and acts on the node axis only, so on
  real-valued data the two agree (the Horner law); real inputs make the edge weights, every hop and the activation
  real-valued.
-/
import proofs.«143162_j84885733638248_2_alg».proof.Proof.Spec
import proofs.«143162_j84885733638248_2_alg».proof.Proof.Finite
import proofs.«143162_j84885733638248_2_alg».proof.Proof.HornerLaw
import proofs.«143162_j84885733638248_2_alg».proof.Proof.RowIndexing
import proofs.«143162_j84885733638248_2_alg».proof.Proof.Layers
import proofs.«143162_j84885733638248_2_alg».proof.Proof.Hops

open scoped BigOperators

namespace Cert.Tag

open Idealize.ShloMosaic Idealize.ShloMosaic.ValueIdx

/-- A hop on feature rows of an array that reads as `h'` is the abstract hop of `h'`. -/
theorem hopRows_apply_of (src dst : IVec SE 32) (nrm : FVec Ideal SE .f32) (h : FVec Ideal SN128 .f32)
    (h' : Fin 100000 → Fin 128 → EReal) (hh : ∀ m f, h (ix2 m f) = h' m f) (n : Fin 100000) (f : Fin 128) :
    hopRows src dst nrm h (ix2 n f) = hop (edgeDst dst) (edgeSrc src) (edgeW nrm) h' n f :=
  (hopRows_apply src dst nrm h n f).trans
    (congrArg (fun t => hop (edgeDst dst) (edgeSrc src) (edgeW nrm) t n f) (funext fun m => funext fun f' => hh m f'))

/-- A hop on a scalar column that reads as `v'` is the abstract scalar hop of `v'`. -/
theorem hopCol_apply_of (src dst : IVec SE 32) (nrm : FVec Ideal SE .f32) (v : FVec Ideal SN1 .f32)
    (v' : Fin 100000 → EReal) (hv : ∀ m, v (ix2 m (0 : Fin 1)) = v' m) (n : Fin 100000) :
    hopCol src dst nrm v (ix2 n (0 : Fin 1)) = hop1 (edgeDst dst) (edgeSrc src) (edgeW nrm) v' n :=
  (hopCol_apply src dst nrm v n).trans
    (congrArg (fun t => hop1 (edgeDst dst) (edgeSrc src) (edgeW nrm) t n) (funext hv))

/-- The kernel's result at node `n`, column `c`: the reference's layer-1 activation contracted with slice `c` of
    the layer-2 weight. -/
theorem kernelU_apply (src dst : IVec SE 32) (nrm : FVec Ideal SE .f32) (x : FVec Ideal SN128 .f32)
    (W1 : FVec Ideal S512x128 .f32) (b1 : FVec Ideal S128 .f32) (W2 : FVec Ideal S512x1 .f32) (n : Fin 100000) (c : Fin 4) :
    kernelU x (hopRows src dst nrm x) (hopRows src dst nrm (hopRows src dst nrm x))
        (hopRows src dst nrm (hopRows src dst nrm (hopRows src dst nrm x))) (w1Bf W1) (b1Row b1) (w2Cols W2) (ix2 n c)
      = ∑ j : Fin 128, layer1Ref src dst nrm x W1 b1 (ix2 n j)
          * W2 (ix2 (⟨128 * c.val + j.val, by omega⟩ : Fin 512) (0 : Fin 1)) := by
  show kernelUAt x (hopRows src dst nrm x) (hopRows src dst nrm (hopRows src dst nrm x))
    (hopRows src dst nrm (hopRows src dst nrm (hopRows src dst nrm x))) (w1Bf W1) (b1Row b1) (w2Cols W2) n c = _
  unfold kernelUAt
  refine Finset.sum_congr rfl fun j _ => ?_
  rw [w2Cols_apply, layer1Ref_apply]

/-- The host operations after the kernel, at a node: Horner's evaluation over the four columns, then the bias. -/
theorem tailOut_apply (src dst : IVec SE 32) (nrm : FVec Ideal SE .f32) (u : FVec Ideal SN4 .f32)
    (b2 : FVec Ideal S1 .f32) (n : Fin 100000) :
    tailOut src dst nrm u b2 (ix2 n (0 : Fin 1))
      = (u (ix2 n (0 : Fin 4))
          + hop1 (edgeDst dst) (edgeSrc src) (edgeW nrm) (fun n1 => u (ix2 n1 (1 : Fin 4))
              + hop1 (edgeDst dst) (edgeSrc src) (edgeW nrm) (fun n2 => u (ix2 n2 (2 : Fin 4))
                  + hop1 (edgeDst dst) (edgeSrc src) (edgeW nrm) (fun n3 => u (ix2 n3 (3 : Fin 4))) n2) n1) n)
        + b2 (ix1 (0 : Fin 1)) := by
  have k0 : ∀ m, col0 u (ix2 m (0 : Fin 1)) = u (ix2 m (0 : Fin 4)) := fun m => (col_apply u m 0).1
  have k1 : ∀ m, col1 u (ix2 m (0 : Fin 1)) = u (ix2 m (1 : Fin 4)) := fun m => (col_apply u m 0).2.1
  have k2 : ∀ m, col2 u (ix2 m (0 : Fin 1)) = u (ix2 m (2 : Fin 4)) := fun m => (col_apply u m 0).2.2.1
  have k3 : ∀ m, col3 u (ix2 m (0 : Fin 1)) = u (ix2 m (3 : Fin 4)) := fun m => (col_apply u m 0).2.2.2
  have h3 : ∀ m, hopCol src dst nrm (col3 u) (ix2 m (0 : Fin 1))
      = hop1 (edgeDst dst) (edgeSrc src) (edgeW nrm) (fun n3 => u (ix2 n3 (3 : Fin 4))) m :=
    fun m => hopCol_apply_of src dst nrm _ _ k3 m
  have h2 : ∀ m, hopCol src dst nrm (addf (F := Ideal) (col2 u) (hopCol src dst nrm (col3 u))) (ix2 m (0 : Fin 1))
      = hop1 (edgeDst dst) (edgeSrc src) (edgeW nrm) (fun n2 => u (ix2 n2 (2 : Fin 4))
          + hop1 (edgeDst dst) (edgeSrc src) (edgeW nrm) (fun n3 => u (ix2 n3 (3 : Fin 4))) n2) m :=
    fun m => hopCol_apply_of src dst nrm _ _ (fun m' => by
      show col2 u (ix2 m' (0 : Fin 1)) + hopCol src dst nrm (col3 u) (ix2 m' (0 : Fin 1)) = _
      rw [k2, h3]) m
  have h1 : ∀ m, hopCol src dst nrm (addf (F := Ideal) (col1 u)
        (hopCol src dst nrm (addf (F := Ideal) (col2 u) (hopCol src dst nrm (col3 u))))) (ix2 m (0 : Fin 1))
      = hop1 (edgeDst dst) (edgeSrc src) (edgeW nrm) (fun n1 => u (ix2 n1 (1 : Fin 4))
          + hop1 (edgeDst dst) (edgeSrc src) (edgeW nrm) (fun n2 => u (ix2 n2 (2 : Fin 4))
              + hop1 (edgeDst dst) (edgeSrc src) (edgeW nrm) (fun n3 => u (ix2 n3 (3 : Fin 4))) n2) n1) m :=
    fun m => hopCol_apply_of src dst nrm _ _ (fun m' => by
      show col1 u (ix2 m' (0 : Fin 1))
        + hopCol src dst nrm (addf (F := Ideal) (col2 u) (hopCol src dst nrm (col3 u))) (ix2 m' (0 : Fin 1)) = _
      rw [k1, h2]) m
  show (col0 u (ix2 n (0 : Fin 1))
      + hopCol src dst nrm (addf (F := Ideal) (col1 u)
          (hopCol src dst nrm (addf (F := Ideal) (col2 u) (hopCol src dst nrm (col3 u))))) (ix2 n (0 : Fin 1)))
    + broadcastInDim SN1 ![0, 1] bc_1x1_N1 (broadcastInDim S1x1 ![1] bc_1_1x1 b2) (ix2 n (0 : Fin 1)) = _
  rw [k0, h1, bias2_apply]

/-- The kernel's program and the reference agree on real-valued inputs. -/
theorem kernelOut_eq_refOut (x : FVec Ideal SN128 .f32) (ei : IVec S2E 32) (W1 : FVec Ideal S512x128 .f32)
    (b1 : FVec Ideal S128 .f32) (W2 : FVec Ideal S512x1 .f32) (b2 : FVec Ideal S1 .f32)
    (hx : ∀ i, IsReal (x i)) (hW1 : ∀ i, IsReal (W1 i)) (hb1 : ∀ i, IsReal (b1 i)) (hW2 : ∀ i, IsReal (W2 i))
    (hb2 : ∀ i, IsReal (b2 i)) :
    kernelOut x ei W1 b1 W2 b2 = refOut x ei W1 b1 W2 b2 := by
  unfold kernelOut refOut
  simp only [srcOf_restack, dstOf_restack]
  generalize srcOf ei = src
  generalize dstOf ei = dst
  have hν := normOf_isReal src dst
  generalize normOf src dst = nrm at hν ⊢
  funext i
  obtain ⟨n, z, rfl⟩ : ∃ n z, i = ix2 n z := ⟨i 0, i 1, eq_ix2 i⟩
  obtain rfl : z = 0 := Subsingleton.elim _ _
  -- every hop of x, and the layer-1 activation, is real-valued
  have hx1 := hopRows_isReal src dst nrm x hν hx
  have hx2 := hopRows_isReal src dst nrm _ hν hx1
  have hx3 := hopRows_isReal src dst nrm _ hν hx2
  have hg : ∀ (m : Fin 100000) (j : Fin 128), IsReal (layer1Ref src dst nrm x W1 b1 (ix2 m j)) := fun m j => by
    rw [layer1Ref_apply]
    exact kernelAct_isReal _ _ _ _ _ _ hx hx1 hx2 hx3 (fun i => hW1 i)
      (fun i => by unfold b1Row shapeCast; exact hb1 _) m j
  have hW : ∀ (c : Fin 4) (j : Fin 128),
      IsReal (W2 (ix2 (⟨128 * c.val + j.val, by omega⟩ : Fin 512) (0 : Fin 1))) := fun c j => hW2 _
  -- the Horner law on the edge data, the activation and the four weight slices
  have hl := horner_law (edgeDst dst) (edgeSrc src) (edgeW nrm)
    (fun m j => layer1Ref src dst nrm x W1 b1 (ix2 m j))
    (fun c j => W2 (ix2 (⟨128 * c.val + j.val, by omega⟩ : Fin 512) (0 : Fin 1)))
    (fun e => hν (ix1 e)) hg hW n
  -- iterated hops of the activation are iterated abstract hops
  have r1 : ∀ m f, hopRows src dst nrm (layer1Ref src dst nrm x W1 b1) (ix2 m f)
      = hop (edgeDst dst) (edgeSrc src) (edgeW nrm) (fun m' f' => layer1Ref src dst nrm x W1 b1 (ix2 m' f')) m f :=
    fun m f => hopRows_apply src dst nrm _ m f
  have r2 : ∀ m f, hopRows src dst nrm (hopRows src dst nrm (layer1Ref src dst nrm x W1 b1)) (ix2 m f)
      = hop (edgeDst dst) (edgeSrc src) (edgeW nrm) (hop (edgeDst dst) (edgeSrc src) (edgeW nrm)
          (fun m' f' => layer1Ref src dst nrm x W1 b1 (ix2 m' f'))) m f :=
    fun m f => hopRows_apply_of src dst nrm _ _ r1 m f
  have r3 : ∀ m f, hopRows src dst nrm (hopRows src dst nrm (hopRows src dst nrm (layer1Ref src dst nrm x W1 b1)))
        (ix2 m f)
      = hop (edgeDst dst) (edgeSrc src) (edgeW nrm) (hop (edgeDst dst) (edgeSrc src) (edgeW nrm)
          (hop (edgeDst dst) (edgeSrc src) (edgeW nrm)
            (fun m' f' => layer1Ref src dst nrm x W1 b1 (ix2 m' f')))) m f :=
    fun m f => hopRows_apply_of src dst nrm _ _ r2 m f
  rw [tailOut_apply, layer2Ref_apply]
  simp only [kernelU_apply]
  refine congrArg (fun t => t + b2 (ix1 (0 : Fin 1))) ?_
  refine hl.trans ?_
  -- the reference's four sums, slice by slice
  have e0 : (∑ f : Fin 128, layer1Ref src dst nrm x W1 b1 (ix2 n f)
        * W2 (ix2 (⟨0 + f.val, by omega⟩ : Fin 512) 0))
      = ∑ j : Fin 128, layer1Ref src dst nrm x W1 b1 (ix2 n j)
        * W2 (ix2 (⟨128 * (0 : Fin 4).val + j.val, by omega⟩ : Fin 512) (0 : Fin 1)) :=
    Finset.sum_congr rfl fun f _ => congrArg (fun k => layer1Ref src dst nrm x W1 b1 (ix2 n f) * W2 (ix2 k 0))
      (Fin.ext (by show 0 + f.val = 128 * 0 + f.val; omega))
  have e1 : (∑ f : Fin 128, hopRows src dst nrm (layer1Ref src dst nrm x W1 b1) (ix2 n f)
        * W2 (ix2 (⟨128 + f.val, by omega⟩ : Fin 512) 0))
      = ∑ j : Fin 128, hop (edgeDst dst) (edgeSrc src) (edgeW nrm)
          (fun m' f' => layer1Ref src dst nrm x W1 b1 (ix2 m' f')) n j
        * W2 (ix2 (⟨128 * (1 : Fin 4).val + j.val, by omega⟩ : Fin 512) (0 : Fin 1)) :=
    Finset.sum_congr rfl fun f _ => by
      rw [r1]
      exact congrArg (fun k => _ * W2 (ix2 k 0)) (Fin.ext (by show 128 + f.val = 128 * 1 + f.val; omega))
  have e2 : (∑ f : Fin 128, hopRows src dst nrm (hopRows src dst nrm (layer1Ref src dst nrm x W1 b1)) (ix2 n f)
        * W2 (ix2 (⟨256 + f.val, by omega⟩ : Fin 512) 0))
      = ∑ j : Fin 128, hop (edgeDst dst) (edgeSrc src) (edgeW nrm) (hop (edgeDst dst) (edgeSrc src) (edgeW nrm)
          (fun m' f' => layer1Ref src dst nrm x W1 b1 (ix2 m' f'))) n j
        * W2 (ix2 (⟨128 * (2 : Fin 4).val + j.val, by omega⟩ : Fin 512) (0 : Fin 1)) :=
    Finset.sum_congr rfl fun f _ => by
      rw [r2]
      exact congrArg (fun k => _ * W2 (ix2 k 0)) (Fin.ext (by show 256 + f.val = 128 * 2 + f.val; omega))
  have e3 : (∑ f : Fin 128, hopRows src dst nrm (hopRows src dst nrm (hopRows src dst nrm
          (layer1Ref src dst nrm x W1 b1))) (ix2 n f)
        * W2 (ix2 (⟨384 + f.val, by omega⟩ : Fin 512) 0))
      = ∑ j : Fin 128, hop (edgeDst dst) (edgeSrc src) (edgeW nrm) (hop (edgeDst dst) (edgeSrc src) (edgeW nrm)
          (hop (edgeDst dst) (edgeSrc src) (edgeW nrm)
            (fun m' f' => layer1Ref src dst nrm x W1 b1 (ix2 m' f')))) n j
        * W2 (ix2 (⟨128 * (3 : Fin 4).val + j.val, by omega⟩ : Fin 512) (0 : Fin 1)) :=
    Finset.sum_congr rfl fun f _ => by
      rw [r3]
      exact congrArg (fun k => _ * W2 (ix2 k 0)) (Fin.ext (by show 384 + f.val = 128 * 3 + f.val; omega))
  rw [e0, e1, e2, e3]
  exact ((add_assoc _ _ _).trans (add_assoc _ _ _)).symm

end Cert.Tag
-- ==== Proof.Finiteness.lean ====
/-
  From the precondition to real-valued inputs.

  The precondition computes, for each of the five float arguments, whether every entry `x` satisfies
  `|x| < +∞`, and joins the five answers by `and`. At the ideal instance an entry is an extended real, its
  absolute value is `max x (-x)`, the word `0x7F800000` denotes `+∞`, and the comparison is the order's. So when
  the precondition's one answer is `1`, every entry of every float argument is neither infinity: it is a real
  number.
-/
import proofs.«143162_j84885733638248_2_alg».proof.Proof.Gen.Pre_finite_inputs
import proofs.«143162_j84885733638248_2_alg».proof.Proof.Finite
import Idealize.ShloMosaic.Lib.ReduceAll
import Idealize.ShloMosaic.Lib.ValueIdx
import Idealize.ShloMosaic.Lib.IdealHost
import Idealize.ShloMosaic.PureOps.Ideal.Laws

namespace Cert.Tag

open Idealize.ShloMosaic Idealize.ShloMosaic.ValueIdx Cert.Pre_finite_inputs

/-- The rank-0 shape has one index. -/
instance subsingleton_scalar_idx : Subsingleton S_.Idx := ⟨fun a b => funext fun d => d.elim0⟩

/-- An extended real whose absolute value is below `+∞` is a real number. -/
theorem isReal_of_abs_lt_top (x : EReal) (h : max x (-x) < ⊤) : IsReal x := by
  induction x using EReal.rec with
  | bot => simp at h
  | coe r => exact ⟨r, rfl⟩
  | top => simp at h

/-- The f32 word `0x7F800000` denotes `+∞`. -/
theorem ofBits_inf_f32 : Ideal.ofBits .f32 0x7F800000#32 = (⊤ : EReal) := by
  simp [Ideal.ofBits, Ideal.ieee]

/-- The element fact: `|x| < +∞` answered `1` says `x` is a real number. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- One `jnp.all(|x| < inf)`: when it answers `1`, every entry of `x` is a real number. -/
theorem isReal_of_all {s : Shape} {axes : List (Fin s.rank)} (hb : S_.BroadcastsInDim s (![] : Fin 0 → Fin s.rank))
    (hr : s.ReducesTo axes S_) (hu : 0 < S_.numel) (x : FVec Ideal s .f32) (j : S_.Idx)
    (e : Host.reduce IntOp.andi
        (cmpf (F := Ideal) .olt (Host.absf x) (broadcastInDim s ![] hb (constant (F := Ideal) S_ .f32 0x7F800000#32)))
        (constantI S_ 1 1#1) hr hu j = 1#1) :
    ∀ i, IsReal (x i) := by
  intro i
  have hi := Host.reduce_andi_all _ _ hr hu j e i
  rw [cmpf_apply, broadcastInDim_scalar_apply, constant_apply] at hi
  exact isReal_of_cmp (x i) hi

/-- The precondition answered `1`: every entry of every float argument is a real number. -/
theorem real_of_pre (x0 : FVec Ideal S100000x128 .f32) (x1 : IVec S2x1600000 32) (x2 : FVec Ideal S512x128 .f32)
    (x3 : FVec Ideal S128 .f32) (x4 : FVec Ideal S512x1 .f32) (x5 : FVec Ideal S1 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ix0
  dsimp only [Cert.Pre_finite_inputs.fn, Cert.Pre_finite_inputs.fn_part1] at h0
  obtain ⟨h0123, h5⟩ := IntOp.andi_eq_one.1 h0
  obtain ⟨h012, h4⟩ := IntOp.andi_eq_one.1 h0123
  obtain ⟨h01, h3⟩ := IntOp.andi_eq_one.1 h012
  obtain ⟨h00, h2⟩ := IntOp.andi_eq_one.1 h01
  exact ⟨isReal_of_all _ _ _ x0 ix0 h00, isReal_of_all _ _ _ x2 ix0 h2, isReal_of_all _ _ _ x3 ix0 h3,
    isReal_of_all _ _ _ x4 ix0 h4, isReal_of_all _ _ _ x5 ix0 h5⟩

end Cert.Tag
-- ==== Proof.KernelBody.lean ====
/-
  The kernel body's stored value at an index.

  At a grid point the body loads four [4000, 128] blocks of node features (the input and its three hops), the whole
  [512, 128] layer-1 weight, the [1, 128] bias row and the [128, 4] layer-2 columns. It multiplies block `c` with rows
  `128 c … 128 c + 127` of the weight, adds the four products and the bias, clamps at zero, and multiplies the result
  with the [128, 4] columns. Read at row `r` and column `k`, every matrix product is a plain sum over 128 features, the
  roundings to bf16 being the identity on extended reals.
-/
import proofs.«143162_j84885733638248_2_alg».proof.Proof.Gen.KernelIdeal.Skeleton
import proofs.«143162_j84885733638248_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A [4000, 128] × [128, 128] product into a zero accumulator, at row `r` and column `j`: the sum over the 128
    contracted features. -/
theorem mm128_apply (lhs : FVec Ideal S4000x128 .bf16) (rhs : FVec Ideal S128x128 .bf16) (r : Fin 4000) (j : Fin 128) :
    matmul dot_S4000x128_S128x128_S4000x128_1_0_0_1_n_n none lhs rhs (constant S4000x128 .f32 0x00000000#32) (ix2 r j)
      = ∑ f : Fin 128, lhs (ix2 r f) * rhs (ix2 f j) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j)
      ((contrEquiv1 dot_S4000x128_S128x128_S4000x128_1_0_0_1_n_n 128 rfl rfl).symm k) = ix2 r k :=
    funext fun a => Fin.ext (by
      match a with
      | ⟨0, _⟩ =>
        show (dot_S4000x128_S128x128_S4000x128_1_0_0_1_n_n.lhsIdx (ix2 r j) _ 0).val = r.val
        unfold DotDims.lhsIdx
        rw [dif_neg (show ¬(0 : Fin S4000x128.rank) ∈ dot_S4000x128_S128x128_S4000x128_1_0_0_1_n_n.lhsBatch by decide),
          dif_pos (show (0 : Fin S4000x128.rank) ∈ dot_S4000x128_S128x128_S4000x128_1_0_0_1_n_n.lhsNonContracting by decide)]
        rfl
      | ⟨1, _⟩ => exact (dot_S4000x128_S128x128_S4000x128_1_0_0_1_n_n.lhsIdx_val_of_single rfl _ _).trans hk)
  have er : dot_S4000x128_S128x128_S4000x128_1_0_0_1_n_n.rhsIdx (ix2 r j)
      ((contrEquiv1 dot_S4000x128_S128x128_S4000x128_1_0_0_1_n_n 128 rfl rfl).symm k) = ix2 k j :=
    funext fun a => Fin.ext (by
      match a with
      | ⟨0, _⟩ => exact (dot_S4000x128_S128x128_S4000x128_1_0_0_1_n_n.rhsIdx_val_of_single rfl _ _).trans hk
      | ⟨1, _⟩ =>
        show (dot_S4000x128_S128x128_S4000x128_1_0_0_1_n_n.rhsIdx (ix2 r j) _ 1).val = j.val
        unfold DotDims.rhsIdx
        rw [dif_neg (show ¬(1 : Fin S128x128.rank) ∈ dot_S4000x128_S128x128_S4000x128_1_0_0_1_n_n.rhsBatch by decide),
          dif_pos (show (1 : Fin S128x128.rank) ∈ dot_S4000x128_S128x128_S4000x128_1_0_0_1_n_n.rhsNonContracting by decide)]
        rfl)
  rw [el, er]

/-- A [4000, 128] × [128, 4] product into a zero accumulator, at row `r` and column `k`. -/
theorem mm4_apply (lhs : FVec Ideal S4000x128 .bf16) (rhs : FVec Ideal S128x4 .bf16) (r : Fin 4000) (k : Fin 4) :
    matmul dot_S4000x128_S128x4_S4000x4_1_0_0_1_n_n none lhs rhs (constant S4000x4 .f32 0x00000000#32) (ix2 r k)
      = ∑ j : Fin 128, lhs (ix2 r j) * rhs (ix2 j k) := by
  simp only [matmul]
  rw [Ideal.matmul_constant_zero_apply,
    ← Equiv.sum_comp (contrEquiv1 dot_S4000x128_S128x4_S4000x4_1_0_0_1_n_n 128 rfl rfl).symm]
  refine Finset.sum_congr rfl fun q _ => ?_
  have hk := contrEquiv1_symm_val dot_S4000x128_S128x4_S4000x4_1_0_0_1_n_n 128 rfl rfl q
  have el : dot_S4000x128_S128x4_S4000x4_1_0_0_1_n_n.lhsIdx (ix2 r k)
      ((contrEquiv1 dot_S4000x128_S128x4_S4000x4_1_0_0_1_n_n 128 rfl rfl).symm q) = ix2 r q :=
    funext fun a => Fin.ext (by
      match a with
      | ⟨0, _⟩ =>
        show (dot_S4000x128_S128x4_S4000x4_1_0_0_1_n_n.lhsIdx (ix2 r k) _ 0).val = r.val
        unfold DotDims.lhsIdx
        rw [dif_neg (show ¬(0 : Fin S4000x128.rank) ∈ dot_S4000x128_S128x4_S4000x4_1_0_0_1_n_n.lhsBatch by decide),
          dif_pos (show (0 : Fin S4000x128.rank) ∈ dot_S4000x128_S128x4_S4000x4_1_0_0_1_n_n.lhsNonContracting by decide)]
        rfl
      | ⟨1, _⟩ => exact (dot_S4000x128_S128x4_S4000x4_1_0_0_1_n_n.lhsIdx_val_of_single rfl _ _).trans hk)
  have er : dot_S4000x128_S128x4_S4000x4_1_0_0_1_n_n.rhsIdx (ix2 r k)
      ((contrEquiv1 dot_S4000x128_S128x4_S4000x4_1_0_0_1_n_n 128 rfl rfl).symm q) = ix2 q k :=
    funext fun a => Fin.ext (by
      match a with
      | ⟨0, _⟩ => exact (dot_S4000x128_S128x4_S4000x4_1_0_0_1_n_n.rhsIdx_val_of_single rfl _ _).trans hk
      | ⟨1, _⟩ =>
        show (dot_S4000x128_S128x4_S4000x4_1_0_0_1_n_n.rhsIdx (ix2 r k) _ 1).val = k.val
        unfold DotDims.rhsIdx
        rw [dif_neg (show ¬(1 : Fin S128x4.rank) ∈ dot_S4000x128_S128x4_S4000x4_1_0_0_1_n_n.rhsBatch by decide),
          dif_pos (show (1 : Fin S128x4.rank) ∈ dot_S4000x128_S128x4_S4000x4_1_0_0_1_n_n.rhsNonContracting by decide)]
        rfl)
  rw [el, er]

/-- Rows `off … off + 127` of the [512, 128] weight, read at row `f` and column `j`. -/
theorem wslice_apply (x4 : FVec Ideal S512x128 .bf16) (off : Nat) (hoff : off + 128 ≤ 512)
    (h : S512x128.Slices ![off, 0] S128x128) (f j : Fin 128) :
    extractStridedSlice S128x128 ![off, 0] x4 h (ix2 f j) = x4 (ix2 (⟨off + f.val, by omega⟩ : Fin 512) j) :=
  extractStridedSlice_apply ![off, 0] x4 h (ix2 f j) (ix2 (⟨off + f.val, by omega⟩ : Fin 512) j) (fun a => match a with
    | ⟨0, _⟩ => rfl
    | ⟨1, _⟩ => by show j.val = 0 + j.val; omega)

/-- THE STORED VALUE at row `r` of the block and column `k`: the clamped, biased sum of the four block products,
    contracted with column `k` of the [128, 4] weight. -/
theorem pay_apply (x0 x1 x2 x3 : FVec Ideal S4000x128 .f32) (x4 : FVec Ideal S512x128 .bf16) (x5 : FVec Ideal S1x128 .f32)
    (x6 : FVec Ideal S128x4 .bf16) (r : Fin 4000) (k : Fin 4) :
    k0_pay1 x0 x1 x2 x3 x4 x5 x6 (ix2 r k)
      = ∑ j : Fin 128,
          max (((((∑ f : Fin 128, x0 (ix2 r f) * x4 (ix2 (⟨0 + f.val, by omega⟩ : Fin 512) j))
              + (∑ f : Fin 128, x1 (ix2 r f) * x4 (ix2 (⟨128 + f.val, by omega⟩ : Fin 512) j)))
              + (∑ f : Fin 128, x2 (ix2 r f) * x4 (ix2 (⟨256 + f.val, by omega⟩ : Fin 512) j)))
              + (∑ f : Fin 128, x3 (ix2 r f) * x4 (ix2 (⟨384 + f.val, by omega⟩ : Fin 512) j)))
            + x5 (ix2 (0 : Fin 1) j)) 0
          * x6 (ix2 j k) := by
  unfold k0_pay1
  simp only [shapeCast_self]
  refine (mm4_apply _ _ r k).trans ?_
  refine Finset.sum_congr rfl fun j _ => ?_
  refine congrArg (· * x6 (ix2 j k)) ?_
  simp only [truncf_apply, maximumf_apply, addf_apply, broadcast_apply, mm128_apply,
    wslice_apply x4 0 (by omega), wslice_apply x4 128 (by omega), wslice_apply x4 256 (by omega), wslice_apply x4 384 (by omega),
    broadcastTo_1b_ab_apply, Ideal.ofBits_def, Ideal.ofBits_zero_f32]

end Cert.KernelIdeal.Body

end
-- ==== Proof.KernelValue.lean ====
/-
  The kernel's [N, 4] result array after its 25 grid points.

  Grid point `t` stages rows `4000 t … 4000 t + 3999` of the four feature arrays (the weights and the bias whole, at
  every point) and writes back rows `4000 t … 4000 t + 3999` of the result. So what point `t` writes is block `t` of one
  function of the arrays the region finds — the clamped, biased sum of four row–matrix products, contracted with the
  [128, 4] columns — and the 25 blocks cover the result array.
-/
import proofs.«143162_j84885733638248_2_alg».proof.Proof.Gen.KernelIdeal.Frame
import proofs.«143162_j84885733638248_2_alg».proof.Proof.KernelBody
import proofs.«143162_j84885733638248_2_alg».proof.Proof.Spec
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Tag (kernelU kernelUAt kernelAct dotRow)

variable (m : (ℓ : Loc nD τ sig) → Buf (Elt Ideal) ℓ)

theorem hz : (![0, 0] : Fin 2 → Nat) = fun _ => 0 := funext fun a => by fin_cases a <;> rfl

/-- The printed index maps, decided over the grid: the feature windows and the result window are at block row `t`,
    the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 25 := by
  have h : cfg0.N = 25 := N_0
  have := t.isLt
  omega

/-- The global row of row `r` of block `t`. -/
def rowOf (t : Fin cfg0.N) (r : Fin 4000) : Fin 100000 := ⟨4000 * t.val + r.val, by have := t_lt t; omega⟩

/-! ## The blocks the body loads -/

/-- Row `r`, column `f` of a feature window's block at point `t` is row `4000 t + r` of its array. The four feature
    windows have the same block shape and index map; one statement per window, the array named. -/
theorem iblk0_apply (c : Dev nD) (t : Fin cfg0.N) (r : Fin 4000) (f : Fin 128) :
    (iblk m c 0 t : FVec Ideal S4000x128 .f32) (ix2 r f)
      = (V m c main_arg0 : S100000x128.Idx → EReal) (ix2 (rowOf t r) f) := by
  obtain ⟨h0, h1, -⟩ := idx_facts t
  unfold iblk
  rw [View.read_apply, cast_eq]
  refine congrArg (V m c main_arg0) (funext fun a => Fin.ext ?_)
  match a with
  | ⟨0, _⟩ => show win0_0.index t (0 : Fin 2) * 4000 + 1 * r.val = 4000 * t.val + r.val; rw [h0]; omega
  | ⟨1, _⟩ => show win0_0.index t (1 : Fin 2) * 128 + 1 * f.val = f.val; rw [h1]; omega

theorem iblk1_apply (c : Dev nD) (t : Fin cfg0.N) (r : Fin 4000) (f : Fin 128) :
    (iblk m c 1 t : FVec Ideal S4000x128 .f32) (ix2 r f)
      = (V m c main_v48 : S100000x128.Idx → EReal) (ix2 (rowOf t r) f) := by
  obtain ⟨-, -, h0, h1, -⟩ := idx_facts t
  unfold iblk
  rw [View.read_apply, cast_eq]
  refine congrArg (V m c main_v48) (funext fun a => Fin.ext ?_)
  match a with
  | ⟨0, _⟩ => show win0_1.index t (0 : Fin 2) * 4000 + 1 * r.val = 4000 * t.val + r.val; rw [h0]; omega
  | ⟨1, _⟩ => show win0_1.index t (1 : Fin 2) * 128 + 1 * f.val = f.val; rw [h1]; omega

theorem iblk2_apply (c : Dev nD) (t : Fin cfg0.N) (r : Fin 4000) (f : Fin 128) :
    (iblk m c 2 t : FVec Ideal S4000x128 .f32) (ix2 r f)
      = (V m c main_v61 : S100000x128.Idx → EReal) (ix2 (rowOf t r) f) := by
  obtain ⟨-, -, -, -, h0, h1, -⟩ := idx_facts t
  unfold iblk
  rw [View.read_apply, cast_eq]
  refine congrArg (V m c main_v61) (funext fun a => Fin.ext ?_)
  match a with
  | ⟨0, _⟩ => show win0_2.index t (0 : Fin 2) * 4000 + 1 * r.val = 4000 * t.val + r.val; rw [h0]; omega
  | ⟨1, _⟩ => show win0_2.index t (1 : Fin 2) * 128 + 1 * f.val = f.val; rw [h1]; omega

theorem iblk3_apply (c : Dev nD) (t : Fin cfg0.N) (r : Fin 4000) (f : Fin 128) :
    (iblk m c 3 t : FVec Ideal S4000x128 .f32) (ix2 r f)
      = (V m c main_v74 : S100000x128.Idx → EReal) (ix2 (rowOf t r) f) := by
  obtain ⟨-, -, -, -, -, -, h0, h1, -⟩ := idx_facts t
  unfold iblk
  rw [View.read_apply, cast_eq]
  refine congrArg (V m c main_v74) (funext fun a => Fin.ext ?_)
  match a with
  | ⟨0, _⟩ => show win0_3.index t (0 : Fin 2) * 4000 + 1 * r.val = 4000 * t.val + r.val; rw [h0]; omega
  | ⟨1, _⟩ => show win0_3.index t (1 : Fin 2) * 128 + 1 * f.val = f.val; rw [h1]; omega

/-- The weight, the bias row and the [128, 4] columns are staged whole at every point. -/
theorem iblk4_apply (c : Dev nD) (t : Fin cfg0.N) (a : Fin 512) (j : Fin 128) :
    (iblk m c 4 t : FVec Ideal S512x128 .bf16) (ix2 a j) = (V m c main_v75 : S512x128.Idx → EReal) (ix2 a j) := by
  obtain ⟨-, -, -, -, -, -, -, -, h0, h1, -⟩ := idx_facts t
  unfold iblk
  rw [View.read_apply, cast_eq]
  refine congrArg (V m c main_v75) (funext fun b => Fin.ext ?_)
  match b with
  | ⟨0, _⟩ => show win0_4.index t (0 : Fin 2) * 512 + 1 * a.val = a.val; rw [h0]; omega
  | ⟨1, _⟩ => show win0_4.index t (1 : Fin 2) * 128 + 1 * j.val = j.val; rw [h1]; omega

theorem iblk5_apply (c : Dev nD) (t : Fin cfg0.N) (a : Fin 1) (j : Fin 128) :
    (iblk m c 5 t : FVec Ideal S1x128 .f32) (ix2 a j) = (V m c main_v76 : S1x128.Idx → EReal) (ix2 a j) := by
  obtain ⟨-, -, -, -, -, -, -, -, -, -, h0, h1, -⟩ := idx_facts t
  unfold iblk
  rw [View.read_apply, cast_eq]
  refine congrArg (V m c main_v76) (funext fun b => Fin.ext ?_)
  match b with
  | ⟨0, _⟩ => show win0_5.index t (0 : Fin 2) * 1 + 1 * a.val = a.val; rw [h0]; omega
  | ⟨1, _⟩ => show win0_5.index t (1 : Fin 2) * 128 + 1 * j.val = j.val; rw [h1]; omega

theorem iblk6_apply (c : Dev nD) (t : Fin cfg0.N) (j : Fin 128) (k : Fin 4) :
    (iblk m c 6 t : FVec Ideal S128x4 .bf16) (ix2 j k) = (V m c main_v79 : S128x4.Idx → EReal) (ix2 j k) := by
  obtain ⟨-, -, -, -, -, -, -, -, -, -, -, -, h0, h1, -⟩ := idx_facts t
  unfold iblk
  rw [View.read_apply, cast_eq]
  refine congrArg (V m c main_v79) (funext fun b => Fin.ext ?_)
  match b with
  | ⟨0, _⟩ => show win0_6.index t (0 : Fin 2) * 128 + 1 * j.val = j.val; rw [h0]; omega
  | ⟨1, _⟩ => show win0_6.index t (1 : Fin 2) * 4 + 1 * k.val = k.val; rw [h1]; omega

/-! ## What a point writes back -/

/-- The result array as one function of the arrays the region finds. -/
def uOf (c : Dev nD) : S100000x4.Idx → EReal :=
  kernelU (V m c main_arg0) (V m c main_v48) (V m c main_v61) (V m c main_v74) (V m c main_v75) (V m c main_v76) (V m c main_v79)

/-- The result array at node `n`, column `k`. -/
theorem uOf_apply (c : Dev nD) (n : Fin 100000) (k : Fin 4) :
    uOf m c (ix2 n k) = kernelUAt (V m c main_arg0) (V m c main_v48) (V m c main_v61) (V m c main_v74) (V m c main_v75)
      (V m c main_v76) (V m c main_v79) n k := rfl

/-- WHAT POINT `t` WRITES BACK is block `t` of that function. -/
theorem flushed_eq (c : Dev nD) (t : Fin cfg0.N) :
    (dats m 0 c).flushed 7 t = ((cfg0.win 7).blk t).view.read (Elt Ideal) (uOf m c) := by
  show (cfg0.win 7).cut (grid0.coords t) ((dats m 0 c).after 7 t) = _
  rw [after0_7]
  unfold out0_7
  rw [View.canon_unit_zero hz]
  simp only [View.ld_unit_zero (S := S4000x128) hz, View.ld_unit_zero (S := S512x128) hz, View.ld_unit_zero (S := S1x128) hz,
    View.ld_unit_zero (S := S128x4) hz]
  obtain ⟨-, -, -, -, -, -, -, -, -, -, -, -, -, -, h0, h1⟩ := idx_facts t
  funext y
  obtain ⟨r, k, rfl⟩ : ∃ (r : Fin 4000) (k : Fin 4), y = ix2 r k := ⟨y 0, y 1, eq_ix2 y⟩
  have he : ((cfg0.win 7).blk t).view.emb (ix2 r k) = (ix2 (rowOf t r) k : S100000x4.Idx) := by
    funext a; apply Fin.ext
    match a with
    | ⟨0, _⟩ => show win0_7.index t (0 : Fin 2) * 4000 + 1 * r.val = 4000 * t.val + r.val; rw [h0]; omega
    | ⟨1, _⟩ => show win0_7.index t (1 : Fin 2) * 4 + 1 * k.val = k.val; rw [h1]; omega
  show k0_pay1 (iblk m c 0 t) (iblk m c 1 t) (iblk m c 2 t) (iblk m c 3 t) (iblk m c 4 t) (iblk m c 5 t) (iblk m c 6 t) (ix2 r k)
    = uOf m c (((cfg0.win 7).blk t).view.emb (ix2 r k))
  rw [he, uOf_apply]
  refine (Cert.KernelIdeal.Body.pay_apply (iblk m c 0 t) (iblk m c 1 t) (iblk m c 2 t) (iblk m c 3 t) (iblk m c 4 t) (iblk m c 5 t)
    (iblk m c 6 t) r k).trans ?_
  unfold kernelUAt kernelAct dotRow
  simp only [iblk0_apply, iblk1_apply, iblk2_apply, iblk3_apply, iblk4_apply, iblk5_apply, iblk6_apply]

end Cert.KernelIdeal.KValue

end
-- ==== Proof.KernelCover.lean ====
/-
  The 25 blocks of the kernel's result cover its [N, 4] array.

  Row `i` of the result lies in the block of grid point `i / 4000`; every point writes its block back. So after the last
  point the array holds, at every index, the one function of the arrays the region finds that each block is a block of.
-/
import proofs.«143162_j84885733638248_2_alg».proof.Proof.KernelValue

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- An index of the result array is in point `t`'s block iff each coordinate is in the block's range on its axis. -/
theorem mem_blk (t : Fin cfg0.N) (i : S100000x4.Idx) :
    i ∈ ((cfg0.win 7).blk t).view.set ↔ ∀ a : Fin 2, win0_7.index t a * S4000x4.size a ≤ (i a).val ∧ (i a).val < win0_7.index t a * S4000x4.size a + S4000x4.size a := by
  show i ∈ ((View.whole main_v80).slice (win0_7.rect t)).set ↔ _
  rw [View.set_slice_whole, Rect.mem_set_unit]
  exact Iff.rfl

/-- THE ARRAY after the run: the one function, everywhere. -/
theorem final_u (c : Dev nD) : (dats m 0 c).arrAt 7 cfg0.N = uOf m c :=
  (dats m 0 c).arrAt_eq_of_cover 7 (uOf m c) (fun t _ => flushed_eq m c t) fun i => by
    have hi0 : (i 0).val < 100000 := (i 0).isLt
    have hi1 : (i 1).val < 4 := (i 1).isLt
    have hN : cfg0.N = 25 := N_0
    let t : Fin cfg0.N := ⟨(i 0).val / 4000, by omega⟩
    obtain ⟨-, -, -, -, -, -, -, -, -, -, -, -, -, -, h0, h1⟩ := idx_facts t
    refine ⟨t, flush0_7 t, ?_⟩
    rw [mem_blk]
    intro a
    match a with
    | ⟨0, _⟩ =>
      show win0_7.index t (0 : Fin 2) * 4000 ≤ (i 0).val ∧ (i 0).val < win0_7.index t (0 : Fin 2) * 4000 + 4000
      rw [h0]
      show (i 0).val / 4000 * 4000 ≤ (i 0).val ∧ (i 0).val < (i 0).val / 4000 * 4000 + 4000
      omega
    | ⟨1, _⟩ =>
      show win0_7.index t (1 : Fin 2) * 4 ≤ (i 1).val ∧ (i 1).val < win0_7.index t (1 : Fin 2) * 4 + 4
      rw [h1]; omega

end Cert.KernelIdeal.KValue

end
-- ==== Proof.KernelHost.lean ====
/-
  What the kernel's program hands its kernel, and what it does with the kernel's result.

  Before the kernel runs, the host operations compute the edge weights (from the re-stacked edge list), the three hops
  of the input features, the layer-1 weight and the [128, 4] layer-2 columns rounded to bf16, and the bias as a row.
  Each array the kernel's windows stage is read here as the composition of those operations applied to the program's
  arguments; the operations after the kernel are Horner's evaluation over the kernel's four result columns.
-/
import proofs.«143162_j84885733638248_2_alg».proof.Proof.Gen.KernelIdeal.Frame
import proofs.«143162_j84885733638248_2_alg».proof.Proof.Spec
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo
open Cert.Tag

/-- Running a line of operations is running its first k, then the rest, from what the first k leave. -/
theorem after_take_drop {Val : EltTy → Type} (k : Nat) (ops : List (HloOp τ sig Val)) (V : Valuation τ sig Val) :
    StableHlo.after ops V = StableHlo.after (ops.drop k) (StableHlo.after (ops.take k) V) := by
  induction k generalizing ops V with
  | zero => rfl
  | succ k ih =>
    cases ops with
    | nil => rfl
    | cons op ops => exact ih ops (op.result V)

variable (m : (ℓ : Loc nD τ sig) → Buf (Elt Ideal) ℓ)

/-- The program's six arguments on core `c`. -/
abbrev argX (c : Dev nD) : FVec Ideal SN128 .f32 := m ((c : Thread nD τ).loc main_arg0)
abbrev argEi (c : Dev nD) : IVec S2E 32 := m ((c : Thread nD τ).loc main_arg1)
abbrev argW1 (c : Dev nD) : FVec Ideal Cert.Tag.S512x128 .f32 := m ((c : Thread nD τ).loc main_arg2)
abbrev argB1 (c : Dev nD) : FVec Ideal Cert.Tag.S128 .f32 := m ((c : Thread nD τ).loc main_arg3)
abbrev argW2 (c : Dev nD) : FVec Ideal Cert.Tag.S512x1 .f32 := m ((c : Thread nD τ).loc main_arg4)
abbrev argB2 (c : Dev nD) : FVec Ideal Cert.Tag.S1 .f32 := m ((c : Thread nD τ).loc main_arg5)

/-- The edge weights as the kernel's program computes them: from the re-stacked edge list. -/
abbrev nrmK (c : Dev nD) : FVec Ideal SE .f32 := normOf (srcOf (restack (argEi m c))) (dstOf (restack (argEi m c)))

/-! ## The arrays read straight off the arguments -/

set_option maxRecDepth 65536 in
set_option maxHeartbeats 4000000 in
/-- row 0 of the edge list -/
theorem V_src (c : Dev nD) : (V m c main_v1 : SE.Idx → BitVec 32) = srcOf (argEi m c) := by
  dsimp only [Gen.V, Gen.V0]
  simp only [Gen.hostOps0, Gen.hostOps0_1, Gen.hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 65536 in
set_option maxHeartbeats 4000000 in
/-- row 1 of the edge list -/
theorem V_dst (c : Dev nD) : (V m c main_v3 : SE.Idx → BitVec 32) = dstOf (argEi m c) := by
  dsimp only [Gen.V, Gen.V0]
  simp only [Gen.hostOps0, Gen.hostOps0_1, Gen.hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 65536 in
set_option maxHeartbeats 4000000 in
/-- row 0 of the re-stacked edge list -/
theorem V_src' (c : Dev nD) : (V m c main_v8 : SE.Idx → BitVec 32) = srcOf (restack (argEi m c)) := by
  dsimp only [Gen.V, Gen.V0]
  simp only [Gen.hostOps0, Gen.hostOps0_1, Gen.hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 65536 in
set_option maxHeartbeats 4000000 in
/-- row 1 of the re-stacked edge list -/
theorem V_dst' (c : Dev nD) : (V m c main_v10 : SE.Idx → BitVec 32) = dstOf (restack (argEi m c)) := by
  dsimp only [Gen.V, Gen.V0]
  simp only [Gen.hostOps0, Gen.hostOps0_1, Gen.hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 65536 in
set_option maxHeartbeats 4000000 in
/-- the layer-1 weight rounded to bf16 -/
theorem V_w1 (c : Dev nD) : (V m c main_v75 : Cert.Tag.S512x128.Idx → EReal) = w1Bf (argW1 m c) := by
  dsimp only [Gen.V, Gen.V0]
  simp only [Gen.hostOps0, Gen.hostOps0_1, Gen.hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 65536 in
set_option maxHeartbeats 4000000 in
/-- the bias as a row -/
theorem V_b1 (c : Dev nD) : (V m c main_v76 : Cert.Tag.S1x128.Idx → EReal) = b1Row (argB1 m c) := by
  dsimp only [Gen.V, Gen.V0]
  simp only [Gen.hostOps0, Gen.hostOps0_1, Gen.hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 65536 in
set_option maxHeartbeats 4000000 in
/-- the layer-2 weight as four bf16 columns -/
theorem V_w2 (c : Dev nD) : (V m c main_v79 : Cert.Tag.S128x4.Idx → EReal) = w2Cols (argW2 m c) := by
  dsimp only [Gen.V, Gen.V0]
  simp only [Gen.hostOps0, Gen.hostOps0_1, Gen.hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-! ## One stage at a time: each array in terms of the arrays its operations read -/

set_option maxRecDepth 65536 in
set_option maxHeartbeats 4000000 in
/-- the in-degrees from row 1 of the re-stacked edge list -/
theorem deg_stage (c : Dev nD) : (V m c main_v14 : SN.Idx → EReal) = degOf (V m c main_v10) := by
  dsimp only [Gen.V, Gen.V0]
  rw [after_take_drop 11]
  generalize StableHlo.after (List.take 11 (List.flatten [Gen.hostOps0, Gen.hostOps0_1, Gen.hostOps0_2])) (fun b => m (c, b)) = W
  simp only [Gen.hostOps0, Gen.hostOps0_1, Gen.hostOps0_2, List.flatten_cons, List.flatten_nil, List.append_nil, List.cons_append,
    List.nil_append, List.drop_succ_cons, List.drop_zero]
  after_results_simp
  rfl

set_option maxRecDepth 65536 in
set_option maxHeartbeats 4000000 in
/-- the inverse square roots from the in-degrees -/
theorem dinv_stage (c : Dev nD) : (V m c main_v20 : SN.Idx → EReal)
    = select (cmpf (F := Ideal) .ogt (V m c main_v14 : FVec Ideal SN .f32)
          (broadcastInDim SN ![] bc_0_N (constant (F := Ideal) S0 .f32 0x00000000#32)))
        (Host.rsqrt (F := Ideal) (maximumf (F := Ideal) (V m c main_v14 : FVec Ideal SN .f32)
          (broadcastInDim SN ![] bc_0_N (constant (F := Ideal) S0 .f32 0x3F800000#32))))
        (broadcastInDim SN ![] bc_0_N (id (constant (F := Ideal) S0 .f32 0x00000000#32))) := by
  dsimp only [Gen.V, Gen.V0]
  rw [after_take_drop 17]
  generalize StableHlo.after (List.take 17 (List.flatten [Gen.hostOps0, Gen.hostOps0_1, Gen.hostOps0_2])) (fun b => m (c, b)) = W
  simp only [Gen.hostOps0, Gen.hostOps0_1, Gen.hostOps0_2, List.flatten_cons, List.flatten_nil, List.append_nil, List.cons_append,
    List.nil_append, List.drop_succ_cons, List.drop_zero]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  refine (eq_of_heq (cast_heq _ _)).trans ?_
  rfl

set_option maxRecDepth 65536 in
set_option maxHeartbeats 4000000 in
/-- the edge weights from the inverse square roots and the two rows -/
theorem nrm_stage (c : Dev nD) : (V m c main_v35 : SE.Idx → EReal)
    = mulf (F := Ideal) (φ := .f32) (Host.gather (α := EReal) gatherFlat (V m c main_v20) (wrapIdx (V m c main_v8)))
        (Host.gather (α := EReal) gatherFlat (V m c main_v20) (wrapIdx (V m c main_v10))) := by
  dsimp only [Gen.V, Gen.V0]
  rw [after_take_drop 28]
  generalize StableHlo.after (List.take 28 (List.flatten [Gen.hostOps0, Gen.hostOps0_1, Gen.hostOps0_2])) (fun b => m (c, b)) = W
  simp only [Gen.hostOps0, Gen.hostOps0_1, Gen.hostOps0_2, List.flatten_cons, List.flatten_nil, List.append_nil, List.cons_append,
    List.nil_append, List.drop_succ_cons, List.drop_zero]
  after_results_simp
  rfl

set_option maxRecDepth 65536 in
set_option maxHeartbeats 4000000 in
/-- the first hop from the rows, the weights and the features -/
theorem hop1_stage (c : Dev nD) : (V m c main_v48 : SN128.Idx → EReal)
    = hopRows (V m c main_v1) (V m c main_v3) (V m c main_v35) (V m c main_arg0) := by
  dsimp only [Gen.V, Gen.V0]
  rw [after_take_drop 47]
  generalize StableHlo.after (List.take 47 (List.flatten [Gen.hostOps0, Gen.hostOps0_1, Gen.hostOps0_2])) (fun b => m (c, b)) = W
  simp only [Gen.hostOps0, Gen.hostOps0_1, Gen.hostOps0_2, List.flatten_cons, List.flatten_nil, List.append_nil, List.cons_append,
    List.nil_append, List.drop_succ_cons, List.drop_zero]
  after_results_simp
  rfl

set_option maxRecDepth 65536 in
set_option maxHeartbeats 4000000 in
/-- the second hop from the first -/
theorem hop2_stage (c : Dev nD) : (V m c main_v61 : SN128.Idx → EReal)
    = hopRows (V m c main_v1) (V m c main_v3) (V m c main_v35) (V m c main_v48) := by
  dsimp only [Gen.V, Gen.V0]
  rw [after_take_drop 63]
  generalize StableHlo.after (List.take 63 (List.flatten [Gen.hostOps0, Gen.hostOps0_1, Gen.hostOps0_2])) (fun b => m (c, b)) = W
  simp only [Gen.hostOps0, Gen.hostOps0_1, Gen.hostOps0_2, List.flatten_cons, List.flatten_nil, List.append_nil, List.cons_append,
    List.nil_append, List.drop_succ_cons, List.drop_zero]
  after_results_simp
  rfl

set_option maxRecDepth 65536 in
set_option maxHeartbeats 4000000 in
/-- the third hop from the second -/
theorem hop3_stage (c : Dev nD) : (V m c main_v74 : SN128.Idx → EReal)
    = hopRows (V m c main_v1) (V m c main_v3) (V m c main_v35) (V m c main_v61) := by
  dsimp only [Gen.V, Gen.V0]
  rw [after_take_drop 79]
  generalize StableHlo.after (List.take 79 (List.flatten [Gen.hostOps0, Gen.hostOps0_1, Gen.hostOps0_2])) (fun b => m (c, b)) = W
  simp only [Gen.hostOps0, Gen.hostOps0_1, Gen.hostOps0_2, List.flatten_cons, List.flatten_nil, List.append_nil, List.cons_append,
    List.nil_append, List.drop_succ_cons, List.drop_zero]
  after_results_simp
  rfl

/-! ## The arrays the kernel and the tail read, as functions of the arguments -/

/-- the inverse square roots of the clamped in-degrees -/
theorem V_dinv (c : Dev nD) : (V m c main_v20 : SN.Idx → EReal) = dinvOf (dstOf (restack (argEi m c))) := by
  refine (dinv_stage m c).trans ?_
  rw [deg_stage m c, V_dst' m c]
  rfl

/-- the edge weights -/
theorem V_nrm (c : Dev nD) : (V m c main_v35 : SE.Idx → EReal) = nrmK m c := by
  refine (nrm_stage m c).trans ?_
  rw [V_dinv m c, V_src' m c, V_dst' m c]
  rfl

/-- the first hop -/
theorem V_hop1 (c : Dev nD) : (V m c main_v48 : SN128.Idx → EReal)
    = hopRows (srcOf (argEi m c)) (dstOf (argEi m c)) (nrmK m c) (argX m c) := by
  refine (hop1_stage m c).trans ?_
  rw [V_src m c, V_dst m c, V_nrm m c, Gen.V_main_arg0 m c]

/-- the second hop -/
theorem V_hop2 (c : Dev nD) : (V m c main_v61 : SN128.Idx → EReal)
    = hopRows (srcOf (argEi m c)) (dstOf (argEi m c)) (nrmK m c)
        (hopRows (srcOf (argEi m c)) (dstOf (argEi m c)) (nrmK m c) (argX m c)) := by
  refine (hop2_stage m c).trans ?_
  rw [V_src m c, V_dst m c, V_nrm m c, V_hop1 m c]

/-- the third hop -/
theorem V_hop3 (c : Dev nD) : (V m c main_v74 : SN128.Idx → EReal)
    = hopRows (srcOf (argEi m c)) (dstOf (argEi m c)) (nrmK m c)
        (hopRows (srcOf (argEi m c)) (dstOf (argEi m c)) (nrmK m c)
          (hopRows (srcOf (argEi m c)) (dstOf (argEi m c)) (nrmK m c) (argX m c))) := by
  refine (hop3_stage m c).trans ?_
  rw [V_src m c, V_dst m c, V_nrm m c, V_hop2 m c]

/-- the features and the layer-2 bias, as launched -/
theorem V_x (c : Dev nD) : V m c main_arg0 = argX m c := Gen.V_main_arg0 m c
theorem V_b2 (c : Dev nD) : V m c main_arg5 = argB2 m c := Gen.V_main_arg5 m c

/-! ## After the kernel -/

set_option maxRecDepth 65536 in
set_option maxHeartbeats 4000000 in
/-- the host operations after the kernel: Horner's evaluation over the kernel's four result columns, then the bias -/
theorem tail_eq (c : Dev nD) :
    (Pipeline.afterTail₀ cfgs (dats m) 0 (V0 m) [hostOps1] c main_v126 : SN1.Idx → EReal)
      = tailOut (V m c main_v1) (V m c main_v3) (V m c main_v35) ((dats m 0 c).arrAt 7 cfg0.N) (V m c main_arg5) := by
  unfold Pipeline.afterTail₀
  have h80 : Pipeline.withArrays (cfgs 0).spec c (V0 m c) (fun w => (dats m 0 c).arrAt w (cfgs 0).N) (Proc.devRef .tc main_v80)
      = (dats m 0 c).arrAt 7 cfg0.N :=
    Pipeline.withArrays_arr spec0 launch0.win.arr_inj c _ _ 7
  have h1 : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  have h3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  have h35 : Pipeline.withArrays (cfgs 0).spec c (V0 m c) (fun w => (dats m 0 c).arrAt w (cfgs 0).N) (Proc.devRef .tc main_v35)
      = V m c main_v35 :=
    Pipeline.withArrays_of_ne _ c (V0 m c) _ main_v35 (by exact (by decide : ∀ w, Pipeline.arrRef spec0 w ≠ main_v35))
  have h5 : Pipeline.withArrays (cfgs 0).spec c (V0 m c) (fun w => (dats m 0 c).arrAt w (cfgs 0).N) (Proc.devRef .tc main_arg5)
      = V m c main_arg5 :=
    Pipeline.withArrays_of_ne _ c (V0 m c) _ main_arg5 (by exact (by decide : ∀ w, Pipeline.arrRef spec0 w ≠ main_arg5))
  rw [← h80, ← h1, ← h3, ← h35, ← h5]
  generalize Pipeline.withArrays (cfgs 0).spec c (V0 m c) (fun w => (dats m 0 c).arrAt w (cfgs 0).N) = W
  simp only [Gen.hostOps1, List.flatten_cons, List.flatten_nil, List.append_nil, List.cons_append, List.nil_append]
  after_results_simp
  rfl

end Cert.KernelIdeal.HostValue

end
-- ==== Proof.KernelRun.lean ====
/-
  The kernel's program, run: its result as one function of its six arguments.

  The run of the program around its kernel leaves the kernel's [N, 4] array at the clamped layer-1 activation
  contracted with the four [128]-slices of the layer-2 weight, computed from the input features and their three hops;
  the host operations after the kernel then evaluate `u₀ + P(u₁ + P(u₂ + P u₃)) + b₂` on the four columns, `P` one hop
  on a scalar column. Both are read here off the frame run's post and stated with the shared definitions.
-/
import proofs.«143162_j84885733638248_2_alg».proof.Proof.Gen.KernelIdeal.Frame
import proofs.«143162_j84885733638248_2_alg».proof.Proof.KernelCover
import proofs.«143162_j84885733638248_2_alg».proof.Proof.KernelHost
import proofs.«143162_j84885733638248_2_alg».proof.Proof.Spec

set_option maxRecDepth 16384

noncomputable section

namespace Cert.KernelIdeal.KRun

open Cert.KernelIdeal Cert.KernelIdeal.Gen Idealize.ShloMosaic Idealize.ShloMosaic.TcCoe Idealize.ShloMosaic.ValueIdx
open Idealize.SL.Sem
open Cert.KernelIdeal.KValue Cert.KernelIdeal.HostValue
open Cert.Tag

variable (m : (ℓ : Loc nD τ sig) → Buf (Elt Ideal) ℓ) (ρ : Dev nD → PrngReg)

/-- The kernel's result array in terms of the program's arguments: the arrays the region finds are the input features,
    their three hops, and the re-laid weights and bias. -/
theorem uOf_eq (c : Dev nD) :
    uOf m c = kernelU (argX m c)
      (hopRows (srcOf (argEi m c)) (dstOf (argEi m c)) (nrmK m c) (argX m c))
      (hopRows (srcOf (argEi m c)) (dstOf (argEi m c)) (nrmK m c)
        (hopRows (srcOf (argEi m c)) (dstOf (argEi m c)) (nrmK m c) (argX m c)))
      (hopRows (srcOf (argEi m c)) (dstOf (argEi m c)) (nrmK m c)
        (hopRows (srcOf (argEi m c)) (dstOf (argEi m c)) (nrmK m c)
          (hopRows (srcOf (argEi m c)) (dstOf (argEi m c)) (nrmK m c) (argX m c))))
      (w1Bf (argW1 m c)) (b1Row (argB1 m c)) (w2Cols (argW2 m c)) := by
  unfold uOf
  rw [V_hop1 m c, V_hop2 m c, V_hop3 m c, V_w1 m c, V_b1 m c, V_w2 m c, Gen.V_main_arg0 m c]

/-- The program's result buffer after the run: the shared `kernelOut` of the six arguments. -/
theorem result_eq (c : Dev nD) :
    (Pipeline.afterTail₀ cfgs (dats m) 0 (V0 m) [hostOps1] c main_v126 : SN1.Idx → EReal)
      = kernelOut (argX m c) (argEi m c) (argW1 m c) (argB1 m c) (argW2 m c) (argB2 m c) := by
  rw [tail_eq m c, V_src m c, V_dst m c, V_nrm m c, final_u m c, uOf_eq m c, Gen.V_main_arg5 m c]
  rfl

/-- THE RUN: every weakly fair execution terminates with the result buffer at `kernelOut` of the arguments and the
    arguments unchanged. -/
theorem run : θ_run defs (onTc (τ := τ) (main (F := Ideal))) ⟨m, fun _ => 0, ρ⟩ (fun r => ∀ c : Dev nD,
      r.2.mem ((c.tc : Thread nD τ).loc main_v126)
        = kernelOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v126 (Pipeline.mem_restRefs_of main_v126 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KRun

end
-- ==== Proof.RefValueA.lean ====
/-
  The reference's host operations, read layer by layer: the edge list, the degrees and the edge weights.

  Each buffer the reference writes holds, after the program, its operation applied to the contents of the buffers
  the operation reads. Grouped by stage: the two rows of the edge list (sliced twice: once for the hops, once for
  the weights), the in-degree count, `where(deg > 0, rsqrt(max(deg, 1)), 0)`, and the product of its entries at the
  two ends of every edge. The six arguments keep their launch contents.
-/
import proofs.«143162_j84885733638248_2_alg».proof.Proof.RefOps
import proofs.«143162_j84885733638248_2_alg».proof.Proof.Spec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Tag

variable (m : (ℓ : Loc nD τ sig) → Buf (Elt Ideal) ℓ)

set_option quotPrecheck false in
/-- The contents of buffer `b` on core `c` after the reference's 153 operations, from the launch contents `m`. -/
local notation "VR(" m ", " c ", " b ")" =>
  StableHlo.after (Ops.ops (F := Ideal)) (StableHlo.launchContents m c) (Proc.devRef .tc b)

/-! ## A typed reference's transport is the identity at a literal reference -/

theorem toBuf_main_cst_3 (v : (⟨S_, .f32⟩ : BufTy).Contents (Elt Ideal)) :
    (TRef.of (T := ⟨S_, .f32⟩) main_cst_3).toBuf (Val := Elt Ideal) v = v := rfl
theorem ofBuf_main_cst_3 (v : (main_cst_3 : Ref sig .tc).ty.Contents (Elt Ideal)) :
    (TRef.of (T := ⟨S_, .f32⟩) main_cst_3).ofBuf (Val := Elt Ideal) v = v := rfl

theorem toBuf_main_call0_v0 (v : (⟨S_, .f32⟩ : BufTy).Contents (Elt Ideal)) :
    (TRef.of (T := ⟨S_, .f32⟩) main_call0_v0).toBuf (Val := Elt Ideal) v = v := rfl
theorem ofBuf_main_call0_v0 (v : (main_call0_v0 : Ref sig .tc).ty.Contents (Elt Ideal)) :
    (TRef.of (T := ⟨S_, .f32⟩) main_call0_v0).ofBuf (Val := Elt Ideal) v = v := rfl

theorem toBuf_main_call0_v1 (v : (⟨S100000, .f32⟩ : BufTy).Contents (Elt Ideal)) :
    (TRef.of (T := ⟨S100000, .f32⟩) main_call0_v1).toBuf (Val := Elt Ideal) v = v := rfl
theorem ofBuf_main_call0_v1 (v : (main_call0_v1 : Ref sig .tc).ty.Contents (Elt Ideal)) :
    (TRef.of (T := ⟨S100000, .f32⟩) main_call0_v1).ofBuf (Val := Elt Ideal) v = v := rfl

theorem toBuf_main_v13 (v : (⟨S100000, .i1⟩ : BufTy).Contents (Elt Ideal)) :
    (TRef.of (T := ⟨S100000, .i1⟩) main_v13).toBuf (Val := Elt Ideal) v = v := rfl
theorem ofBuf_main_v13 (v : (main_v13 : Ref sig .tc).ty.Contents (Elt Ideal)) :
    (TRef.of (T := ⟨S100000, .i1⟩) main_v13).ofBuf (Val := Elt Ideal) v = v := rfl

theorem toBuf_main_v16 (v : (⟨S100000, .f32⟩ : BufTy).Contents (Elt Ideal)) :
    (TRef.of (T := ⟨S100000, .f32⟩) main_v16).toBuf (Val := Elt Ideal) v = v := rfl
theorem ofBuf_main_v16 (v : (main_v16 : Ref sig .tc).ty.Contents (Elt Ideal)) :
    (TRef.of (T := ⟨S100000, .f32⟩) main_v16).ofBuf (Val := Elt Ideal) v = v := rfl

theorem toBuf_main_v17 (v : (⟨S100000, .f32⟩ : BufTy).Contents (Elt Ideal)) :
    (TRef.of (T := ⟨S100000, .f32⟩) main_v17).toBuf (Val := Elt Ideal) v = v := rfl
theorem ofBuf_main_v17 (v : (main_v17 : Ref sig .tc).ty.Contents (Elt Ideal)) :
    (TRef.of (T := ⟨S100000, .f32⟩) main_v17).ofBuf (Val := Elt Ideal) v = v := rfl

/-! ## The arguments keep their launch contents -/

set_option maxRecDepth 65536 in
set_option maxHeartbeats 4000000 in
theorem V_arg0 (c : Dev nD) : VR(m, c, main_arg0) = m ((c.tc : Thread nD τ).loc main_arg0) := by
  after_results_simp <;> rfl

set_option maxRecDepth 65536 in
set_option maxHeartbeats 4000000 in
theorem V_arg1 (c : Dev nD) : VR(m, c, main_arg1) = m ((c.tc : Thread nD τ).loc main_arg1) := by
  after_results_simp <;> rfl

set_option maxRecDepth 65536 in
set_option maxHeartbeats 4000000 in
theorem V_arg2 (c : Dev nD) : VR(m, c, main_arg2) = m ((c.tc : Thread nD τ).loc main_arg2) := by
  after_results_simp <;> rfl

set_option maxRecDepth 65536 in
set_option maxHeartbeats 4000000 in
theorem V_arg3 (c : Dev nD) : VR(m, c, main_arg3) = m ((c.tc : Thread nD τ).loc main_arg3) := by
  after_results_simp <;> rfl

set_option maxRecDepth 65536 in
set_option maxHeartbeats 4000000 in
theorem V_arg4 (c : Dev nD) : VR(m, c, main_arg4) = m ((c.tc : Thread nD τ).loc main_arg4) := by
  after_results_simp <;> rfl

set_option maxRecDepth 65536 in
set_option maxHeartbeats 4000000 in
theorem V_arg5 (c : Dev nD) : VR(m, c, main_arg5) = m ((c.tc : Thread nD τ).loc main_arg5) := by
  after_results_simp <;> rfl

/-! ## The edge list's rows -/

set_option maxRecDepth 65536 in
set_option maxHeartbeats 4000000 in
theorem V_src (c : Dev nD) : (VR(m, c, main_v1) : IVec SE 32) = srcOf (VR(m, c, main_arg1)) := by
  after_results_simp <;> rfl

set_option maxRecDepth 65536 in
set_option maxHeartbeats 4000000 in
theorem V_dst (c : Dev nD) : (VR(m, c, main_v3) : IVec SE 32) = dstOf (VR(m, c, main_arg1)) := by
  after_results_simp <;> rfl

set_option maxRecDepth 65536 in
set_option maxHeartbeats 4000000 in
theorem V_src2 (c : Dev nD) : (VR(m, c, main_v5) : IVec SE 32) = srcOf (VR(m, c, main_arg1)) := by
  after_results_simp <;> rfl

set_option maxRecDepth 65536 in
set_option maxHeartbeats 4000000 in
theorem V_dst2 (c : Dev nD) : (VR(m, c, main_v7) : IVec SE 32) = dstOf (VR(m, c, main_arg1)) := by
  after_results_simp <;> rfl

/-! ## Degrees and edge weights -/

/-- `where(deg > 0, rsqrt(max(deg, 1)), 0)` from the degrees. -/
def dinvFrom (deg : FVec Ideal SN .f32) : FVec Ideal SN .f32 :=
  select (cmpf (F := Ideal) .ogt deg (broadcastInDim SN ![] bc_0_N (constant (F := Ideal) S0 .f32 0x00000000#32)))
    (Host.rsqrt (F := Ideal) (maximumf (F := Ideal) deg (broadcastInDim SN ![] bc_0_N (constant (F := Ideal) S0 .f32 0x3F800000#32))))
    (broadcastInDim SN ![] bc_0_N (id (constant (F := Ideal) S0 .f32 0x00000000#32)))

/-- The edge weights from the inverse square roots and the two wrapped index columns. -/
def normFrom (dinv : FVec Ideal SN .f32) (isrc idst : IVec SE1 32) : FVec Ideal SE .f32 :=
  mulf (F := Ideal) (Host.gather gatherFlat dinv isrc) (Host.gather gatherFlat dinv idst)

theorem dinvOf_eq (dst : IVec SE 32) : dinvOf dst = dinvFrom (degOf dst) := rfl
theorem normOf_eq (src dst : IVec SE 32) : normOf src dst = normFrom (dinvOf dst) (wrapIdx src) (wrapIdx dst) := rfl

set_option maxRecDepth 65536 in
set_option maxHeartbeats 4000000 in
theorem V_deg (c : Dev nD) : (VR(m, c, main_v11) : FVec Ideal SN .f32) = degOf ((VR(m, c, main_v7) : IVec SE 32)) := by
  after_results_simp <;> rfl

set_option maxRecDepth 65536 in
set_option maxHeartbeats 4000000 in
theorem V_v13 (c : Dev nD) : (VR(m, c, main_v13) : IVec SN 1) = cmpf (F := Ideal) .ogt ((VR(m, c, main_v11) : FVec Ideal SN .f32)) (broadcastInDim SN ![] bc_0_N (constant (F := Ideal) S0 .f32 0x00000000#32)) := by
  after_results_simp

set_option maxRecDepth 65536 in
set_option maxHeartbeats 4000000 in
theorem V_v16 (c : Dev nD) : (VR(m, c, main_v16) : FVec Ideal SN .f32) = Host.rsqrt (F := Ideal) (maximumf (F := Ideal) ((VR(m, c, main_v11) : FVec Ideal SN .f32)) (broadcastInDim SN ![] bc_0_N (constant (F := Ideal) S0 .f32 0x3F800000#32))) := by
  after_results_simp

set_option maxRecDepth 65536 in
set_option maxHeartbeats 4000000 in
theorem V_call0 (c : Dev nD) : (VR(m, c, main_call0_v1) : FVec Ideal SN .f32) = broadcastInDim SN ![] bc_0_N (id (constant (F := Ideal) S0 .f32 0x00000000#32)) := by
  after_results_simp <;> rfl

set_option maxRecDepth 65536 in
set_option maxHeartbeats 4000000 in
theorem V_v17_raw (c : Dev nD) : (VR(m, c, main_v17) : FVec Ideal SN .f32)
      = (TRef.of (T := ⟨S100000, .f32⟩) main_v17).toBuf (Val := Elt Ideal)
          (select ((TRef.of (T := ⟨S100000, .i1⟩) main_v13).ofBuf (Val := Elt Ideal) (VR(m, c, main_v13)))
            ((TRef.of (T := ⟨S100000, .f32⟩) main_v16).ofBuf (Val := Elt Ideal) (VR(m, c, main_v16)))
            ((TRef.of (T := ⟨S100000, .f32⟩) main_call0_v1).ofBuf (Val := Elt Ideal) (VR(m, c, main_call0_v1)))) := by
  after_results_simp

/-- `where(deg > 0, rsqrt(max(deg, 1)), 0)` of the degree buffer. -/
theorem V_dinv_ops (c : Dev nD) : (VR(m, c, main_v17) : FVec Ideal SN .f32) = dinvFrom ((VR(m, c, main_v11) : FVec Ideal SN .f32)) := by
  rw [V_v17_raw m c, V_v13 m c, V_v16 m c, V_call0 m c]
  generalize VR(m, c, main_v11) = X
  refine (eq_of_heq (cast_heq _ _)).trans ?_
  unfold dinvFrom
  rfl

set_option maxRecDepth 65536 in
set_option maxHeartbeats 4000000 in
theorem V_v23 (c : Dev nD) : (VR(m, c, main_v23) : IVec SE1 32) = wrapIdx ((VR(m, c, main_v5) : IVec SE 32)) := by
  after_results_simp <;> rfl

set_option maxRecDepth 65536 in
set_option maxHeartbeats 4000000 in
theorem V_v30 (c : Dev nD) : (VR(m, c, main_v30) : IVec SE1 32) = wrapIdx ((VR(m, c, main_v7) : IVec SE 32)) := by
  after_results_simp <;> rfl

set_option maxRecDepth 65536 in
set_option maxHeartbeats 4000000 in
theorem V_v24 (c : Dev nD) : (VR(m, c, main_v24) : FVec Ideal SE .f32) = Host.gather (α := Ideal .f32) gather_S100000_S1600000x1_S1600000_n_0_n_n_0_1_1 ((VR(m, c, main_v17) : FVec Ideal SN .f32)) (VR(m, c, main_v23) : IVec SE1 32) := by
  after_results_simp

set_option maxRecDepth 65536 in
set_option maxHeartbeats 4000000 in
theorem V_v31 (c : Dev nD) : (VR(m, c, main_v31) : FVec Ideal SE .f32) = Host.gather (α := Ideal .f32) gather_S100000_S1600000x1_S1600000_n_0_n_n_0_1_1 ((VR(m, c, main_v17) : FVec Ideal SN .f32)) (VR(m, c, main_v30) : IVec SE1 32) := by
  after_results_simp

set_option maxRecDepth 65536 in
set_option maxHeartbeats 4000000 in
theorem V_v32 (c : Dev nD) : (VR(m, c, main_v32) : FVec Ideal SE .f32) = mulf (F := Ideal) (φ := .f32) ((VR(m, c, main_v24) : FVec Ideal SE .f32)) ((VR(m, c, main_v31) : FVec Ideal SE .f32)) := by
  after_results_simp

/-- The edge weights from the inverse-square-root buffer and the two index rows. -/
theorem V_nrm_ops (c : Dev nD) : (VR(m, c, main_v32) : FVec Ideal SE .f32)
    = normFrom ((VR(m, c, main_v17) : FVec Ideal SN .f32)) (wrapIdx ((VR(m, c, main_v5) : IVec SE 32))) (wrapIdx ((VR(m, c, main_v7) : IVec SE 32))) := by
  rw [V_v32 m c, V_v24 m c, V_v31 m c, V_v23 m c, V_v30 m c]
  generalize VR(m, c, main_v17) = D
  generalize VR(m, c, main_v5) = S
  generalize VR(m, c, main_v7) = T
  rfl

/-- `where(deg > 0, rsqrt(max(deg, 1)), 0)` of the destination row. -/
theorem V_dinv (c : Dev nD) : (VR(m, c, main_v17) : FVec Ideal SN .f32) = dinvOf (dstOf (VR(m, c, main_arg1))) := by
  rw [V_dinv_ops m c, V_deg m c, V_dst2 m c, dinvOf_eq]

/-- The edge weights. -/
theorem V_nrm (c : Dev nD) : (VR(m, c, main_v32) : FVec Ideal SE .f32) = normOf (srcOf (VR(m, c, main_arg1))) (dstOf (VR(m, c, main_arg1))) := by
  rw [V_nrm_ops m c, V_dinv m c, V_src2 m c, V_dst2 m c, normOf_eq]

end Cert.ReferenceIdeal.RefValue

end
-- ==== Proof.RefValueB.lean ====
/-
  The reference's host operations, read layer by layer: layer 1.

  Three hops of the input features, each the gather of the previous array's rows at the edges' sources, scaled by the
  edge weights and added into the edges' destination rows; then the contraction of the four arrays' concatenation
  with the first weight, the bias and the clamp at zero.
-/
import proofs.«143162_j84885733638248_2_alg».proof.Proof.RefOps
import proofs.«143162_j84885733638248_2_alg».proof.Proof.Spec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Tag

variable (m : (ℓ : Loc nD τ sig) → Buf (Elt Ideal) ℓ)

set_option quotPrecheck false in
/-- The contents of buffer `b` on core `c` after the reference's 153 operations, from the launch contents `m`. -/
local notation "VR(" m ", " c ", " b ")" =>
  StableHlo.after (Ops.ops (F := Ideal)) (StableHlo.launchContents m c) (Proc.devRef .tc b)

/-! ## A typed reference's transport is the identity at a literal reference -/

theorem toBuf_main_call1_cst (v : (⟨S_, .f32⟩ : BufTy).Contents (Elt Ideal)) :
    (TRef.of (T := ⟨S_, .f32⟩) main_call1_cst).toBuf (Val := Elt Ideal) v = v := rfl
theorem ofBuf_main_call1_cst (v : (main_call1_cst : Ref sig .tc).ty.Contents (Elt Ideal)) :
    (TRef.of (T := ⟨S_, .f32⟩) main_call1_cst).ofBuf (Val := Elt Ideal) v = v := rfl

theorem toBuf_main_call1_v0 (v : (⟨S100000x128, .f32⟩ : BufTy).Contents (Elt Ideal)) :
    (TRef.of (T := ⟨S100000x128, .f32⟩) main_call1_v0).toBuf (Val := Elt Ideal) v = v := rfl
theorem ofBuf_main_call1_v0 (v : (main_call1_v0 : Ref sig .tc).ty.Contents (Elt Ideal)) :
    (TRef.of (T := ⟨S100000x128, .f32⟩) main_call1_v0).ofBuf (Val := Elt Ideal) v = v := rfl

theorem toBuf_main_v76 (v : (⟨S100000x128, .f32⟩ : BufTy).Contents (Elt Ideal)) :
    (TRef.of (T := ⟨S100000x128, .f32⟩) main_v76).toBuf (Val := Elt Ideal) v = v := rfl
theorem ofBuf_main_v76 (v : (main_v76 : Ref sig .tc).ty.Contents (Elt Ideal)) :
    (TRef.of (T := ⟨S100000x128, .f32⟩) main_v76).ofBuf (Val := Elt Ideal) v = v := rfl

theorem toBuf_main_v77 (v : (⟨S100000x128, .f32⟩ : BufTy).Contents (Elt Ideal)) :
    (TRef.of (T := ⟨S100000x128, .f32⟩) main_v77).toBuf (Val := Elt Ideal) v = v := rfl
theorem ofBuf_main_v77 (v : (main_v77 : Ref sig .tc).ty.Contents (Elt Ideal)) :
    (TRef.of (T := ⟨S100000x128, .f32⟩) main_v77).ofBuf (Val := Elt Ideal) v = v := rfl

/-! ## Reading one operation of the line -/

/-- The fold over two lists in a row is the fold over the second from the fold over the first. -/
private theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- A buffer that no later operation writes holds, after the line, what the operation at the cut leaves in it. -/
private theorem after_at (ops pre post : List (HloOp τ sig (Elt Ideal))) (op : HloOp τ sig (Elt Ideal))
    (h : ops = pre ++ op :: post) (V : Valuation τ sig (Elt Ideal)) (y : DevRef τ sig)
    (hpost : ∀ o ∈ post, y ∉ o.writes) : after ops V y = op.result (after pre V) y := by
  subst h
  rw [after_append, after_cons, after_of_forall_not_mem post _ hpost]

/-- A buffer that no operation past the cut writes holds, after the line, what it holds at the cut. -/
private theorem after_pre (ops pre post : List (HloOp τ sig (Elt Ideal))) (h : ops = pre ++ post)
    (V : Valuation τ sig (Elt Ideal)) (a : DevRef τ sig) (hpost : ∀ o ∈ post, a ∉ o.writes) :
    after pre V a = after ops V a := by
  subst h
  rw [after_append, after_of_forall_not_mem post _ hpost]

/-! ## Layer 1 -/

/-- Layer 1 from the four hop arrays: `relu(concat(h0, h1, h2, h3) · W1 + b1)`. -/
def layer1Of (h0 h1 h2 h3 : FVec Ideal SN128 .f32) (W1 : FVec Ideal Cert.Tag.S512x128 .f32)
    (b1 : FVec Ideal Cert.Tag.S128 .f32) : FVec Ideal SN128 .f32 :=
  maximumf (F := Ideal)
    (addf (F := Ideal)
      (Host.dotGeneral (F := Ideal) dotW1 none
        (concatenate SN512 1 [⟨SN128, h0⟩, ⟨SN128, h1⟩, ⟨SN128, h2⟩, ⟨SN128, h3⟩] cat_hops) W1)
      (broadcastInDim SN128 ![0, 1] bc_1x128_N128 (broadcastInDim Cert.Tag.S1x128 ![1] bc_128_1x128 b1)))
    (broadcastInDim SN128 ![] bc_0_N128 (constant (F := Ideal) S0 .f32 0x00000000#32))

/-- The reference's layer 1 is `layer1Of` of the features and their three hops. -/
theorem layer1Ref_eq (src dst : IVec SE 32) (nrm : FVec Ideal SE .f32) (x : FVec Ideal SN128 .f32)
    (W1 : FVec Ideal Cert.Tag.S512x128 .f32) (b1 : FVec Ideal Cert.Tag.S128 .f32) :
    layer1Ref src dst nrm x W1 b1
      = layer1Of x (hopRows src dst nrm x) (hopRows src dst nrm (hopRows src dst nrm x))
          (hopRows src dst nrm (hopRows src dst nrm (hopRows src dst nrm x))) W1 b1 := rfl

set_option maxRecDepth 65536 in
set_option maxHeartbeats 4000000 in
theorem V_hop1 (c : Dev nD) : (VR(m, c, main_v45) : FVec Ideal SN128 .f32)
      = hopRows ((VR(m, c, main_v1) : IVec SE 32)) ((VR(m, c, main_v3) : IVec SE 32)) ((VR(m, c, main_v32) : FVec Ideal SE .f32)) ((VR(m, c, main_arg0) : FVec Ideal SN128 .f32)) := by
  after_results_simp <;> rfl

set_option maxRecDepth 65536 in
set_option maxHeartbeats 4000000 in
theorem V_hop2 (c : Dev nD) : (VR(m, c, main_v58) : FVec Ideal SN128 .f32)
      = hopRows ((VR(m, c, main_v1) : IVec SE 32)) ((VR(m, c, main_v3) : IVec SE 32)) ((VR(m, c, main_v32) : FVec Ideal SE .f32)) ((VR(m, c, main_v45) : FVec Ideal SN128 .f32)) := by
  after_results_simp <;> rfl

set_option maxRecDepth 65536 in
set_option maxHeartbeats 4000000 in
theorem V_hop3 (c : Dev nD) : (VR(m, c, main_v71) : FVec Ideal SN128 .f32)
      = hopRows ((VR(m, c, main_v1) : IVec SE 32)) ((VR(m, c, main_v3) : IVec SE 32)) ((VR(m, c, main_v32) : FVec Ideal SE .f32)) ((VR(m, c, main_v58) : FVec Ideal SN128 .f32)) := by
  after_results_simp <;> rfl

set_option maxRecDepth 65536 in
set_option maxHeartbeats 4000000 in
/-- The concatenation's buffer holds the concatenation of its four operands' buffers. -/
theorem V_cat1 (c : Dev nD) : (VR(m, c, main_v72) : FVec Ideal SN512 .f32)
      = concatenate SN512 1 [⟨SN128, (VR(m, c, main_arg0) : FVec Ideal SN128 .f32)⟩, ⟨SN128, (VR(m, c, main_v45) : FVec Ideal SN128 .f32)⟩,
          ⟨SN128, (VR(m, c, main_v58) : FVec Ideal SN128 .f32)⟩, ⟨SN128, (VR(m, c, main_v71) : FVec Ideal SN128 .f32)⟩] cat_hops := by
  have hsplit : (Ops.ops (F := Ideal)) = (Ops.ops (F := Ideal)).take 92 ++ (Ops.ops (F := Ideal)).drop 92 :=
    (List.take_append_drop 92 _).symm
  have hkeep : ∀ a : Ref sig .tc, (∀ o ∈ (Ops.ops (F := Ideal)).drop 92, (Proc.devRef .tc a : DevRef τ sig) ∉ o.writes) →
      after ((Ops.ops (F := Ideal)).take 92) (launchContents m c) (Proc.devRef .tc a) = VR(m, c, a) :=
    fun a ha => after_pre _ _ _ hsplit _ _ ha
  have e0 := hkeep main_arg0 (by decide)
  have e1 := hkeep main_v45 (by decide)
  have e2 := hkeep main_v58 (by decide)
  have e3 := hkeep main_v71 (by decide)
  refine (after_at (Ops.ops (F := Ideal)) ((Ops.ops (F := Ideal)).take 92) ((Ops.ops (F := Ideal)).drop 93)
    (nary ![main_arg0, main_v45, main_v58, main_v71] main_v72 (fun u => concatenate S100000x512 1 [⟨S100000x128, u 0⟩, ⟨S100000x128, u 1⟩, ⟨S100000x128, u 2⟩, ⟨S100000x128, u 3⟩] concatenates_S100000x128_S100000x128_S100000x128_S100000x128_S100000x512_d1) : HloOp τ sig (Elt Ideal))
    rfl (launchContents m c) (Proc.devRef .tc main_v72) (by decide)).trans ?_
  refine (nary_result (τ := τ) _ _ _ _ _ _).trans ?_
  rw [← e0, ← e1, ← e2, ← e3]
  rfl

set_option maxRecDepth 65536 in
set_option maxHeartbeats 4000000 in
theorem V_v73 (c : Dev nD) : (VR(m, c, main_v73) : FVec Ideal SN128 .f32) = Host.dotGeneral (F := Ideal) (φ₁ := .f32) (φ₂ := .f32) dot_S100000x512_S512x128_S100000x128_1_0_0_1_n_n none
        ((VR(m, c, main_v72) : FVec Ideal SN512 .f32)) ((VR(m, c, main_arg2) : FVec Ideal Cert.Tag.S512x128 .f32)) := by
  after_results_simp

set_option maxRecDepth 65536 in
set_option maxHeartbeats 4000000 in
theorem V_v75 (c : Dev nD) : (VR(m, c, main_v75) : FVec Ideal SN128 .f32) = broadcastInDim SN128 ![0, 1] bc_1x128_N128
        (broadcastInDim Cert.Tag.S1x128 ![1] bc_128_1x128 ((VR(m, c, main_arg3) : FVec Ideal Cert.Tag.S128 .f32))) := by
  after_results_simp

set_option maxRecDepth 65536 in
set_option maxHeartbeats 4000000 in
theorem V_v76 (c : Dev nD) : (VR(m, c, main_v76) : FVec Ideal SN128 .f32) = addf (F := Ideal) (φ := .f32) ((VR(m, c, main_v73) : FVec Ideal SN128 .f32)) ((VR(m, c, main_v75) : FVec Ideal SN128 .f32)) := by
  after_results_simp

set_option maxRecDepth 65536 in
set_option maxHeartbeats 4000000 in
theorem V_call1 (c : Dev nD) : (VR(m, c, main_call1_v0) : FVec Ideal SN128 .f32) = (broadcastInDim SN128 ![] bc_0_N128 (constant (F := Ideal) S0 .f32 0x00000000#32)) := by
  after_results_simp <;> rfl

set_option maxRecDepth 65536 in
set_option maxHeartbeats 4000000 in
theorem V_v77_raw (c : Dev nD) : (VR(m, c, main_v77) : FVec Ideal SN128 .f32)
      = (TRef.of (T := ⟨S100000x128, .f32⟩) main_v77).toBuf (Val := Elt Ideal)
          (maximumf (F := Ideal) (φ := .f32) ((TRef.of (T := ⟨S100000x128, .f32⟩) main_v76).ofBuf (Val := Elt Ideal) (VR(m, c, main_v76)))
            ((TRef.of (T := ⟨S100000x128, .f32⟩) main_call1_v0).ofBuf (Val := Elt Ideal) (VR(m, c, main_call1_v0)))) := by
  after_results_simp

/-- Layer 1 from the buffers of the features, their three hops, the weight and the bias. -/
theorem V_l1_ops (c : Dev nD) : (VR(m, c, main_v77) : FVec Ideal SN128 .f32)
      = layer1Of ((VR(m, c, main_arg0) : FVec Ideal SN128 .f32)) ((VR(m, c, main_v45) : FVec Ideal SN128 .f32)) ((VR(m, c, main_v58) : FVec Ideal SN128 .f32)) ((VR(m, c, main_v71) : FVec Ideal SN128 .f32))
          ((VR(m, c, main_arg2) : FVec Ideal Cert.Tag.S512x128 .f32)) ((VR(m, c, main_arg3) : FVec Ideal Cert.Tag.S128 .f32)) := by
  rw [V_v77_raw m c, V_v76 m c, V_v73 m c, V_v75 m c, V_call1 m c, V_cat1 m c]
  generalize VR(m, c, main_arg0) = X0
  generalize VR(m, c, main_v45) = X1
  generalize VR(m, c, main_v58) = X2
  generalize VR(m, c, main_v71) = X3
  generalize VR(m, c, main_arg2) = W
  generalize VR(m, c, main_arg3) = B
  rfl

end Cert.ReferenceIdeal.RefValue

end
-- ==== Proof.RefValueC.lean ====
/-
  The reference's host operations, read layer by layer: layer 2.

  Three hops of the layer-1 activation; then the contraction of the four arrays' concatenation with the second
  weight, and the bias.
-/
import proofs.«143162_j84885733638248_2_alg».proof.Proof.RefOps
import proofs.«143162_j84885733638248_2_alg».proof.Proof.Spec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Tag

variable (m : (ℓ : Loc nD τ sig) → Buf (Elt Ideal) ℓ)

set_option quotPrecheck false in
/-- The contents of buffer `b` on core `c` after the reference's 153 operations, from the launch contents `m`. -/
local notation "VR(" m ", " c ", " b ")" =>
  StableHlo.after (Ops.ops (F := Ideal)) (StableHlo.launchContents m c) (Proc.devRef .tc b)

/-! ## Reading one operation of the line -/

/-- The fold over two lists in a row is the fold over the second from the fold over the first. -/
private theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- A buffer that no later operation writes holds, after the line, what the operation at the cut leaves in it. -/
private theorem after_at (ops pre post : List (HloOp τ sig (Elt Ideal))) (op : HloOp τ sig (Elt Ideal))
    (h : ops = pre ++ op :: post) (V : Valuation τ sig (Elt Ideal)) (y : DevRef τ sig)
    (hpost : ∀ o ∈ post, y ∉ o.writes) : after ops V y = op.result (after pre V) y := by
  subst h
  rw [after_append, after_cons, after_of_forall_not_mem post _ hpost]

/-- A buffer that no operation past the cut writes holds, after the line, what it holds at the cut. -/
private theorem after_pre (ops pre post : List (HloOp τ sig (Elt Ideal))) (h : ops = pre ++ post)
    (V : Valuation τ sig (Elt Ideal)) (a : DevRef τ sig) (hpost : ∀ o ∈ post, a ∉ o.writes) :
    after pre V a = after ops V a := by
  subst h
  rw [after_append, after_of_forall_not_mem post _ hpost]

/-! ## Layer 2 -/

/-- Layer 2 from the four hop arrays of the activation: `concat(g0, g1, g2, g3) · W2 + b2`. -/
def layer2Of (g0 g1 g2 g3 : FVec Ideal SN128 .f32) (W2 : FVec Ideal Cert.Tag.S512x1 .f32)
    (b2 : FVec Ideal Cert.Tag.S1 .f32) : FVec Ideal SN1 .f32 :=
  addf (F := Ideal)
    (Host.dotGeneral (F := Ideal) dotW2 none
      (concatenate SN512 1 [⟨SN128, g0⟩, ⟨SN128, g1⟩, ⟨SN128, g2⟩, ⟨SN128, g3⟩] cat_hops) W2)
    (broadcastInDim SN1 ![0, 1] bc_1x1_N1 (broadcastInDim Cert.Tag.S1x1 ![1] bc_1_1x1 b2))

/-- The reference's layer 2 is `layer2Of` of the activation and its three hops. -/
theorem layer2Ref_eq (src dst : IVec SE 32) (nrm : FVec Ideal SE .f32) (g : FVec Ideal SN128 .f32)
    (W2 : FVec Ideal Cert.Tag.S512x1 .f32) (b2 : FVec Ideal Cert.Tag.S1 .f32) :
    layer2Ref src dst nrm g W2 b2
      = layer2Of g (hopRows src dst nrm g) (hopRows src dst nrm (hopRows src dst nrm g))
          (hopRows src dst nrm (hopRows src dst nrm (hopRows src dst nrm g))) W2 b2 := rfl

set_option maxRecDepth 65536 in
set_option maxHeartbeats 4000000 in
theorem V_hop4 (c : Dev nD) : (VR(m, c, main_v90) : FVec Ideal SN128 .f32)
      = hopRows ((VR(m, c, main_v1) : IVec SE 32)) ((VR(m, c, main_v3) : IVec SE 32)) ((VR(m, c, main_v32) : FVec Ideal SE .f32)) ((VR(m, c, main_v77) : FVec Ideal SN128 .f32)) := by
  after_results_simp <;> rfl

set_option maxRecDepth 65536 in
set_option maxHeartbeats 4000000 in
theorem V_hop5 (c : Dev nD) : (VR(m, c, main_v103) : FVec Ideal SN128 .f32)
      = hopRows ((VR(m, c, main_v1) : IVec SE 32)) ((VR(m, c, main_v3) : IVec SE 32)) ((VR(m, c, main_v32) : FVec Ideal SE .f32)) ((VR(m, c, main_v90) : FVec Ideal SN128 .f32)) := by
  after_results_simp <;> rfl

set_option maxRecDepth 65536 in
set_option maxHeartbeats 4000000 in
theorem V_hop6 (c : Dev nD) : (VR(m, c, main_v116) : FVec Ideal SN128 .f32)
      = hopRows ((VR(m, c, main_v1) : IVec SE 32)) ((VR(m, c, main_v3) : IVec SE 32)) ((VR(m, c, main_v32) : FVec Ideal SE .f32)) ((VR(m, c, main_v103) : FVec Ideal SN128 .f32)) := by
  after_results_simp <;> rfl

set_option maxRecDepth 65536 in
set_option maxHeartbeats 4000000 in
/-- The concatenation's buffer holds the concatenation of its four operands' buffers. -/
theorem V_cat2 (c : Dev nD) : (VR(m, c, main_v117) : FVec Ideal SN512 .f32)
      = concatenate SN512 1 [⟨SN128, (VR(m, c, main_v77) : FVec Ideal SN128 .f32)⟩, ⟨SN128, (VR(m, c, main_v90) : FVec Ideal SN128 .f32)⟩,
          ⟨SN128, (VR(m, c, main_v103) : FVec Ideal SN128 .f32)⟩, ⟨SN128, (VR(m, c, main_v116) : FVec Ideal SN128 .f32)⟩] cat_hops := by
  have hsplit : (Ops.ops (F := Ideal)) = (Ops.ops (F := Ideal)).take 148 ++ (Ops.ops (F := Ideal)).drop 148 :=
    (List.take_append_drop 148 _).symm
  have hkeep : ∀ a : Ref sig .tc, (∀ o ∈ (Ops.ops (F := Ideal)).drop 148, (Proc.devRef .tc a : DevRef τ sig) ∉ o.writes) →
      after ((Ops.ops (F := Ideal)).take 148) (launchContents m c) (Proc.devRef .tc a) = VR(m, c, a) :=
    fun a ha => after_pre _ _ _ hsplit _ _ ha
  have e0 := hkeep main_v77 (by decide)
  have e1 := hkeep main_v90 (by decide)
  have e2 := hkeep main_v103 (by decide)
  have e3 := hkeep main_v116 (by decide)
  refine (after_at (Ops.ops (F := Ideal)) ((Ops.ops (F := Ideal)).take 148) ((Ops.ops (F := Ideal)).drop 149)
    (nary ![main_v77, main_v90, main_v103, main_v116] main_v117 (fun u => concatenate S100000x512 1 [⟨S100000x128, u 0⟩, ⟨S100000x128, u 1⟩, ⟨S100000x128, u 2⟩, ⟨S100000x128, u 3⟩] concatenates_S100000x128_S100000x128_S100000x128_S100000x128_S100000x512_d1) : HloOp τ sig (Elt Ideal))
    rfl (launchContents m c) (Proc.devRef .tc main_v117) (by decide)).trans ?_
  refine (nary_result (τ := τ) _ _ _ _ _ _).trans ?_
  rw [← e0, ← e1, ← e2, ← e3]
  rfl

set_option maxRecDepth 65536 in
set_option maxHeartbeats 4000000 in
theorem V_v118 (c : Dev nD) : (VR(m, c, main_v118) : FVec Ideal SN1 .f32) = Host.dotGeneral (F := Ideal) (φ₁ := .f32) (φ₂ := .f32) dot_S100000x512_S512x1_S100000x1_1_0_0_1_n_n none
        ((VR(m, c, main_v117) : FVec Ideal SN512 .f32)) ((VR(m, c, main_arg4) : FVec Ideal Cert.Tag.S512x1 .f32)) := by
  after_results_simp

set_option maxRecDepth 65536 in
set_option maxHeartbeats 4000000 in
theorem V_v120 (c : Dev nD) : (VR(m, c, main_v120) : FVec Ideal SN1 .f32) = broadcastInDim SN1 ![0, 1] bc_1x1_N1
        (broadcastInDim Cert.Tag.S1x1 ![1] bc_1_1x1 ((VR(m, c, main_arg5) : FVec Ideal Cert.Tag.S1 .f32))) := by
  after_results_simp

set_option maxRecDepth 65536 in
set_option maxHeartbeats 4000000 in
theorem V_v121_raw (c : Dev nD) : (VR(m, c, main_v121) : FVec Ideal SN1 .f32) = addf (F := Ideal) (φ := .f32) ((VR(m, c, main_v118) : FVec Ideal SN1 .f32)) ((VR(m, c, main_v120) : FVec Ideal SN1 .f32)) := by
  after_results_simp

/-- Layer 2 from the buffers of the activation, its three hops, the weight and the bias. -/
theorem V_l2_ops (c : Dev nD) : (VR(m, c, main_v121) : FVec Ideal SN1 .f32)
      = layer2Of ((VR(m, c, main_v77) : FVec Ideal SN128 .f32)) ((VR(m, c, main_v90) : FVec Ideal SN128 .f32)) ((VR(m, c, main_v103) : FVec Ideal SN128 .f32)) ((VR(m, c, main_v116) : FVec Ideal SN128 .f32))
          ((VR(m, c, main_arg4) : FVec Ideal Cert.Tag.S512x1 .f32)) ((VR(m, c, main_arg5) : FVec Ideal Cert.Tag.S1 .f32)) := by
  rw [V_v121_raw m c, V_v118 m c, V_v120 m c, V_cat2 m c]
  generalize VR(m, c, main_v77) = X0
  generalize VR(m, c, main_v90) = X1
  generalize VR(m, c, main_v103) = X2
  generalize VR(m, c, main_v116) = X3
  generalize VR(m, c, main_arg4) = W
  generalize VR(m, c, main_arg5) = B
  rfl

end Cert.ReferenceIdeal.RefValue

end
-- ==== Proof.RefValue.lean ====
/-
  The reference program, run: its result as one function of its six arguments.

  The reference is a straight line of 153 host operations, so every weakly fair execution terminates with each
  buffer at the fold of the operations over the launch contents. Read layer by layer (the three modules imported
  here), that fold leaves: the two rows of the edge list; the edge weights; three hops of the features and layer 1
  over their concatenation; three hops of the activation and layer 2 over their concatenation. Chained, the result
  buffer holds `refOut` of the six arguments, and the arguments are unchanged.
-/
import proofs.«143162_j84885733638248_2_alg».proof.Proof.RefValueA
import proofs.«143162_j84885733638248_2_alg».proof.Proof.RefValueB
import proofs.«143162_j84885733638248_2_alg».proof.Proof.RefValueC

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Tag

variable (m : (ℓ : Loc nD τ sig) → Buf (Elt Ideal) ℓ) (ρ : Dev nD → PrngReg)

/-- The contents of buffer `b` on core `c` after the program. -/
abbrev Vr (c : Dev nD) (b : Ref sig .tc) : Buf (Elt Ideal) ((c.tc : Thread nD τ).loc b) :=
  StableHlo.after (Ops.ops (F := Ideal)) (StableHlo.launchContents m c) (Proc.devRef .tc b)

set_option maxRecDepth 65536 in
set_option maxHeartbeats 4000000 in
/-- Every weakly fair execution terminates with every buffer at the fold of the operations over the launch contents. -/
theorem run_all : θ_run (defs (F := Ideal)) (onTc (τ := τ) (main (F := Ideal))) ⟨m, fun _ => 0, ρ⟩ fun r =>
    ∀ (c : Dev nD) (b : Ref sig .tc), r.2.mem ((c.tc : Thread nD τ).loc b) = Vr m c b :=
  StableHlo.run_seq Ops.scopedRefs_eq Ops.scopedSems_eq defs main (fun _ => Ops.ops) Ops.main_eq (fun _ => Ops.ops_sub) m ρ

/-- The layer-1 activation: `layer1Ref` of the edge rows, the edge weights, the features, the weight and the bias. -/
theorem V_g (c : Dev nD) : (Vr m c main_v77 : FVec Ideal SN128 .f32)
    = layer1Ref (srcOf (Vr m c main_arg1)) (dstOf (Vr m c main_arg1))
        (normOf (srcOf (Vr m c main_arg1)) (dstOf (Vr m c main_arg1))) (Vr m c main_arg0) (Vr m c main_arg2)
        (Vr m c main_arg3) := by
  unfold Vr
  rw [V_l1_ops m c, V_hop3 m c, V_hop2 m c, V_hop1 m c, V_nrm m c, V_src m c, V_dst m c, layer1Ref_eq]

/-- The result buffer: `refOut` of the six arguments. -/
theorem res_eq (c : Dev nD) : (Vr m c main_v121 : SN1.Idx → EReal)
    = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5)) := by
  have hg := V_g m c
  unfold Vr at hg ⊢
  rw [V_l2_ops m c, V_hop6 m c, V_hop5 m c, V_hop4 m c, hg, V_nrm m c, V_src m c, V_dst m c,
    V_arg0 m c, V_arg1 m c, V_arg2 m c, V_arg3 m c, V_arg4 m c, V_arg5 m c]
  unfold refOut
  rw [layer2Ref_eq]

/-- THE RUN: every weakly fair execution terminates with the result buffer at `refOut` of the arguments and the
    arguments unchanged. -/
theorem run : θ_run (defs (F := Ideal)) (onTc (τ := τ) (main (F := Ideal))) ⟨m, fun _ => 0, ρ⟩ (fun r => ∀ c : Dev nD,
      r.2.mem ((c.tc : Thread nD τ).loc main_v121)
        = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_v121).trans (res_eq m c), (h c main_arg0).trans (V_arg0 m c), (h c main_arg1).trans (V_arg1 m c),
      (h c main_arg2).trans (V_arg2 m c), (h c main_arg3).trans (V_arg3 m c), (h c main_arg4).trans (V_arg4 m c),
      (h c main_arg5).trans (V_arg5 m c)⟩)
    (run_all m ρ)

end Cert.ReferenceIdeal.RefValue

end
-- ==== Proof.lean ====
/- The proof of `Cert.Claim` (proofs.«143162_j84885733638248_2_alg».proof.Defs): hand-written, untrusted.

   The two programs compute a two-layer graph convolution with three hops per layer on 100000 nodes and 1600000
   edges. One hop P gathers the rows of a node array at the edges' source nodes, scales each by the edge's weight
   and adds it into the row of the edge's destination node; the weights are products of inverse square roots of
   the in-degrees and are real numbers whatever the edge list holds. Layer 1 is the same in both programs:
   g = relu(x·A₀ + (P x)·A₁ + (P² x)·A₂ + (P³ x)·A₃ + b₁), with A_c the four 128-row slices of the first weight.
   For layer 2 the reference concatenates g, P g, P² g, P³ g and contracts with the [512, 1] weight,
   g·W₀ + (P g)·W₁ + (P² g)·W₂ + (P³ g)·W₃ + b₂, while the kernel contracts first, u_c = g·W_c, and the host
   operations after it propagate scalars by Horner's rule, u₀ + P (u₁ + P (u₂ + P u₃)) + b₂.
   A hop is linear and acts on the node axis only, so on real-valued data the layer-2 contraction commutes with the
   hops and the two results are equal; on the extended reals that distributivity needs every value to be a real
   number, which the precondition (every entry of every float argument is finite) provides.

   Modules: Proof/Finite.lean (real-valued extended reals), Proof/HornerLaw.lean (the law over abstract finite types),
   Proof/Shapes.lean and Proof/Spec.lean (the host stages written once), Proof/RowIndexing.lean and Proof/Hops.lean
   (a gather and a scatter of rows read at an index: the abstract hop), Proof/Layers.lean (the dense operations read
   at an index), Proof/Bridge.lean (the two results are equal on real-valued inputs), Proof/Finiteness.lean (the
   precondition makes the inputs real-valued), Proof/KernelBody.lean (the kernel body's stored value at an index),
   Proof/KernelValue.lean and Proof/KernelCover.lean (what a grid point writes back; the 25 blocks cover the result array),
   Proof/KernelHost.lean (the host operations before and after the kernel, layer by layer), Proof/KernelRun.lean (the
   kernel's program ends at `kernelOut` of its arguments), Proof/RefOps.lean, Proof/RefValueA.lean, Proof/RefValueB.lean, Proof/RefValueC.lean and Proof/RefValue.lean (the
   reference's operations read layer by layer: it ends at `refOut` of its arguments),
   assembled here behind the witnesses of the programs' stated facts (the generated Proof/Gen/ instances). -/
import proofs.«143162_j84885733638248_2_alg».proof.Defs
import proofs.«143162_j84885733638248_2_alg».proof.Proof.Gen.Kernel
import proofs.«143162_j84885733638248_2_alg».proof.Proof.Gen.Kernel.Skeleton
import proofs.«143162_j84885733638248_2_alg».proof.Proof.Gen.Kernel.Launch
import proofs.«143162_j84885733638248_2_alg».proof.Proof.Gen.Kernel.Points
import proofs.«143162_j84885733638248_2_alg».proof.Proof.Gen.Kernel.Frame
import proofs.«143162_j84885733638248_2_alg».proof.Proof.Gen.KernelIdeal
import proofs.«143162_j84885733638248_2_alg».proof.Proof.Gen.KernelIdeal.Skeleton
import proofs.«143162_j84885733638248_2_alg».proof.Proof.Gen.KernelIdeal.Launch
import proofs.«143162_j84885733638248_2_alg».proof.Proof.Gen.KernelIdeal.Points
import proofs.«143162_j84885733638248_2_alg».proof.Proof.Gen.KernelIdeal.Frame
import proofs.«143162_j84885733638248_2_alg».proof.Proof.Gen.ReferenceIdeal
import proofs.«143162_j84885733638248_2_alg».proof.Proof.Gen.Pre_finite_inputs
import proofs.«143162_j84885733638248_2_alg».proof.Proof.Spec
import proofs.«143162_j84885733638248_2_alg».proof.Proof.Bridge
import proofs.«143162_j84885733638248_2_alg».proof.Proof.Finiteness
import proofs.«143162_j84885733638248_2_alg».proof.Proof.KernelRun
import proofs.«143162_j84885733638248_2_alg».proof.Proof.RefValue
import Idealize.ShloMosaic.Adequacy
import Idealize.ShloMosaic.Init

noncomputable section

namespace Cert.Proof

open Idealize.ShloMosaic Idealize.SL.Sem

/-- The kernel's program as printed runs and leaves its arguments unchanged (the generated frame). -/
theorem frame_k : Cert.frame_Kernel := fun m ρ _ => Cert.Kernel.Gen.frame m ρ

/-- The same at the ideal values. -/
theorem frame_ki : Cert.frame_KernelIdeal := fun m ρ _ => Cert.KernelIdeal.Gen.frame m ρ

/-- The reference runs and leaves its arguments unchanged: its run read back, the result forgotten. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation of the kernel's program: there is nothing to preserve. -/
theorem preserves : Cert.preserves_Kernel_KernelIdeal := trivial

/-- At the ideal values, from memories that agree on the six arguments, the kernel's program ends at
    `u₀ + P (u₁ + P (u₂ + P u₃)) + b₂` with `u_c = g·W_c` (`kernelOut`) and the reference at
    `g·W₀ + (P g)·W₁ + (P² g)·W₂ + (P³ g)·W₃ + b₂` (`refOut`), `g` the common layer-1 activation. The precondition
    makes every float argument real-valued, so the edge weights, every hop and `g` are real-valued, and a hop,
    being linear on real-valued data and acting on the node axis only, commutes with the contraction of the feature
    axis: the two results are equal (`kernelOut_eq_refOut`). -/
theorem algebraic : Cert.algebraic_KernelIdeal_ReferenceIdeal := by
  intro m ρ m' ρ' hpre hagree
  refine ⟨fun c => Cert.Tag.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1,
    (hagree c).2.2.2.2.1, (hagree c).2.2.2.2.2]
  obtain ⟨hx, hW1, hb1, hW2, hb2⟩ := Cert.Tag.real_of_pre _ _ _ _ _ _ (hpre c)
  exact (Cert.Tag.kernelOut_eq_refOut _ _ _ _ _ _ hx hW1 hb1 hW2 hb2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
